-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_
  bcast_S_S1024x3456 : S_.BroadcastsInDim S1024x3456 (![] : Fin 0 → Fin S1024x3456.rank)
  reducesTo_S1024x3456_S_d0_1 : S1024x3456.ReducesTo [0, 1] S_
  bcast_S_S3456 : S_.BroadcastsInDim S3456 (![] : Fin 0 → Fin S3456.rank)
  reducesTo_S3456_S_d0 : S3456.ReducesTo [0] S_

variable [Facts]

def fn_part2 {F : FTy → Type} [FloatOps F] (main_arg7 : FVec F S1024x3456 .f32) (main_arg8 : FVec F S3456 .f32) (main_v33 : IVec S_ 1) : IVec S_ 1 :=
  let main_v34 : FVec F S1024x3456 .f32 := Host.absf main_arg7
  let main_cst_12 : FVec F S_ .f32 := constant S_ .f32 0x7F800000#32
  let main_v35 : FVec F S1024x3456 .f32 := broadcastInDim S1024x3456 ![] bcast_S_S1024x3456 main_cst_12
  let main_v36 : IVec S1024x3456 1 := cmpf .olt main_v34 main_v35
  let main_c_13 : IVec S_ 1 := constantI S_ 1 1#1
  let main_v37 : IVec S_ 1 := (fun x v => Host.reduce IntOp.andi x v reducesTo_S1024x3456_S_d0_1 h_S_) main_v36 main_c_13
  let main_v38 : IVec S_ 1 := andi main_v33 main_v37
  let main_v39 : FVec F S3456 .f32 := Host.absf main_arg8
  let main_cst_14 : FVec F S_ .f32 := constant S_ .f32 0x7F800000#32
  let main_v40 : FVec F S3456 .f32 := broadcastInDim S3456 ![] bcast_S_S3456 main_cst_14
  let main_v41 : IVec S3456 1 := cmpf .olt main_v39 main_v40
  let main_c_15 : IVec S_ 1 := constantI S_ 1 1#1
  let main_v42 : IVec S_ 1 := (fun x v => Host.reduce IntOp.andi x v reducesTo_S3456_S_d0 h_S_) main_v41 main_c_15
  let main_v43 : IVec S_ 1 := andi main_v38 main_v42
  main_v43

def fn_part1 {F : FTy → Type} [FloatOps F] (main_arg4 : FVec F S1024 .f32) (main_arg5 : FVec F S1024x768 .f32) (main_arg6 : FVec F S768 .f32) (main_arg7 : FVec F S1024x3456 .f32) (main_arg8 : FVec F S3456 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x768 .f32 := Host.absf main_arg5
  let main_cst_8 : FVec F S_ .f32 := constant S_ .f32 0x7F800000#32
  let main_v25 : FVec F S1024x768 .f32 := broadcastInDim S1024x768 ![] bcast_S_S1024x768 main_cst_8
  let main_v26 : IVec S1024x768 1 := cmpf .olt main_v24 main_v25
  let main_c_9 : IVec S_ 1 := constantI S_ 1 1#1
  let main_v27 : IVec S_ 1 := (fun x v => Host.reduce IntOp.andi x v reducesTo_S1024x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x768 .f32) (main_arg6 : FVec F S768 .f32) (main_arg7 : FVec F S1024x3456 .f32) (main_arg8 : FVec F S3456 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S8192x96x8 : Shape := ⟨3, ![8192, 96, 8]⟩
abbrev S8192x96x8x8 : Shape := ⟨4, ![8192, 96, 8, 8]⟩
abbrev S8x1024 : Shape := ⟨2, ![8, 1024]⟩
abbrev S8x96x8 : Shape := ⟨3, ![8, 96, 8]⟩
abbrev S8x96x8x8 : Shape := ⟨4, ![8, 96, 8, 8]⟩
abbrev S1x1024 : Shape := ⟨2, ![1, 1024]⟩
abbrev S8x768 : Shape := ⟨2, ![8, 768]⟩
abbrev S1x768 : Shape := ⟨2, ![1, 768]⟩
abbrev S8x3456 : Shape := ⟨2, ![8, 3456]⟩
abbrev S1x3456 : Shape := ⟨2, ![1, 3456]⟩
abbrev S8x96x36 : Shape := ⟨3, ![8, 96, 36]⟩
abbrev S8x96x28 : Shape := ⟨3, ![8, 96, 28]⟩
abbrev S8x8 : Shape := ⟨2, ![8, 8]⟩
abbrev S8x96x8x1 : Shape := ⟨4, ![8, 96, 8, 1]⟩
abbrev S1x1x8x8 : Shape := ⟨4, ![1, 1, 8, 8]⟩
abbrev S8x96x1 : Shape := ⟨3, ![8, 96, 1]⟩
abbrev S8x96x7 : Shape := ⟨3, ![8, 96, 7]⟩
abbrev S8x96x6 : Shape := ⟨3, ![8, 96, 6]⟩
abbrev S8x96x2 : Shape := ⟨3, ![8, 96, 2]⟩
abbrev S8x96x5 : Shape := ⟨3, ![8, 96, 5]⟩
abbrev S8x96x3 : Shape := ⟨3, ![8, 96, 3]⟩
abbrev S8x96x4 : Shape := ⟨3, ![8, 96, 4]⟩
abbrev S8x96x1x8 : Shape := ⟨4, ![8, 96, 1, 8]⟩
abbrev S8x96 : Shape := ⟨2, ![8, 96]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x768, .f32⟩
  | .hbm, ⟨6, _⟩ => ⟨S768, .f32⟩
  | .hbm, ⟨7, _⟩ => ⟨S1024x3456, .f32⟩
  | .hbm, ⟨8, _⟩ => ⟨S3456, .f32⟩
  | .hbm, ⟨9, _⟩ => ⟨S1024x1024, .bf16⟩
  | .hbm, ⟨10, _⟩ => ⟨S1024x1024, .bf16⟩
  | .hbm, ⟨11, _⟩ => ⟨S1024x768, .bf16⟩
  | .hbm, ⟨12, _⟩ => ⟨S1024x3456, .bf16⟩
  | .hbm, ⟨13, _⟩ => ⟨S8192x96x8, .f32⟩
  | .hbm, ⟨14, _⟩ => ⟨S8192x96x8x8, .f32⟩
  | .hbm, ⟨15, _⟩ => ⟨S8192x96x8x8, .f32⟩
  | .hbm, ⟨16, _⟩ => ⟨S8192x96x8x8, .f32⟩
  | .local _ .vmem, ⟨0, _⟩ => ⟨S8x1024, .f32⟩
  | .local _ .vmem, ⟨1, _⟩ => ⟨S8x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x768, .bf16⟩
  | .local _ .vmem, ⟨7, _⟩ => ⟨S768, .f32⟩
  | .local _ .vmem, ⟨8, _⟩ => ⟨S1024x3456, .bf16⟩
  | .local _ .vmem, ⟨9, _⟩ => ⟨S3456, .f32⟩
  | .local _ .vmem, ⟨10, _⟩ => ⟨S8x96x8, .f32⟩
  | .local _ .vmem, ⟨11, _⟩ => ⟨S8x96x8, .f32⟩
  | .local _ .vmem, ⟨12, _⟩ => ⟨S8x96x8x8, .f32⟩
  | .local _ .vmem, ⟨13, _⟩ => ⟨S8x96x8x8, .f32⟩
  | .local _ .vmem, ⟨14, _⟩ => ⟨S8x96x8x8, .f32⟩
  | .local _ .vmem, ⟨15, _⟩ => ⟨S8x96x8x8, .f32⟩
  | .local _ .vmem, ⟨16, _⟩ => ⟨S8x96x8x8, .f32⟩
  | .local _ .vmem, ⟨17, _⟩ => ⟨S8x96x8x8, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3456 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x96x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x96x8x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x96x8x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x96x8x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S8x1024 : S1x1024.Broadcasts S8x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768_S768_0 : ∀ a, (![0] : Fin 1 → Nat) a + S768.size a ≤ S768.size a
  h_S768 : 0 < S768.numel
  shapeCasts_S768_S1x768 : S768.ShapeCasts S1x768
  broadcasts_S1x768_S8x768 : S1x768.Broadcasts S8x768
  inb_S1024x3456_S1024x3456_0_0 : ∀ a, (![0, 0] : Fin 2 → Nat) a + S1024x3456.size a ≤ S1024x3456.size a
  h_S1024x3456 : 0 < S1024x3456.numel
  shapeCasts_S1024x3456_S1024x3456 : S1024x3456.ShapeCasts S1024x3456
  inb_S3456_S3456_0 : ∀ a, (![0] : Fin 1 → Nat) a + S3456.size a ≤ S3456.size a
  h_S3456 : 0 < S3456.numel
  shapeCasts_S3456_S1x3456 : S3456.ShapeCasts S1x3456
  broadcasts_S1x3456_S8x3456 : S1x3456.Broadcasts S8x3456
  shapeCasts_S8x768_S8x96x8 : S8x768.ShapeCasts S8x96x8
  shapeCasts_S8x3456_S8x96x36 : S8x3456.ShapeCasts S8x96x36
  slices_S8x96x36_o0_0_0_S8x96x8 : S8x96x36.Slices ![0, 0, 0] S8x96x8
  slices_S8x96x36_o0_0_8_S8x96x28 : S8x96x36.Slices ![0, 0, 8] S8x96x28
  iota_S8x8_d0_w32 : S8x8.Iotas .tc 32 [0]
  iota_S8x8_d1_w32 : S8x8.Iotas .tc 32 [1]
  natLt_1_32 : 1 < 32
  shapeCasts_S8x96x8_S8x96x8x1 : S8x96x8.ShapeCasts S8x96x8x1
  shapeCasts_S8x8_S1x1x8x8 : S8x8.ShapeCasts S1x1x8x8
  broadcasts_S8x96x8x1_S8x96x8x8 : S8x96x8x1.Broadcasts S8x96x8x8
  broadcasts_S1x1x8x8_S8x96x8x8 : S1x1x8x8.Broadcasts S8x96x8x8
  slices_S8x96x28_o0_0_0_S8x96x7 : S8x96x28.Slices ![0, 0, 0] S8x96x7
  concatenates_S8x96x1_S8x96x7_S8x96x8_d2 : Shape.Concatenates [S8x96x1, S8x96x7] S8x96x8 2
  slices_S8x96x28_o0_0_7_S8x96x6 : S8x96x28.Slices ![0, 0, 7] S8x96x6
  concatenates_S8x96x1_S8x96x1_S8x96x6_S8x96x8_d2 : Shape.Concatenates [S8x96x1, S8x96x1, S8x96x6] S8x96x8 2
  slices_S8x96x28_o0_0_13_S8x96x5 : S8x96x28.Slices ![0, 0, 13] S8x96x5
  concatenates_S8x96x2_S8x96x1_S8x96x5_S8x96x8_d2 : Shape.Concatenates [S8x96x2, S8x96x1, S8x96x5] S8x96x8 2
  slices_S8x96x28_o0_0_18_S8x96x4 : S8x96x28.Slices ![0, 0, 18] S8x96x4
  concatenates_S8x96x3_S8x96x1_S8x96x4_S8x96x8_d2 : Shape.Concatenates [S8x96x3, S8x96x1, S8x96x4] S8x96x8 2
  slices_S8x96x28_o0_0_22_S8x96x3 : S8x96x28.Slices ![0, 0, 22] S8x96x3
  concatenates_S8x96x4_S8x96x1_S8x96x3_S8x96x8_d2 : Shape.Concatenates [S8x96x4, S8x96x1, S8x96x3] S8x96x8 2
  slices_S8x96x28_o0_0_25_S8x96x2 : S8x96x28.Slices ![0, 0, 25] S8x96x2
  concatenates_S8x96x5_S8x96x1_S8x96x2_S8x96x8_d2 : Shape.Concatenates [S8x96x5, S8x96x1, S8x96x2] S8x96x8 2
  slices_S8x96x28_o0_0_27_S8x96x1 : S8x96x28.Slices ![0, 0, 27] S8x96x1
  concatenates_S8x96x6_S8x96x1_S8x96x1_S8x96x8_d2 : Shape.Concatenates [S8x96x6, S8x96x1, S8x96x1] S8x96x8 2
  concatenates_S8x96x7_S8x96x1_S8x96x8_d2 : Shape.Concatenates [S8x96x7, S8x96x1] S8x96x8 2
  shapeCasts_S8x96x8_S8x96x1x8 : S8x96x8.ShapeCasts S8x96x1x8
  concatenates_S8x96x1x8_S8x96x1x8_S8x96x1x8_S8x96x1x8_S8x96x1x8_S8x96x1x8_S8x96x1x8_S8x96x1x8_S8x96x8x8_d2 : Shape.Concatenates [S8x96x1x8, S8x96x1x8, S8x96x1x8, S8x96x1x8, S8x96x1x8, S8x96x1x8, S8x96x1x8, S8x96x1x8] S8x96x8x8 2
  slices_S8x96x8x8_o0_0_0_0_S8x96x1x8 : S8x96x8x8.Slices ![0, 0, 0, 0] S8x96x1x8
  shapeCasts_S8x96x1x8_S8x96x8 : S8x96x1x8.ShapeCasts S8x96x8
  slices_S8x96x8_o0_0_0_S8x96x1 : S8x96x8.Slices ![0, 0, 0] S8x96x1
  shapeCasts_S8x96x1_S8x96 : S8x96x1.ShapeCasts S8x96
  shapeCasts_S8x96_S8x96x1 : S8x96.ShapeCasts S8x96x1
  broadcasts_S8x96x1_S8x96x8 : S8x96x1.Broadcasts S8x96x8
  broadcasts_S8x96x1x8_S8x96x8x8 : S8x96x1x8.Broadcasts S8x96x8x8
  slices_S8x96x8x8_o0_0_1_0_S8x96x1x8 : S8x96x8x8.Slices ![0, 0, 1, 0] S8x96x1x8
  slices_S8x96x8_o0_0_1_S8x96x1 : S8x96x8.Slices ![0, 0, 1] S8x96x1
  slices_S8x96x8x8_o0_0_2_0_S8x96x1x8 : S8x96x8x8.Slices ![0, 0, 2, 0] S8x96x1x8
  slices_S8x96x8_o0_0_2_S8x96x1 : S8x96x8.Slices ![0, 0, 2] S8x96x1
  slices_S8x96x8x8_o0_0_3_0_S8x96x1x8 : S8x96x8x8.Slices ![0, 0, 3, 0] S8x96x1x8
  slices_S8x96x8_o0_0_3_S8x96x1 : S8x96x8.Slices ![0, 0, 3] S8x96x1
  slices_S8x96x8x8_o0_0_4_0_S8x96x1x8 : S8x96x8x8.Slices ![0, 0, 4, 0] S8x96x1x8
  slices_S8x96x8_o0_0_4_S8x96x1 : S8x96x8.Slices ![0, 0, 4] S8x96x1
  slices_S8x96x8x8_o0_0_5_0_S8x96x1x8 : S8x96x8x8.Slices ![0, 0, 5, 0] S8x96x1x8
  slices_S8x96x8_o0_0_5_S8x96x1 : S8x96x8.Slices ![0, 0, 5] S8x96x1
  slices_S8x96x8x8_o0_0_6_0_S8x96x1x8 : S8x96x8x8.Slices ![0, 0, 6, 0] S8x96x1x8
  slices_S8x96x8_o0_0_6_S8x96x1 : S8x96x8.Slices ![0, 0, 6] S8x96x1
  slices_S8x96x8x8_o0_0_7_0_S8x96x1x8 : S8x96x8x8.Slices ![0, 0, 7, 0] S8x96x1x8
  slices_S8x96x8_o0_0_7_S8x96x1 : S8x96x8.Slices ![0, 0, 7] S8x96x1
  inb_S8x96x8_S8x96x8_0_0_0 : ∀ a, (![0, 0, 0] : Fin 3 → Nat) a + S8x96x8.size a ≤ S8x96x8.size a
  h_S8x96x8 : 0 < S8x96x8.numel
  inb_S8x96x8x8_S8x96x8x8_0_0_0_0 : ∀ a, (![0, 0, 0, 0] : Fin 4 → Nat) a + S8x96x8x8.size a ≤ S8x96x8x8.size a
  h_S8x96x8x8 : 0 < S8x96x8x8.numel
  dot_S8x1024_S1024x1024_S8x1024_1_0_0_1_n_n_wf : DotDims.WF S8x1024 S1024x1024 S8x1024 [1] [0] [0] [1] [] []
  dot_S8x1024_S1024x768_S8x768_1_0_0_1_n_n_wf : DotDims.WF S8x1024 S1024x768 S8x768 [1] [0] [0] [1] [] []
  dot_S8x1024_S1024x3456_S8x3456_1_0_0_1_n_n_wf : DotDims.WF S8x1024 S1024x3456 S8x3456 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8192x1024.size a
  hwx0_0 : ∀ i : grid0.Coords, EltTy.bits .f32 = 32 ∨ (Rect.block (s := S8192x1024) S8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S1024x768.size a
  hwx0_5 : ∀ i : grid0.Coords, EltTy.bits .bf16 = 32 ∨ (Rect.block (s := S1024x768) S1024x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x3456.size a ≤ S1024x3456.size a
  hwx0_7 : ∀ i : grid0.Coords, EltTy.bits .bf16 = 32 ∨ (Rect.block (s := S1024x3456) S1024x3456.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3456.size a ≤ S3456.size a
  hwx0_8 : ∀ i : grid0.Coords, EltTy.bits .f32 = 32 ∨ (Rect.block (s := S3456) S3456.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x96x8.size a ≤ S8192x96x8.size a
  hwx0_9 : ∀ i : grid0.Coords, EltTy.bits .f32 = 32 ∨ (Rect.block (s := S8192x96x8) S8x96x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x96x8x8.size a ≤ S8192x96x8x8.size a
  hwx0_10 : ∀ i : grid0.Coords, EltTy.bits .f32 = 32 ∨ (Rect.block (s := S8192x96x8x8) S8x96x8x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x96x8x8.size a ≤ S8192x96x8x8.size a
  hwx0_11 : ∀ i : grid0.Coords, EltTy.bits .f32 = 32 ∨ (Rect.block (s := S8192x96x8x8) S8x96x8x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x96x8x8.size a ≤ S8192x96x8x8.size a
  hwx0_12 : ∀ i : grid0.Coords, EltTy.bits .f32 = 32 ∨ (Rect.block (s := S8192x96x8x8) S8x96x8x8.size (cc0_transform_12 i) (hinb0_12 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x768_S8x768_1_0_0_1_n_n : DotDims S8x1024 S1024x768 S8x768 where
  lhsContracting := [1]
  rhsContracting := [0]
  lhsNonContracting := [0]
  rhsNonContracting := [1]
  lhsBatch := []
  rhsBatch := []
  wf := dot_S8x1024_S1024x768_S8x768_1_0_0_1_n_n_wf
def dot_S8x1024_S1024x3456_S8x3456_1_0_0_1_n_n : DotDims S8x1024 S1024x3456 S8x3456 where
  lhsContracting := [1]
  rhsContracting := [0]
  lhsNonContracting := [0]
  rhsNonContracting := [1]
  lhsBatch := []
  rhsBatch := []
  wf := dot_S8x1024_S1024x3456_S8x3456_1_0_0_1_n_n_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x3456.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3456.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S8x96x8.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S8x96x8x8.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S8x96x8x8.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S8x96x8x8.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S28 : Shape := ⟨1, ![28]⟩
abbrev S1x1024 : Shape := ⟨2, ![1, 1024]⟩
abbrev S_ : Shape := ⟨0, ![]⟩
abbrev S8192x768 : Shape := ⟨2, ![8192, 768]⟩
abbrev S1x768 : Shape := ⟨2, ![1, 768]⟩
abbrev S8192x96x8 : Shape := ⟨3, ![8192, 96, 8]⟩
abbrev S8192x3456 : Shape := ⟨2, ![8192, 3456]⟩
abbrev S1x3456 : Shape := ⟨2, ![1, 3456]⟩
abbrev S8192x96x36 : Shape := ⟨3, ![8192, 96, 36]⟩
abbrev S8192x96x28 : Shape := ⟨3, ![8192, 96, 28]⟩
abbrev S8x8 : Shape := ⟨2, ![8, 8]⟩
abbrev S8192x96x8x1 : Shape := ⟨4, ![8192, 96, 8, 1]⟩
abbrev S1x1x8x8 : Shape := ⟨4, ![1, 1, 8, 8]⟩
abbrev S8192x96x8x8 : Shape := ⟨4, ![8192, 96, 8, 8]⟩
abbrev S28x1 : Shape := ⟨2, ![28, 1]⟩
abbrev S28x2 : Shape := ⟨2, ![28, 2]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x768, .f32⟩
  | .hbm, ⟨6, _⟩ => ⟨S768, .f32⟩
  | .hbm, ⟨7, _⟩ => ⟨S1024x3456, .f32⟩
  | .hbm, ⟨8, _⟩ => ⟨S3456, .f32⟩
  | .hbm, ⟨9, _⟩ => ⟨S28, .i32⟩
  | .hbm, ⟨10, _⟩ => ⟨S28, .i1⟩
  | .hbm, ⟨11, _⟩ => ⟨S28, .i32⟩
  | .hbm, ⟨12, _⟩ => ⟨S28, .i1⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x768, .f32⟩
  | .hbm, ⟨31, _⟩ => ⟨S1x768, .f32⟩
  | .hbm, ⟨32, _⟩ => ⟨S8192x768, .f32⟩
  | .hbm, ⟨33, _⟩ => ⟨S8192x768, .f32⟩
  | .hbm, ⟨34, _⟩ => ⟨S8192x96x8, .f32⟩
  | .hbm, ⟨35, _⟩ => ⟨S8192x3456, .f32⟩
  | .hbm, ⟨36, _⟩ => ⟨S1x3456, .f32⟩
  | .hbm, ⟨37, _⟩ => ⟨S8192x3456, .f32⟩
  | .hbm, ⟨38, _⟩ => ⟨S8192x3456, .f32⟩
  | .hbm, ⟨39, _⟩ => ⟨S8192x96x36, .f32⟩
  | .hbm, ⟨40, _⟩ => ⟨S8192x96x8, .f32⟩
  | .hbm, ⟨41, _⟩ => ⟨S8192x96x28, .f32⟩
  | .hbm, ⟨42, _⟩ => ⟨S_, .f32⟩
  | .hbm, ⟨43, _⟩ => ⟨S8192x96x8, .f32⟩
  | .hbm, ⟨44, _⟩ => ⟨S8192x96x8, .f32⟩
  | .hbm, ⟨45, _⟩ => ⟨S8192x96x8, .f32⟩
  | .hbm, ⟨46, _⟩ => ⟨S8x8, .i32⟩
  | .hbm, ⟨47, _⟩ => ⟨S8x8, .i32⟩
  | .hbm, ⟨48, _⟩ => ⟨S_, .i32⟩
  | .hbm, ⟨49, _⟩ => ⟨S8x8, .i32⟩
  | .hbm, ⟨50, _⟩ => ⟨S8x8, .i32⟩
  | .hbm, ⟨51, _⟩ => ⟨S8x8, .i1⟩
  | .hbm, ⟨52, _⟩ => ⟨S8x8, .f32⟩
  | .hbm, ⟨53, _⟩ => ⟨S8192x96x8x1, .f32⟩
  | .hbm, ⟨54, _⟩ => ⟨S1x1x8x8, .f32⟩
  | .hbm, ⟨55, _⟩ => ⟨S8192x96x8x8, .f32⟩
  | .hbm, ⟨56, _⟩ => ⟨S8192x96x8x8, .f32⟩
  | .hbm, ⟨57, _⟩ => ⟨S8192x96x8x8, .f32⟩
  | .hbm, ⟨58, _⟩ => ⟨S_, .f32⟩
  | .hbm, ⟨59, _⟩ => ⟨S8192x96x8, .f32⟩
  | .hbm, ⟨60, _⟩ => ⟨S8192x96x8, .f32⟩
  | .hbm, ⟨61, _⟩ => ⟨S8192x96x8x1, .f32⟩
  | .hbm, ⟨62, _⟩ => ⟨S8192x96x8x8, .f32⟩
  | .hbm, ⟨63, _⟩ => ⟨S_, .i32⟩
  | .hbm, ⟨64, _⟩ => ⟨S28, .i32⟩
  | .hbm, ⟨65, _⟩ => ⟨S28, .i32⟩
  | .hbm, ⟨66, _⟩ => ⟨S28, .i32⟩
  | .hbm, ⟨67, _⟩ => ⟨S_, .i32⟩
  | .hbm, ⟨68, _⟩ => ⟨S28, .i32⟩
  | .hbm, ⟨69, _⟩ => ⟨S28, .i32⟩
  | .hbm, ⟨70, _⟩ => ⟨S28, .i32⟩
  | .hbm, ⟨71, _⟩ => ⟨S28x1, .i32⟩
  | .hbm, ⟨72, _⟩ => ⟨S28x1, .i32⟩
  | .hbm, ⟨73, _⟩ => ⟨S28x2, .i32⟩
  | .hbm, ⟨74, _⟩ => ⟨S8192x96x8x8, .f32⟩
  | .hbm, ⟨75, _⟩ => ⟨S8192x96x8x8, .f32⟩
  | .hbm, ⟨76, _⟩ => ⟨S8192x96x8x8, .f32⟩
  | .hbm, ⟨77, _⟩ => ⟨S8192x96x8x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  shapeCasts_S8192x768_S8192x96x8 : S8192x768.ShapeCasts S8192x96x8
  bcast_S3456_S1x3456_1 : S3456.BroadcastsInDim S1x3456 (![1] : Fin 1 → Fin S1x3456.rank)
  bcast_S1x3456_S8192x3456_0_1 : S1x3456.BroadcastsInDim S8192x3456 (![0, 1] : Fin 2 → Fin S8192x3456.rank)
  shapeCasts_S8192x3456_S8192x96x36 : S8192x3456.ShapeCasts S8192x96x36
  slices_S8192x96x36_S8192x96x8_0_0_0 : S8192x96x36.Slices ![0, 0, 0] S8192x96x8
  slices_S8192x96x36_S8192x96x28_0_0_8 : S8192x96x36.Slices ![0, 0, 8] S8192x96x28
  bcast_S_S8192x96x8 : S_.BroadcastsInDim S8192x96x8 (![] : Fin 0 → Fin S8192x96x8.rank)
  bcast_S_S8x8 : S_.BroadcastsInDim S8x8 (![] : Fin 0 → Fin S8x8.rank)
  bcast_S8192x96x8_S8192x96x8x1_0_1_2 : S8192x96x8.BroadcastsInDim S8192x96x8x1 (![0, 1, 2] : Fin 3 → Fin S8192x96x8x1.rank)
  bcast_S8x8_S1x1x8x8_2_3 : S8x8.BroadcastsInDim S1x1x8x8 (![2, 3] : Fin 2 → Fin S1x1x8x8.rank)
  bcast_S8192x96x8x1_S8192x96x8x8_0_1_2_3 : S8192x96x8x1.BroadcastsInDim S8192x96x8x8 (![0, 1, 2, 3] : Fin 4 → Fin S8192x96x8x8.rank)
  bcast_S1x1x8x8_S8192x96x8x8_0_1_2_3 : S1x1x8x8.BroadcastsInDim S8192x96x8x8 (![0, 1, 2, 3] : Fin 4 → Fin S8192x96x8x8.rank)
  bcast_S8x8_S8192x96x8x8_2_3 : S8x8.BroadcastsInDim S8192x96x8x8 (![2, 3] : Fin 2 → Fin S8192x96x8x8.rank)
  bcast_S_S28 : S_.BroadcastsInDim S28 (![] : Fin 0 → Fin S28.rank)
  bcast_S28_S28x1_0 : S28.BroadcastsInDim S28x1 (![0] : Fin 1 → Fin S28x1.rank)
  concatenates_S28x1_S28x1_S28x2_d1 : Shape.Concatenates [S28x1, S28x1] S28x2 1
  dot_S8192x1024_S1024x1024_S8192x1024_1_0_0_1_n_n_wf : DotDims.WF S8192x1024 S1024x1024 S8192x1024 [1] [0] [0] [1] [] []
  dot_S8192x1024_S1024x768_S8192x768_1_0_0_1_n_n_wf : DotDims.WF S8192x1024 S1024x768 S8192x768 [1] [0] [0] [1] [] []
  dot_S8192x1024_S1024x3456_S8192x3456_1_0_0_1_n_n_wf : DotDims.WF S8192x1024 S1024x3456 S8192x3456 [1] [0] [0] [1] [] []
  scatter_S8192x96x8x8_S28x2_S8192x96x28_01_23_23_1_wf : ScatterDims.WF S8192x96x8x8 S28x2 S8192x96x28 [0, 1] [2, 3] [2, 3] 1
  dot_S8192x96x8x8_S8192x96x8x8_S8192x96x8x8_2_2_3_3_01_01_wf : DotDims.WF S8192x96x8x8 S8192x96x8x8 S8192x96x8x8 [2] [2] [3] [3] [0, 1] [0, 1]

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x768_S8192x768_1_0_0_1_n_n : DotDims S8192x1024 S1024x768 S8192x768 where
  lhsContracting := [1]
  rhsContracting := [0]
  lhsNonContracting := [0]
  rhsNonContracting := [1]
  lhsBatch := []
  rhsBatch := []
  wf := dot_S8192x1024_S1024x768_S8192x768_1_0_0_1_n_n_wf
def dot_S8192x1024_S1024x3456_S8192x3456_1_0_0_1_n_n : DotDims S8192x1024 S1024x3456 S8192x3456 where
  lhsContracting := [1]
  rhsContracting := [0]
  lhsNonContracting := [0]
  rhsNonContracting := [1]
  lhsBatch := []
  rhsBatch := []
  wf := dot_S8192x1024_S1024x3456_S8192x3456_1_0_0_1_n_n_wf
def scatter_S8192x96x8x8_S28x2_S8192x96x28_01_23_23_1 : ScatterDims S8192x96x8x8 S28x2 S8192x96x28 where
  updateWindowDims := [0, 1]
  insertedWindowDims := [2, 3]
  scatterDimsToOperandDims := [2, 3]
  indexVectorDim := 1
  wf := scatter_S8192x96x8x8_S28x2_S8192x96x28_01_23_23_1_wf
def dot_S8192x96x8x8_S8192x96x8x8_S8192x96x8x8_2_2_3_3_01_01 : DotDims S8192x96x8x8 S8192x96x8x8 S8192x96x8x8 where
  lhsContracting := [2]
  rhsContracting := [2]
  lhsNonContracting := [3]
  rhsNonContracting := [3]
  lhsBatch := [0, 1]
  rhsBatch := [0, 1]
  wf := dot_S8192x96x8x8_S8192x96x8x8_S8192x96x8x8_2_2_3_3_01_01_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Spec.lean ====
/-
  What the kernel and the reference both compute, as plain functions on the extended reals.

  A row z_b of 1024 numbers goes through two dense layers with a sigmoid-weighted unit between them,
  h = silu(z_b · W1 + b1) · W2 + b2, and two more dense layers give 768 "mean" numbers and 3456 "log-variance"
  numbers, read as 96 groups of 8 and 96 groups of 36.  A group of 36 numbers v splits into 8 diagonal parameters
  v(0..7) and 28 strict-upper parameters v(8..35), listed row by row (row i owns columns i+1..7).  From them:
  d(i) = exp(v(i)/2);  D = diag(d);  T = the upper unit-triangular matrix with the 28 parameters above the diagonal;
  and the precision matrix  P(i, k) = Σ_j T(j, i) · (T(j, k) · exp(-v(j)/2)) = (Tᵀ D⁻¹ T)(i, k).
  One program scales row j of T by exp(-v(j)/2), the other by 1 / exp(v(j)/2): the same extended real for EVERY v(j),
  infinite ones included (exp_neg_half below), so no finiteness of the inputs is used anywhere.
-/
import Idealize.ShloMosaic.Lib.ValueIdx
import Idealize.ShloMosaic.PureOps.Ideal.Laws
import proofs.«165734_j10067403341934_2_alg».proof.Proof.LibRowDot

noncomputable section

open scoped BigOperators

namespace Cert.Spec

open Idealize.ShloMosaic Idealize.ShloMosaic.ValueIdx Cert.RowDot

/-! ## The four float words the programs spell -/

/-- The word 0x00000000 denotes 0. -/
theorem zeroW_eq : Ideal.ofBits .f32 0x00000000#32 = (0 : EReal) := by
  simp [Ideal.ofBits, Ideal.ieee]

/-- The word 0x3F800000 denotes 1. -/
theorem oneW_eq : Ideal.ofBits .f32 0x3F800000#32 = (1 : EReal) := by
  simp [Ideal.ofBits, Ideal.ieee, -EReal.coe_mul]; norm_num

/-- The word 0x3F000000 denotes 1/2. -/
theorem halfW_eq : Ideal.ofBits .f32 0x3F000000#32 = (((1 / 2 : ℝ)) : EReal) := by
  simp [Ideal.ofBits, Ideal.ieee, -EReal.coe_mul]; norm_num

/-- The word 0xBF000000 denotes -1/2. -/
theorem negHalfW_eq : Ideal.ofBits .f32 0xBF000000#32 = (((-(1 / 2) : ℝ)) : EReal) := by
  simp [Ideal.ofBits, Ideal.ieee, -EReal.coe_mul]; norm_num

/-- exp(-x/2) = 1 / exp(x/2) on the extended reals: at -∞ both are +∞ (1/0 = +∞), at +∞ both are 0. -/
theorem exp_neg_half (x : EReal) :
    Ideal.exp (Ideal.ofBits .f32 0xBF000000#32 * x)
      = Ideal.div (Ideal.ofBits .f32 0x3F800000#32) (Ideal.exp (Ideal.ofBits .f32 0x3F000000#32 * x)) := by
  rw [negHalfW_eq, halfW_eq, oneW_eq]
  induction x using EReal.rec with
  | bot =>
    rw [EReal.coe_mul_bot_of_neg (by norm_num), EReal.coe_mul_bot_of_pos (by norm_num), Ideal.exp_top, Ideal.exp_bot,
      Ideal.div, if_pos rfl, if_pos zero_lt_one]
  | coe r =>
    rw [← EReal.coe_mul, ← EReal.coe_mul]
    show ((Real.exp (-(1 / 2) * r) : ℝ) : EReal) = Ideal.div 1 ((Real.exp (1 / 2 * r) : ℝ) : EReal)
    have hne : ((Real.exp (1 / 2 * r) : ℝ) : EReal) ≠ 0 := by
      rw [ne_eq, EReal.coe_eq_zero]; exact (Real.exp_pos _).ne'
    rw [Ideal.div, if_neg hne, one_mul, ← EReal.coe_inv, ← Real.exp_neg]
    congr 2; ring
  | top =>
    rw [EReal.coe_mul_top_of_neg (by norm_num), EReal.coe_mul_top_of_pos (by norm_num), Ideal.exp_top, Ideal.exp_bot,
      Ideal.div, if_neg (by simp), EReal.inv_top, mul_zero]

/-! ## Rows -/

/-- A dense layer on one row: entry q is (row · W)(q) + b(q). -/
def dense {K N : Nat} (W : (⟨2, ![K, N]⟩ : Shape).Idx → EReal) (b : (⟨1, ![N]⟩ : Shape).Idx → EReal)
    (row : Fin K → EReal) : Fin N → EReal :=
  fun q => rowDot row W q + b (ix1 q)

/-- The sigmoid-weighted unit x · 1/(1 + e^(-x)). -/
def silu (x : EReal) : EReal := x * Ideal.logistic x

/-- The hidden row h = silu(z · W1 + b1) · W2 + b2. -/
def hiddenRow (W1 : (⟨2, ![1024, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (z : Fin 1024 → EReal) : Fin 1024 → EReal :=
  dense W2 b2 fun k => silu (dense W1 b1 z k)

/-! ## One group of 36 parameters -/

/-- Where row i's strict-upper parameters start among the 28. -/
def triOff : Fin 8 → Nat := ![0, 7, 13, 18, 22, 25, 27, 28]

/-- The position computed for a pair i < j lies among the 36. -/
theorem tri_lt : ∀ i j : Fin 8, i.val < j.val → 8 + (triOff i + (j.val - i.val - 1)) < 36 := by decide

/-- The position among the 36 of diagonal parameter i. -/
def dpos (i : Fin 8) : Fin 36 := ⟨i.val, by omega⟩
/-- The position among the 36 of the parameter at (i, j), i < j. -/
def tpos (i j : Fin 8) (h : i.val < j.val) : Fin 36 := ⟨8 + (triOff i + (j.val - i.val - 1)), tri_lt i j h⟩

/-- The identity matrix. -/
def eye (i j : Fin 8) : EReal := if i = j then 1 else 0

/-- D = diag(exp(v(i)/2)). -/
def Dmat (v : Fin 36 → EReal) (i j : Fin 8) : EReal :=
  Ideal.exp (Ideal.ofBits .f32 0x3F000000#32 * v (dpos i)) * eye i j

/-- T: the parameters above the diagonal, ones on it, zeros below. -/
def Tmat (v : Fin 36 → EReal) (i j : Fin 8) : EReal :=
  if h : i.val < j.val then v (tpos i j h) else eye i j

/-- P(i, k) = Σ_j T(j, i) · (T(j, k) · exp(-v(j)/2)). -/
def Pmat (v : Fin 36 → EReal) (i k : Fin 8) : EReal :=
  ∑ j : Fin 8, Tmat v j i * (Tmat v j k * Ideal.exp (Ideal.ofBits .f32 0xBF000000#32 * v (dpos j)))

/-- Position q = f · n + e of entry e of group f in a row of 96 groups of n. -/
def gpos (n : Nat) (f : Fin 96) (e : Fin n) : Fin (96 * n) :=
  ⟨f.val * n + e.val, by
    have hf := f.isLt; have he := e.isLt
    calc f.val * n + e.val < f.val * n + n := by omega
      _ = (f.val + 1) * n := by ring
      _ ≤ 96 * n := Nat.mul_le_mul_right n (by omega)⟩

/-! ## The four result arrays as functions of the nine argument arrays -/

section Arrays
variable (z : (⟨2, ![8192, 1024]⟩ : Shape).Idx → EReal)
  (W1 : (⟨2, ![1024, 1024]⟩ : Shape).Idx → EReal) (b1 : (⟨1, ![1024]⟩ : Shape).Idx → EReal)
  (W2 : (⟨2, ![1024, 1024]⟩ : Shape).Idx → EReal) (b2 : (⟨1, ![1024]⟩ : Shape).Idx → EReal)

/-- The mean of row b, group f, position o. -/
def meansAt (Wm : (⟨2, ![1024, 768]⟩ : Shape).Idx → EReal) (bm : (⟨1, ![768]⟩ : Shape).Idx → EReal)
    (b : Fin 8192) (f : Fin 96) (o : Fin 8) : EReal :=
  dense Wm bm (hiddenRow W1 b1 W2 b2 fun k => z (ix2 b k)) (gpos 8 f o)

/-- The 36 log-variance numbers of row b, group f. -/
def group (Wv : (⟨2, ![1024, 3456]⟩ : Shape).Idx → EReal) (bv : (⟨1, ![3456]⟩ : Shape).Idx → EReal)
    (b : Fin 8192) (f : Fin 96) : Fin 36 → EReal :=
  fun e => dense Wv bv (hiddenRow W1 b1 W2 b2 fun k => z (ix2 b k)) (gpos 36 f e)

/-- The mean array: entry (b, f, o) is the mean of row b, group f, position o. -/
def Gmeans (Wm : (⟨2, ![1024, 768]⟩ : Shape).Idx → EReal) (bm : (⟨1, ![768]⟩ : Shape).Idx → EReal) :
    (⟨3, ![8192, 96, 8]⟩ : Shape).Idx → EReal :=
  fun j => meansAt z W1 b1 W2 b2 Wm bm ⟨(j 0).val, (j 0).isLt⟩ ⟨(j 1).val, (j 1).isLt⟩ ⟨(j 2).val, (j 2).isLt⟩

/-- The precision array: entry (b, f, i, k) is P(i, k) of the 36 log-variance numbers of row b, group f. -/
def Gprec (Wv : (⟨2, ![1024, 3456]⟩ : Shape).Idx → EReal) (bv : (⟨1, ![3456]⟩ : Shape).Idx → EReal) :
    (⟨4, ![8192, 96, 8, 8]⟩ : Shape).Idx → EReal :=
  fun j => Pmat (group z W1 b1 W2 b2 Wv bv ⟨(j 0).val, (j 0).isLt⟩ ⟨(j 1).val, (j 1).isLt⟩) ⟨(j 2).val, (j 2).isLt⟩ ⟨(j 3).val, (j 3).isLt⟩

/-- The diagonal-scale array: entry (b, f, i, j) is D(i, j) of the 36 log-variance numbers of row b, group f. -/
def Gdiag (Wv : (⟨2, ![1024, 3456]⟩ : Shape).Idx → EReal) (bv : (⟨1, ![3456]⟩ : Shape).Idx → EReal) :
    (⟨4, ![8192, 96, 8, 8]⟩ : Shape).Idx → EReal :=
  fun j => Dmat (group z W1 b1 W2 b2 Wv bv ⟨(j 0).val, (j 0).isLt⟩ ⟨(j 1).val, (j 1).isLt⟩) ⟨(j 2).val, (j 2).isLt⟩ ⟨(j 3).val, (j 3).isLt⟩

/-- The triangular array: entry (b, f, i, j) is T(i, j) of the 36 log-variance numbers of row b, group f. -/
def Gtri (Wv : (⟨2, ![1024, 3456]⟩ : Shape).Idx → EReal) (bv : (⟨1, ![3456]⟩ : Shape).Idx → EReal) :
    (⟨4, ![8192, 96, 8, 8]⟩ : Shape).Idx → EReal :=
  fun j => Tmat (group z W1 b1 W2 b2 Wv bv ⟨(j 0).val, (j 0).isLt⟩ ⟨(j 1).val, (j 1).isLt⟩) ⟨(j 2).val, (j 2).isLt⟩ ⟨(j 3).val, (j 3).isLt⟩

/-- The mean array at the entry with coordinates (b, f, o). -/
theorem Gmeans_ix (Wm : (⟨2, ![1024, 768]⟩ : Shape).Idx → EReal) (bm : (⟨1, ![768]⟩ : Shape).Idx → EReal)
    (b : Fin 8192) (f : Fin 96) (o : Fin 8) :
    Gmeans z W1 b1 W2 b2 Wm bm (ix3 b f o) = meansAt z W1 b1 W2 b2 Wm bm b f o := rfl
/-- The precision array at the entry with coordinates (b, f, i, k). -/
theorem Gprec_ix (Wv : (⟨2, ![1024, 3456]⟩ : Shape).Idx → EReal) (bv : (⟨1, ![3456]⟩ : Shape).Idx → EReal)
    (b : Fin 8192) (f : Fin 96) (i k : Fin 8) :
    Gprec z W1 b1 W2 b2 Wv bv (ix4 b f i k) = Pmat (group z W1 b1 W2 b2 Wv bv b f) i k := rfl
/-- The diagonal-scale array at the entry with coordinates (b, f, i, j). -/
theorem Gdiag_ix (Wv : (⟨2, ![1024, 3456]⟩ : Shape).Idx → EReal) (bv : (⟨1, ![3456]⟩ : Shape).Idx → EReal)
    (b : Fin 8192) (f : Fin 96) (i j : Fin 8) :
    Gdiag z W1 b1 W2 b2 Wv bv (ix4 b f i j) = Dmat (group z W1 b1 W2 b2 Wv bv b f) i j := rfl
/-- The triangular array at the entry with coordinates (b, f, i, j). -/
theorem Gtri_ix (Wv : (⟨2, ![1024, 3456]⟩ : Shape).Idx → EReal) (bv : (⟨1, ![3456]⟩ : Shape).Idx → EReal)
    (b : Fin 8192) (f : Fin 96) (i j : Fin 8) :
    Gtri z W1 b1 W2 b2 Wv bv (ix4 b f i j) = Tmat (group z W1 b1 W2 b2 Wv bv b f) i j := rfl

end Arrays

end Cert.Spec

end
-- ==== Proof.KDense.lean ====
/-
  The four dense layers of the kernel's body, read one entry at a time.

  A block holds 8 rows of z.  Each layer is the vector unit's product of the block with a whole weight matrix into a
  zero accumulator plus the bias spread over the 8 rows, so entry (r, q) of a layer's result depends on row r of the
  block only: it is the layer applied to that row, at q.  The hidden block is two layers with the sigmoid-weighted unit
  between them; the mean block and the log-variance block are one more layer each, recast as 96 groups of 8 and of 36.
-/
import proofs.«165734_j10067403341934_2_alg».proof.Proof.Gen.KernelIdeal.Skeleton
import proofs.«165734_j10067403341934_2_alg».proof.Proof.Spec
import Idealize.ShloMosaic.Lib.ValueLayout
import Idealize.ShloMosaic.Lib.Pipeline.Value

noncomputable section

namespace Cert.KDense

open Idealize.ShloMosaic Idealize.ShloMosaic.ValueIdx Cert.RowDot Cert.Spec

/-- The product of a block of M rows with a K×N matrix into zero, at entry (p, q): row p times the matrix, at q. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- One layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨1, ![N]⟩ : Shape) .f32)
    (hw : (⟨2, ![K, N]⟩ : Shape).ShapeCasts ⟨2, ![K, N]⟩)
    (hb : (⟨1, ![N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w b (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_a_1a_apply]
  rfl

/-- The sigmoid-weighted unit on a block acts entry by entry. -/
theorem silu_block {M K : Nat} (v : FVec Ideal (⟨2, ![M, K]⟩ : Shape) .f32) (h : FTy.bf16.bits < FTy.f32.bits) (r : Fin M) (k : Fin K) :
    rowOf (truncf .bf16 (mulf v (logistic v)) h : FVec Ideal (⟨2, ![M, K]⟩ : Shape) .bf16) r k = silu (v (ix2 r k)) := rfl

open Cert.KernelIdeal Cert.KernelIdeal.Gen

/-- The hidden block at (r, q): the hidden row of row r of the block, at q. -/
theorem pay1_apply (x0 : Vec Ideal S8x1024 .f32) (w1 : Vec Ideal S1024x1024 .bf16) (b1 : Vec Ideal S1024 .f32)
    (w2 : Vec Ideal S1024x1024 .bf16) (b2 : Vec Ideal S1024 .f32) (r : Fin 8) (q : Fin 1024) :
    k0_pay1 (F := Ideal) x0 w1 b1 w2 b2 (ix2 r q) = hiddenRow w1 b1 w2 b2 (fun k => x0 (ix2 r k)) q := by
  unfold k0_pay1
  refine (dense_block_apply none _ w2 b2 _ _ _ r q).trans ?_
  unfold hiddenRow
  refine congrArg (fun row => dense w2 b2 row q) (funext fun k => ?_)
  refine (silu_block _ _ r k).trans (congrArg silu ?_)
  exact dense_block_apply none _ w1 b1 _ _ _ r k

/-- The mean block at (r, f, o): entry f·8 + o of the mean layer on the hidden row of row r. -/
theorem pay2_apply (x0 : Vec Ideal S8x1024 .f32) (w1 : Vec Ideal S1024x1024 .bf16) (b1 : Vec Ideal S1024 .f32)
    (w2 : Vec Ideal S1024x1024 .bf16) (b2 : Vec Ideal S1024 .f32) (wm : Vec Ideal S1024x768 .bf16) (bm : Vec Ideal S768 .f32)
    (r : Fin 8) (f : Fin 96) (o : Fin 8) :
    k0_pay2 (F := Ideal) x0 w1 b1 w2 b2 wm bm (ix3 r f o)
      = dense wm bm (hiddenRow w1 b1 w2 b2 fun k => x0 (ix2 r k)) (gpos 8 f o) := by
  unfold k0_pay2
  refine (shapeCast_apply _ _ (ix3 r f o) (ix2 r (gpos 8 f o)) ?_).trans ?_
  · rw [Shape.rowMajor_val_two, Shape.rowMajor_val_three]
    show r.val * 768 + (f.val * 8 + o.val) = (r.val * 96 + f.val) * 8 + o.val
    ring
  refine (dense_block_apply none _ wm bm _ _ _ r (gpos 8 f o)).trans ?_
  exact congrArg (fun row => dense wm bm row (gpos 8 f o)) (funext fun k => pay1_apply x0 w1 b1 w2 b2 r k)

/-- The log-variance block at (r, f, e): entry f·36 + e of the log-variance layer on the hidden row of row r. -/
theorem pay3_apply (x0 : Vec Ideal S8x1024 .f32) (w1 : Vec Ideal S1024x1024 .bf16) (b1 : Vec Ideal S1024 .f32)
    (w2 : Vec Ideal S1024x1024 .bf16) (b2 : Vec Ideal S1024 .f32) (wv : Vec Ideal S1024x3456 .bf16) (bv : Vec Ideal S3456 .f32)
    (r : Fin 8) (f : Fin 96) (e : Fin 36) :
    k0_pay3 (F := Ideal) x0 w1 b1 w2 b2 wv bv (ix3 r f e)
      = dense wv bv (hiddenRow w1 b1 w2 b2 fun k => x0 (ix2 r k)) (gpos 36 f e) := by
  unfold k0_pay3
  refine (shapeCast_apply _ _ (ix3 r f e) (ix2 r (gpos 36 f e)) ?_).trans ?_
  · rw [Shape.rowMajor_val_two, Shape.rowMajor_val_three]
    show r.val * 3456 + (f.val * 36 + e.val) = (r.val * 96 + f.val) * 36 + e.val
    ring
  refine (dense_block_apply none _ wv bv _ _ _ r (gpos 36 f e)).trans ?_
  exact congrArg (fun row => dense wv bv row (gpos 36 f e)) (funext fun k => pay1_apply x0 w1 b1 w2 b2 r k)

end Cert.KDense

end
-- ==== Proof.KTri.lean ====
/-
  The 8×8 matrices a block builds from its log-variance numbers, read one entry at a time.

  X is an 8×96×36 array: for each row r of the block and each group f, 36 numbers v = X(r, f, ·).  Row i of the upper
  unit-triangular matrix T is laid out as i zeros, a one, and the 7 - i parameters v(8 + off_i ..), off_i the number
  of parameters owned by the rows before i; the eight rows are stacked.  The diagonal matrix multiplies exp(v(i)/2),
  spread along a new last axis, by the identity pattern "row number = column number", computed from two index grids.
  One term of the precision sum takes row j of T, scales it by a number s(j), and multiplies the unscaled row, spread
  along columns, by the scaled row, spread along rows: entry (i, k) is T(j, i) · (T(j, k) · s(j)).
-/
import proofs.«165734_j10067403341934_2_alg».proof.Proof.Spec
import Idealize.ShloMosaic.Lib.ValueLayout
import Idealize.ShloMosaic.Lib.Pipeline.Value

noncomputable section

open scoped BigOperators

namespace Cert.KTri

open Idealize.ShloMosaic Idealize.ShloMosaic.ValueIdx Cert.Spec

/-! ## Pieces laid end to end along the last axis of an 8×96×8 array -/

section Cat
variable {α : Type}

/-- Off the last axis, an index of a piece and the index of the whole array it sits under have the same coordinates. -/
theorem off_axis3 (r : Fin 8) (f : Fin 96) (j : Fin 8) {C : Nat} (c : Fin C)
    (hr : (⟨3, ![8, 96, C]⟩ : Shape).rank = (⟨3, ![8, 96, 8]⟩ : Shape).rank) :
    ∀ b : Fin (⟨3, ![8, 96, C]⟩ : Shape).rank, b.cast hr ≠ (2 : Fin 3) →
      ((ix3 r f c : (⟨3, ![8, 96, C]⟩ : Shape).Idx) b).val = ((ix3 r f j : (⟨3, ![8, 96, 8]⟩ : Shape).Idx) (b.cast hr)).val := by
  intro b hb
  match b with
  | ⟨0, _⟩ => rfl
  | ⟨1, _⟩ => rfl
  | ⟨2, _⟩ => exact absurd rfl hb

variable {A B : Nat}

/-- Three pieces of widths A, 1, B: a column before A reads the first piece. -/
theorem cat3_lt (za : (⟨3, ![8, 96, A]⟩ : Shape).Idx → α) (o : (⟨3, ![8, 96, 1]⟩ : Shape).Idx → α)
    (sl : (⟨3, ![8, 96, B]⟩ : Shape).Idx → α)
    (h : Shape.Concatenates [(⟨3, ![8, 96, A]⟩ : Shape), ⟨3, ![8, 96, 1]⟩, ⟨3, ![8, 96, B]⟩] ⟨3, ![8, 96, 8]⟩ 2)
    (r : Fin 8) (f : Fin 96) (j : Fin 8) (c : Fin A) (hc : c.val = j.val) :
    concatenate (⟨3, ![8, 96, 8]⟩ : Shape) 2
        [⟨⟨3, ![8, 96, A]⟩, za⟩, ⟨⟨3, ![8, 96, 1]⟩, o⟩, ⟨⟨3, ![8, 96, B]⟩, sl⟩] h (ix3 r f j) = za (ix3 r f c) :=
  concatenate_apply_piece (t := ⟨3, ![8, 96, 8]⟩) (2 : Fin 3) [⟨⟨3, ![8, 96, A]⟩, za⟩, ⟨⟨3, ![8, 96, 1]⟩, o⟩, ⟨⟨3, ![8, 96, B]⟩, sl⟩] h (ix3 r f j) 0
    (by show (0 : Nat) < 3; omega) _ za rfl rfl 0 rfl (ix3 r f c)
    (off_axis3 r f j c rfl) (by show 0 + c.val = j.val; omega)

/-- Column A reads the middle piece. -/
theorem cat3_eq (za : (⟨3, ![8, 96, A]⟩ : Shape).Idx → α) (o : (⟨3, ![8, 96, 1]⟩ : Shape).Idx → α)
    (sl : (⟨3, ![8, 96, B]⟩ : Shape).Idx → α)
    (h : Shape.Concatenates [(⟨3, ![8, 96, A]⟩ : Shape), ⟨3, ![8, 96, 1]⟩, ⟨3, ![8, 96, B]⟩] ⟨3, ![8, 96, 8]⟩ 2)
    (r : Fin 8) (f : Fin 96) (j : Fin 8) (hj : j.val = A) :
    concatenate (⟨3, ![8, 96, 8]⟩ : Shape) 2
        [⟨⟨3, ![8, 96, A]⟩, za⟩, ⟨⟨3, ![8, 96, 1]⟩, o⟩, ⟨⟨3, ![8, 96, B]⟩, sl⟩] h (ix3 r f j) = o (ix3 r f (0 : Fin 1)) :=
  concatenate_apply_piece (t := ⟨3, ![8, 96, 8]⟩) (2 : Fin 3) [⟨⟨3, ![8, 96, A]⟩, za⟩, ⟨⟨3, ![8, 96, 1]⟩, o⟩, ⟨⟨3, ![8, 96, B]⟩, sl⟩] h (ix3 r f j) 1
    (by show (1 : Nat) < 3; omega) _ o rfl rfl A (by simp) (ix3 r f (0 : Fin 1))
    (off_axis3 r f j (0 : Fin 1) rfl) (by show A + 0 = j.val; omega)

/-- A column past A reads the last piece. -/
theorem cat3_gt (za : (⟨3, ![8, 96, A]⟩ : Shape).Idx → α) (o : (⟨3, ![8, 96, 1]⟩ : Shape).Idx → α)
    (sl : (⟨3, ![8, 96, B]⟩ : Shape).Idx → α)
    (h : Shape.Concatenates [(⟨3, ![8, 96, A]⟩ : Shape), ⟨3, ![8, 96, 1]⟩, ⟨3, ![8, 96, B]⟩] ⟨3, ![8, 96, 8]⟩ 2)
    (r : Fin 8) (f : Fin 96) (j : Fin 8) (c : Fin B) (hc : A + 1 + c.val = j.val) :
    concatenate (⟨3, ![8, 96, 8]⟩ : Shape) 2
        [⟨⟨3, ![8, 96, A]⟩, za⟩, ⟨⟨3, ![8, 96, 1]⟩, o⟩, ⟨⟨3, ![8, 96, B]⟩, sl⟩] h (ix3 r f j) = sl (ix3 r f c) :=
  concatenate_apply_piece (t := ⟨3, ![8, 96, 8]⟩) (2 : Fin 3) [⟨⟨3, ![8, 96, A]⟩, za⟩, ⟨⟨3, ![8, 96, 1]⟩, o⟩, ⟨⟨3, ![8, 96, B]⟩, sl⟩] h (ix3 r f j) 2
    (by show (2 : Nat) < 3; omega) _ sl rfl rfl (A + 1) (by simp) (ix3 r f c)
    (off_axis3 r f j c rfl) (by show A + 1 + c.val = j.val; omega)

/-- Two pieces of widths A, B: a column before A reads the first. -/
theorem cat2_lt (x₁ : (⟨3, ![8, 96, A]⟩ : Shape).Idx → α) (x₂ : (⟨3, ![8, 96, B]⟩ : Shape).Idx → α)
    (h : Shape.Concatenates [(⟨3, ![8, 96, A]⟩ : Shape), ⟨3, ![8, 96, B]⟩] ⟨3, ![8, 96, 8]⟩ 2)
    (r : Fin 8) (f : Fin 96) (j : Fin 8) (c : Fin A) (hc : c.val = j.val) :
    concatenate (⟨3, ![8, 96, 8]⟩ : Shape) 2 [⟨⟨3, ![8, 96, A]⟩, x₁⟩, ⟨⟨3, ![8, 96, B]⟩, x₂⟩] h (ix3 r f j) = x₁ (ix3 r f c) :=
  concatenate_apply_piece (t := ⟨3, ![8, 96, 8]⟩) (2 : Fin 3) [⟨⟨3, ![8, 96, A]⟩, x₁⟩, ⟨⟨3, ![8, 96, B]⟩, x₂⟩] h (ix3 r f j) 0
    (by show (0 : Nat) < 2; omega) _ x₁ rfl rfl 0 rfl (ix3 r f c)
    (off_axis3 r f j c rfl) (by show 0 + c.val = j.val; omega)

/-- A column from A on reads the second. -/
theorem cat2_ge (x₁ : (⟨3, ![8, 96, A]⟩ : Shape).Idx → α) (x₂ : (⟨3, ![8, 96, B]⟩ : Shape).Idx → α)
    (h : Shape.Concatenates [(⟨3, ![8, 96, A]⟩ : Shape), ⟨3, ![8, 96, B]⟩] ⟨3, ![8, 96, 8]⟩ 2)
    (r : Fin 8) (f : Fin 96) (j : Fin 8) (c : Fin B) (hc : A + c.val = j.val) :
    concatenate (⟨3, ![8, 96, 8]⟩ : Shape) 2 [⟨⟨3, ![8, 96, A]⟩, x₁⟩, ⟨⟨3, ![8, 96, B]⟩, x₂⟩] h (ix3 r f j) = x₂ (ix3 r f c) :=
  concatenate_apply_piece (t := ⟨3, ![8, 96, 8]⟩) (2 : Fin 3) [⟨⟨3, ![8, 96, A]⟩, x₁⟩, ⟨⟨3, ![8, 96, B]⟩, x₂⟩] h (ix3 r f j) 1
    (by show (1 : Nat) < 2; omega) _ x₂ rfl rfl A (by simp) (ix3 r f c)
    (off_axis3 r f j c rfl) (by show A + c.val = j.val; omega)

/-- A slice along the last axis of an 8×96×n array, starting at column o. -/
theorem slice_last {n m : Nat} (o : Nat) (x : (⟨3, ![8, 96, n]⟩ : Shape).Idx → α)
    (h : (⟨3, ![8, 96, n]⟩ : Shape).Slices ![0, 0, o] ⟨3, ![8, 96, m]⟩) (r : Fin 8) (f : Fin 96) (c : Fin m) (c' : Fin n)
    (hc : c'.val = o + c.val) :
    extractStridedSlice ⟨3, ![8, 96, m]⟩ ![0, 0, o] x h (ix3 r f c) = x (ix3 r f c') :=
  extractStridedSlice_apply _ x h (ix3 r f c) (ix3 r f c') fun a => by
    match a with
    | ⟨0, _⟩ => show r.val = 0 + r.val; omega
    | ⟨1, _⟩ => show f.val = 0 + f.val; omega
    | ⟨2, _⟩ => show c'.val = o + c.val; exact hc

end Cat

/-! ## The rows of T -/

/-- The 28 strict-upper parameters of a group are positions 8..35 of its 36 numbers. -/
theorem upper_apply (X : FVec Ideal ⟨3, ![8, 96, 36]⟩ .f32)
    (hX : (⟨3, ![8, 96, 36]⟩ : Shape).Slices ![0, 0, 8] ⟨3, ![8, 96, 28]⟩) (r : Fin 8) (f : Fin 96) (c : Fin 28) :
    extractStridedSlice ⟨3, ![8, 96, 28]⟩ ![0, 0, 8] X hX (ix3 r f c) = X (ix3 r f ⟨8 + c.val, by omega⟩) :=
  slice_last 8 X hX r f c _ rfl

/-- Row i, 1 ≤ i ≤ 6: i zeros, a one, then the 7 - i parameters of row i. -/
theorem row3_apply {A B : Nat} (i : Fin 8) (hA : A = i.val) (off : Nat) (hoff : off = triOff i) (hB : A + 1 + B = 8)
    (X : FVec Ideal ⟨3, ![8, 96, 36]⟩ .f32)
    (hX : (⟨3, ![8, 96, 36]⟩ : Shape).Slices ![0, 0, 8] ⟨3, ![8, 96, 28]⟩)
    (hs : (⟨3, ![8, 96, 28]⟩ : Shape).Slices ![0, 0, off] ⟨3, ![8, 96, B]⟩)
    (h : Shape.Concatenates [(⟨3, ![8, 96, A]⟩ : Shape), ⟨3, ![8, 96, 1]⟩, ⟨3, ![8, 96, B]⟩] ⟨3, ![8, 96, 8]⟩ 2)
    (r : Fin 8) (f : Fin 96) (j : Fin 8) :
    concatenate (⟨3, ![8, 96, 8]⟩ : Shape) 2
      [⟨⟨3, ![8, 96, A]⟩, broadcast ⟨3, ![8, 96, A]⟩ (Ideal.ofBits .f32 0x00000000#32)⟩,
       ⟨⟨3, ![8, 96, 1]⟩, broadcast ⟨3, ![8, 96, 1]⟩ (Ideal.ofBits .f32 0x3F800000#32)⟩,
       ⟨⟨3, ![8, 96, B]⟩, extractStridedSlice ⟨3, ![8, 96, B]⟩ ![0, 0, off]
          (extractStridedSlice ⟨3, ![8, 96, 28]⟩ ![0, 0, 8] X hX) hs⟩] h (ix3 r f j)
      = Tmat (fun e => X (ix3 r f e)) i j := by
  unfold Tmat
  rcases Nat.lt_trichotomy j.val i.val with hlt | heq | hgt
  · rw [dif_neg (by omega)]
    refine (cat3_lt _ _ _ h r f j ⟨j.val, by omega⟩ rfl).trans ?_
    show Ideal.ofBits .f32 0x00000000#32 = eye i j
    rw [zeroW_eq, eye, if_neg (fun e => by rw [e] at hlt; exact Nat.lt_irrefl _ hlt)]
  · rw [dif_neg (by omega)]
    refine (cat3_eq _ _ _ h r f j (by omega)).trans ?_
    show Ideal.ofBits .f32 0x3F800000#32 = eye i j
    rw [oneW_eq, eye, if_pos (Fin.ext heq.symm)]
  · rw [dif_pos hgt]
    have hb := tri_lt i j hgt
    refine (cat3_gt _ _ _ h r f j ⟨j.val - i.val - 1, by omega⟩ (by show A + 1 + (j.val - i.val - 1) = j.val; omega)).trans ?_
    refine (slice_last off _ hs r f _ ⟨off + (j.val - i.val - 1), by omega⟩ rfl).trans ?_
    refine (upper_apply X hX r f _).trans ?_
    subst hoff
    rfl

/-- Row 0: a one, then the 7 parameters of row 0. -/
theorem row_first_apply (X : FVec Ideal ⟨3, ![8, 96, 36]⟩ .f32)
    (hX : (⟨3, ![8, 96, 36]⟩ : Shape).Slices ![0, 0, 8] ⟨3, ![8, 96, 28]⟩)
    (hs : (⟨3, ![8, 96, 28]⟩ : Shape).Slices ![0, 0, 0] ⟨3, ![8, 96, 7]⟩)
    (h : Shape.Concatenates [(⟨3, ![8, 96, 1]⟩ : Shape), ⟨3, ![8, 96, 7]⟩] ⟨3, ![8, 96, 8]⟩ 2)
    (r : Fin 8) (f : Fin 96) (j : Fin 8) :
    concatenate (⟨3, ![8, 96, 8]⟩ : Shape) 2
      [⟨⟨3, ![8, 96, 1]⟩, broadcast ⟨3, ![8, 96, 1]⟩ (Ideal.ofBits .f32 0x3F800000#32)⟩,
       ⟨⟨3, ![8, 96, 7]⟩, extractStridedSlice ⟨3, ![8, 96, 7]⟩ ![0, 0, 0]
          (extractStridedSlice ⟨3, ![8, 96, 28]⟩ ![0, 0, 8] X hX) hs⟩] h (ix3 r f j)
      = Tmat (fun e => X (ix3 r f e)) 0 j := by
  unfold Tmat
  by_cases hj : j.val = 0
  · rw [dif_neg (by show ¬ (0 : Nat) < j.val; omega)]
    refine (cat2_lt _ _ h r f j (0 : Fin 1) (by show (0 : Nat) = j.val; omega)).trans ?_
    show Ideal.ofBits .f32 0x3F800000#32 = eye 0 j
    rw [oneW_eq, eye, if_pos (Fin.ext (by show (0 : Nat) = j.val; omega))]
  · have hgt : (0 : Fin 8).val < j.val := by show (0 : Nat) < j.val; omega
    rw [dif_pos hgt]
    refine (cat2_ge _ _ h r f j ⟨j.val - 1, by omega⟩ (by show 1 + (j.val - 1) = j.val; omega)).trans ?_
    refine (slice_last 0 _ hs r f _ ⟨j.val - 1, by omega⟩ (by show j.val - 1 = 0 + (j.val - 1); omega)).trans ?_
    refine (upper_apply X hX r f _).trans ?_
    refine congrArg (fun e => X (ix3 r f e)) (Fin.ext ?_)
    show 8 + (j.val - 1) = 8 + (triOff 0 + (j.val - (0 : Fin 8).val - 1))
    show 8 + (j.val - 1) = 8 + (0 + (j.val - 0 - 1))
    omega

/-- Row 7: seven zeros and a one. -/
theorem row_last_apply (X : FVec Ideal ⟨3, ![8, 96, 36]⟩ .f32)
    (h : Shape.Concatenates [(⟨3, ![8, 96, 7]⟩ : Shape), ⟨3, ![8, 96, 1]⟩] ⟨3, ![8, 96, 8]⟩ 2)
    (r : Fin 8) (f : Fin 96) (j : Fin 8) :
    concatenate (⟨3, ![8, 96, 8]⟩ : Shape) 2
      [⟨⟨3, ![8, 96, 7]⟩, broadcast ⟨3, ![8, 96, 7]⟩ (Ideal.ofBits .f32 0x00000000#32)⟩,
       ⟨⟨3, ![8, 96, 1]⟩, broadcast ⟨3, ![8, 96, 1]⟩ (Ideal.ofBits .f32 0x3F800000#32)⟩] h (ix3 r f j)
      = Tmat (fun e => X (ix3 r f e)) 7 j := by
  unfold Tmat
  have hj7 : ¬ (7 : Fin 8).val < j.val := by show ¬ (7 : Nat) < j.val; omega
  rw [dif_neg hj7]
  by_cases hj : j.val = 7
  · refine (cat2_ge _ _ h r f j (0 : Fin 1) (by show 7 + 0 = j.val; omega)).trans ?_
    show Ideal.ofBits .f32 0x3F800000#32 = eye 7 j
    rw [oneW_eq, eye, if_pos (Fin.ext (by show (7 : Nat) = j.val; omega))]
  · refine (cat2_lt _ _ h r f j ⟨j.val, by omega⟩ rfl).trans ?_
    show Ideal.ofBits .f32 0x00000000#32 = eye 7 j
    rw [zeroW_eq, eye, if_neg (fun e => hj (by rw [← e]; rfl))]

/-! ## Eight rows stacked -/

/-- Eight 8×96×8 arrays, each recast 8×96×1×8 and laid along the third axis: entry (r, f, i, j) is array i at (r, f, j). -/
theorem stack_apply {α : Type} (R : Fin 8 → (⟨3, ![8, 96, 8]⟩ : Shape).Idx → α)
    (hc : (⟨3, ![8, 96, 8]⟩ : Shape).ShapeCasts ⟨4, ![8, 96, 1, 8]⟩)
    (h : Shape.Concatenates ((List.ofFn fun n : Fin 8 =>
      (⟨⟨4, ![8, 96, 1, 8]⟩, shapeCast ⟨4, ![8, 96, 1, 8]⟩ (R n) hc⟩ : (s : Shape) × (s.Idx → α))).map (·.1)) ⟨4, ![8, 96, 8, 8]⟩ 2)
    (r : Fin 8) (f : Fin 96) (i j : Fin 8) :
    concatenate (⟨4, ![8, 96, 8, 8]⟩ : Shape) 2
      (List.ofFn fun n : Fin 8 => (⟨⟨4, ![8, 96, 1, 8]⟩, shapeCast ⟨4, ![8, 96, 1, 8]⟩ (R n) hc⟩ : (s : Shape) × (s.Idx → α)))
      h (ix4 r f i j) = R i (ix3 r f j) := by
  refine (concatenate_ofFn_unit_apply (t := ⟨4, ![8, 96, 8, 8]⟩) (s₁ := ⟨4, ![8, 96, 1, 8]⟩) (2 : Fin 4)
    (fun n => shapeCast ⟨4, ![8, 96, 1, 8]⟩ (R n) hc) h rfl rfl
    (ix4 r f i j : (⟨4, ![8, 96, 8, 8]⟩ : Shape).Idx) i rfl (ix4 r f (0 : Fin 1) j : (⟨4, ![8, 96, 1, 8]⟩ : Shape).Idx)
    fun b hb => ?_).trans ?_
  · match b with
    | ⟨0, _⟩ => rfl
    | ⟨1, _⟩ => rfl
    | ⟨2, _⟩ => exact absurd rfl hb
    | ⟨3, _⟩ => rfl
  · refine shapeCast_apply (R i) hc _ (ix3 r f j) ?_
    rw [Shape.rowMajor_val_three, Shape.rowMajor_val_four]
    show (r.val * 96 + f.val) * 8 + j.val = ((r.val * 96 + f.val) * 1 + 0) * 8 + j.val
    omega

/-! ## The identity pattern and the diagonal matrix -/

/-- "Row number = column number" as 0 / 1, through a widening of the one-bit answer and a signed conversion. -/
theorem mask_bits : ∀ i j : Fin 8,
    ((IntOp.cmpi .eq (BitVec.ofNat 32 i.val) (BitVec.ofNat 32 j.val)).setWidth 32).toInt = if i = j then 1 else 0 := by
  decide

/-- The same through an unsigned conversion of the one-bit answer. -/
theorem mask_bits_u : ∀ i j : Fin 8,
    (IntOp.cmpi .eq (BitVec.ofNat 32 i.val + 0#32) (BitVec.ofNat 32 j.val)).toNat = if i = j then 1 else 0 := by
  decide

/-- exp of an 8×96×8 array spread along a new last axis, times the 8×8 identity pattern spread over rows and groups. -/
theorem diag_apply (Y : FVec Ideal ⟨3, ![8, 96, 8]⟩ .f32) (E : FVec Ideal ⟨2, ![8, 8]⟩ .f32)
    (h1 : (⟨3, ![8, 96, 8]⟩ : Shape).ShapeCasts ⟨4, ![8, 96, 8, 1]⟩) (h2 : (⟨2, ![8, 8]⟩ : Shape).ShapeCasts ⟨4, ![1, 1, 8, 8]⟩)
    (h3 : (⟨4, ![8, 96, 8, 1]⟩ : Shape).Broadcasts ⟨4, ![8, 96, 8, 8]⟩)
    (h4 : (⟨4, ![1, 1, 8, 8]⟩ : Shape).Broadcasts ⟨4, ![8, 96, 8, 8]⟩)
    (r : Fin 8) (f : Fin 96) (i j : Fin 8) :
    mulf (broadcastTo ⟨4, ![8, 96, 8, 8]⟩ (shapeCast ⟨4, ![8, 96, 8, 1]⟩ (exp Y) h1) h3)
         (broadcastTo ⟨4, ![8, 96, 8, 8]⟩ (shapeCast ⟨4, ![1, 1, 8, 8]⟩ E h2) h4) (ix4 r f i j)
      = Ideal.exp (Y (ix3 r f i)) * E (ix2 i j) := by
  show broadcastTo ⟨4, ![8, 96, 8, 8]⟩ (shapeCast ⟨4, ![8, 96, 8, 1]⟩ (exp Y) h1) h3 (ix4 r f i j)
      * broadcastTo ⟨4, ![8, 96, 8, 8]⟩ (shapeCast ⟨4, ![1, 1, 8, 8]⟩ E h2) h4 (ix4 r f i j) = _
  have e1 : broadcastTo ⟨4, ![8, 96, 8, 8]⟩ (shapeCast ⟨4, ![8, 96, 8, 1]⟩ (exp Y) h1) h3 (ix4 r f i j) = Ideal.exp (Y (ix3 r f i)) := by
    refine (broadcastTo_apply _ h3 (ix4 r f i j) (ix4 r f i (0 : Fin 1)) fun a => ?_).trans ?_
    · match a with
      | ⟨0, _⟩ => rfl
      | ⟨1, _⟩ => rfl
      | ⟨2, _⟩ => rfl
      | ⟨3, _⟩ => rfl
    · refine (shapeCast_apply (exp Y) h1 _ (ix3 r f i) ?_).trans rfl
      rw [Shape.rowMajor_val_three, Shape.rowMajor_val_four]
      show (r.val * 96 + f.val) * 8 + i.val = ((r.val * 96 + f.val) * 8 + i.val) * 1 + 0
      omega
  have e2 : broadcastTo ⟨4, ![8, 96, 8, 8]⟩ (shapeCast ⟨4, ![1, 1, 8, 8]⟩ E h2) h4 (ix4 r f i j) = E (ix2 i j) := by
    refine (broadcastTo_apply _ h4 (ix4 r f i j) (ix4 (0 : Fin 1) (0 : Fin 1) i j) fun a => ?_).trans ?_
    · match a with
      | ⟨0, _⟩ => rfl
      | ⟨1, _⟩ => rfl
      | ⟨2, _⟩ => rfl
      | ⟨3, _⟩ => rfl
    · refine shapeCast_apply E h2 _ (ix2 i j) ?_
      rw [Shape.rowMajor_val_two, Shape.rowMajor_val_four]
      show i.val * 8 + j.val = ((0 * 1 + 0) * 8 + i.val) * 8 + j.val
      omega
  rw [e1, e2]

/-! ## One term of the precision sum -/

/-- Row jn of a stacked 8×96×8×8 array, as an 8×96×8 array. -/
theorem rowAt_apply {α : Type} (T : (⟨4, ![8, 96, 8, 8]⟩ : Shape).Idx → α) (jn : Fin 8) (off : Fin 4 → Nat)
    (hoff : off = ![0, 0, jn.val, 0]) (hs : (⟨4, ![8, 96, 8, 8]⟩ : Shape).Slices off ⟨4, ![8, 96, 1, 8]⟩)
    (hc : (⟨4, ![8, 96, 1, 8]⟩ : Shape).ShapeCasts ⟨3, ![8, 96, 8]⟩) (r : Fin 8) (f : Fin 96) (k : Fin 8) :
    shapeCast ⟨3, ![8, 96, 8]⟩ (extractStridedSlice ⟨4, ![8, 96, 1, 8]⟩ off T hs) hc (ix3 r f k) = T (ix4 r f jn k) := by
  subst hoff
  refine (shapeCast_apply _ hc _ (ix4 r f (0 : Fin 1) k) ?_).trans ?_
  · rw [Shape.rowMajor_val_three, Shape.rowMajor_val_four]
    show ((r.val * 96 + f.val) * 1 + 0) * 8 + k.val = (r.val * 96 + f.val) * 8 + k.val
    omega
  · refine extractStridedSlice_apply _ T hs _ (ix4 r f jn k) fun a => ?_
    match a with
    | ⟨0, _⟩ => show r.val = 0 + r.val; omega
    | ⟨1, _⟩ => show f.val = 0 + f.val; omega
    | ⟨2, _⟩ => show jn.val = jn.val + 0; omega
    | ⟨3, _⟩ => show k.val = 0 + k.val; omega

/-- Entry jn of each group of an 8×96×8 array, spread over the 8 positions of the group. -/
theorem scaleAt_apply {α : Type} (d : (⟨3, ![8, 96, 8]⟩ : Shape).Idx → α) (jn : Fin 8) (off : Fin 3 → Nat)
    (hoff : off = ![0, 0, jn.val]) (hs : (⟨3, ![8, 96, 8]⟩ : Shape).Slices off ⟨3, ![8, 96, 1]⟩)
    (hc1 : (⟨3, ![8, 96, 1]⟩ : Shape).ShapeCasts ⟨2, ![8, 96]⟩) (hc2 : (⟨2, ![8, 96]⟩ : Shape).ShapeCasts ⟨3, ![8, 96, 1]⟩)
    (hb : (⟨3, ![8, 96, 1]⟩ : Shape).Broadcasts ⟨3, ![8, 96, 8]⟩) (r : Fin 8) (f : Fin 96) (k : Fin 8) :
    broadcastTo ⟨3, ![8, 96, 8]⟩ (shapeCast ⟨3, ![8, 96, 1]⟩ (shapeCast ⟨2, ![8, 96]⟩
      (extractStridedSlice ⟨3, ![8, 96, 1]⟩ off d hs) hc1) hc2) hb (ix3 r f k) = d (ix3 r f jn) := by
  subst hoff
  refine (broadcastTo_apply _ hb (ix3 r f k) (ix3 r f (0 : Fin 1)) fun a => ?_).trans ?_
  · match a with
    | ⟨0, _⟩ => rfl
    | ⟨1, _⟩ => rfl
    | ⟨2, _⟩ => rfl
  refine (shapeCast_apply _ hc2 _ (ix2 r f) ?_).trans ?_
  · rw [Shape.rowMajor_val_two, Shape.rowMajor_val_three]
    show r.val * 96 + f.val = (r.val * 96 + f.val) * 1 + 0
    omega
  refine (shapeCast_apply _ hc1 _ (ix3 r f (0 : Fin 1)) ?_).trans ?_
  · rw [Shape.rowMajor_val_two, Shape.rowMajor_val_three]
    show (r.val * 96 + f.val) * 1 + 0 = r.val * 96 + f.val
    omega
  refine extractStridedSlice_apply _ d hs _ (ix3 r f jn) fun a => ?_
  match a with
  | ⟨0, _⟩ => show r.val = 0 + r.val; omega
  | ⟨1, _⟩ => show f.val = 0 + f.val; omega
  | ⟨2, _⟩ => show jn.val = jn.val + 0; omega

/-- A row R spread along columns times the scaled row R·s spread along rows: entry (i, k) is R(i) · (R(k) · s(k)). -/
theorem outer_apply (R s : FVec Ideal ⟨3, ![8, 96, 8]⟩ .f32)
    (h1 : (⟨3, ![8, 96, 8]⟩ : Shape).ShapeCasts ⟨4, ![8, 96, 8, 1]⟩) (h2 : (⟨3, ![8, 96, 8]⟩ : Shape).ShapeCasts ⟨4, ![8, 96, 1, 8]⟩)
    (h3 : (⟨4, ![8, 96, 8, 1]⟩ : Shape).Broadcasts ⟨4, ![8, 96, 8, 8]⟩)
    (h4 : (⟨4, ![8, 96, 1, 8]⟩ : Shape).Broadcasts ⟨4, ![8, 96, 8, 8]⟩) (r : Fin 8) (f : Fin 96) (i k : Fin 8) :
    mulf (broadcastTo ⟨4, ![8, 96, 8, 8]⟩ (shapeCast ⟨4, ![8, 96, 8, 1]⟩ R h1) h3)
         (broadcastTo ⟨4, ![8, 96, 8, 8]⟩ (shapeCast ⟨4, ![8, 96, 1, 8]⟩ (mulf R s) h2) h4) (ix4 r f i k)
      = R (ix3 r f i) * (R (ix3 r f k) * s (ix3 r f k)) := by
  show broadcastTo ⟨4, ![8, 96, 8, 8]⟩ (shapeCast ⟨4, ![8, 96, 8, 1]⟩ R h1) h3 (ix4 r f i k)
      * broadcastTo ⟨4, ![8, 96, 8, 8]⟩ (shapeCast ⟨4, ![8, 96, 1, 8]⟩ (mulf R s) h2) h4 (ix4 r f i k) = _
  have e1 : broadcastTo ⟨4, ![8, 96, 8, 8]⟩ (shapeCast ⟨4, ![8, 96, 8, 1]⟩ R h1) h3 (ix4 r f i k) = R (ix3 r f i) := by
    refine (broadcastTo_apply _ h3 (ix4 r f i k) (ix4 r f i (0 : Fin 1)) fun a => ?_).trans ?_
    · match a with
      | ⟨0, _⟩ => rfl
      | ⟨1, _⟩ => rfl
      | ⟨2, _⟩ => rfl
      | ⟨3, _⟩ => rfl
    · refine shapeCast_apply R h1 _ (ix3 r f i) ?_
      rw [Shape.rowMajor_val_three, Shape.rowMajor_val_four]
      show (r.val * 96 + f.val) * 8 + i.val = ((r.val * 96 + f.val) * 8 + i.val) * 1 + 0
      omega
  have e2 : broadcastTo ⟨4, ![8, 96, 8, 8]⟩ (shapeCast ⟨4, ![8, 96, 1, 8]⟩ (mulf R s) h2) h4 (ix4 r f i k)
      = R (ix3 r f k) * s (ix3 r f k) := by
    refine (broadcastTo_apply _ h4 (ix4 r f i k) (ix4 r f (0 : Fin 1) k) fun a => ?_).trans ?_
    · match a with
      | ⟨0, _⟩ => rfl
      | ⟨1, _⟩ => rfl
      | ⟨2, _⟩ => rfl
      | ⟨3, _⟩ => rfl
    · refine (shapeCast_apply (mulf R s) h2 _ (ix3 r f k) ?_).trans rfl
      rw [Shape.rowMajor_val_three, Shape.rowMajor_val_four]
      show (r.val * 96 + f.val) * 8 + k.val = ((r.val * 96 + f.val) * 1 + 0) * 8 + k.val
      omega
  rw [e1, e2]

end Cert.KTri

end
-- ==== Proof.KPay.lean ====
/-
  The kernel body's values, named piece by piece in the generated skeleton, as the specification's matrices.

  From the log-variance block X (8 rows × 96 groups × 36 numbers): the diagonal parameters are the first 8 numbers of a
  group and the strict-upper ones the last 28.  The stored T block is the stack of the eight rows, entry (r, f, i, j) =
  T(i, j) of group (r, f); the stored D block is exp(v(i)/2) times the identity pattern; the stored precision block adds,
  onto zero, the eight terms "row j of T, spread along columns, times row j scaled by exp(-v(j)/2), spread along rows",
  so entry (i, k) is Σ_j T(j, i) · (T(j, k) · exp(-v(j)/2)).
-/
import proofs.«165734_j10067403341934_2_alg».proof.Proof.Gen.KernelIdeal.Skeleton
import proofs.«165734_j10067403341934_2_alg».proof.Proof.Spec
import proofs.«165734_j10067403341934_2_alg».proof.Proof.KTri

noncomputable section

open scoped BigOperators

namespace Cert.KPay

open Idealize.ShloMosaic Idealize.ShloMosaic.ValueIdx Cert.Spec Cert.KTri Cert.KernelIdeal Cert.KernelIdeal.Gen

/-! ## T -/

/-- The stacked rows built from the strict-upper parameters of X are the matrix T of each group. -/
theorem tri_pay (X : FVec Ideal S8x96x36 .f32) (V : FVec Ideal S8x96x28 .f32)
    (hX : S8x96x36.Slices ![0, 0, 8] S8x96x28) (hV : V = extractStridedSlice S8x96x28 ![0, 0, 8] X hX)
    (r : Fin 8) (f : Fin 96) (i j : Fin 8) :
    k0_pay17 (F := Ideal) (k0_pay9 V) (k0_pay10 V) (k0_pay11 V) (k0_pay12 V) (k0_pay13 V) (k0_pay14 V) (k0_pay15 V) k0_pay16
        (ix4 r f i j)
      = Tmat (fun e => X (ix3 r f e)) i j := by
  subst hV
  unfold k0_pay17
  refine (stack_apply (![k0_pay9 (F := Ideal) _, k0_pay10 (F := Ideal) _, k0_pay11 (F := Ideal) _, k0_pay12 (F := Ideal) _,
      k0_pay13 (F := Ideal) _, k0_pay14 (F := Ideal) _, k0_pay15 (F := Ideal) _, k0_pay16 (F := Ideal)] : Fin 8 → FVec Ideal S8x96x8 .f32)
    _ _ r f i j).trans ?_
  fin_cases i
  · show k0_pay9 (F := Ideal) _ (ix3 r f j) = _
    unfold k0_pay9
    exact row_first_apply X hX _ _ r f j
  · show k0_pay10 (F := Ideal) _ (ix3 r f j) = _
    unfold k0_pay10
    exact row3_apply (A := 1) (B := 6) 1 rfl 7 rfl rfl X hX _ _ r f j
  · show k0_pay11 (F := Ideal) _ (ix3 r f j) = _
    unfold k0_pay11
    exact row3_apply (A := 2) (B := 5) 2 rfl 13 rfl rfl X hX _ _ r f j
  · show k0_pay12 (F := Ideal) _ (ix3 r f j) = _
    unfold k0_pay12
    exact row3_apply (A := 3) (B := 4) 3 rfl 18 rfl rfl X hX _ _ r f j
  · show k0_pay13 (F := Ideal) _ (ix3 r f j) = _
    unfold k0_pay13
    exact row3_apply (A := 4) (B := 3) 4 rfl 22 rfl rfl X hX _ _ r f j
  · show k0_pay14 (F := Ideal) _ (ix3 r f j) = _
    unfold k0_pay14
    exact row3_apply (A := 5) (B := 2) 5 rfl 25 rfl rfl X hX _ _ r f j
  · show k0_pay15 (F := Ideal) _ (ix3 r f j) = _
    unfold k0_pay15
    exact row3_apply (A := 6) (B := 1) 6 rfl 27 rfl rfl X hX _ _ r f j
  · show k0_pay16 (F := Ideal) (ix3 r f j) = _
    unfold k0_pay16
    exact row_last_apply X _ r f j

/-! ## D -/

/-- The identity pattern the body computes from two index grids. -/
theorem mask_apply (h0 : S8x8.Iotas .tc 32 [0]) (h1 : S8x8.Iotas .tc 32 [1]) (hlt : 1 < 32) (i j : Fin 8) :
    (sitofp .f32 (extui 32 (cmpi .eq (iota .tc S8x8 32 [0] h0) (iota .tc S8x8 32 [1] h1)) hlt) : FVec Ideal S8x8 .f32) (ix2 i j)
      = eye i j := by
  show ((((IntOp.cmpi .eq (iota .tc S8x8 32 [0] h0 (ix2 i j)) (iota .tc S8x8 32 [1] h1 (ix2 i j))).setWidth 32).toInt : ℝ) : EReal) = eye i j
  rw [iota_single_apply, iota_single_apply]
  show ((((IntOp.cmpi .eq (BitVec.ofNat 32 i.val) (BitVec.ofNat 32 j.val)).setWidth 32).toInt : ℝ) : EReal) = eye i j
  rw [mask_bits i j]
  unfold eye
  split <;> simp

/-- The stored D block from Y = v/2 on the diagonal parameters. -/
theorem diag_pay (Y : FVec Ideal S8x96x8 .f32) (r : Fin 8) (f : Fin 96) (i j : Fin 8) :
    k0_pay8 (F := Ideal) Y (ix4 r f i j) = Ideal.exp (Y (ix3 r f i)) * eye i j := by
  unfold k0_pay8
  refine (diag_apply Y _ _ _ _ _ r f i j).trans ?_
  exact congrArg (fun t => Ideal.exp (Y (ix3 r f i)) * t) (mask_apply _ _ _ i j)

/-! ## The precision sum -/

/-- One term: row jn of T spread along columns, times that row scaled by d(jn) spread along rows. -/
theorem term_apply (T : FVec Ideal S8x96x8x8 .f32) (d : FVec Ideal S8x96x8 .f32) (jn : Fin 8)
    (off4 : Fin 4 → Nat) (ho4 : off4 = ![0, 0, jn.val, 0]) (hs4 : S8x96x8x8.Slices off4 S8x96x1x8)
    (hc4 : S8x96x1x8.ShapeCasts S8x96x8)
    (off3 : Fin 3 → Nat) (ho3 : off3 = ![0, 0, jn.val]) (hs3 : S8x96x8.Slices off3 S8x96x1)
    (hc1 : S8x96x1.ShapeCasts S8x96) (hc2 : S8x96.ShapeCasts S8x96x1) (hb : S8x96x1.Broadcasts S8x96x8)
    (h1 : S8x96x8.ShapeCasts S8x96x8x1) (h2 : S8x96x8.ShapeCasts S8x96x1x8)
    (h3 : S8x96x8x1.Broadcasts S8x96x8x8) (h4 : S8x96x1x8.Broadcasts S8x96x8x8)
    (r : Fin 8) (f : Fin 96) (i k : Fin 8) :
    mulf (broadcastTo S8x96x8x8 (shapeCast S8x96x8x1 (shapeCast S8x96x8 (extractStridedSlice S8x96x1x8 off4 T hs4) hc4) h1) h3)
         (broadcastTo S8x96x8x8 (shapeCast S8x96x1x8
            (mulf (shapeCast S8x96x8 (extractStridedSlice S8x96x1x8 off4 T hs4) hc4)
                  (broadcastTo S8x96x8 (shapeCast S8x96x1 (shapeCast S8x96 (extractStridedSlice S8x96x1 off3 d hs3) hc1) hc2) hb)) h2) h4)
         (ix4 r f i k)
      = T (ix4 r f jn i) * (T (ix4 r f jn k) * d (ix3 r f jn)) := by
  refine (outer_apply _ _ h1 h2 h3 h4 r f i k).trans ?_
  rw [rowAt_apply T jn off4 ho4 hs4 hc4 r f i, rowAt_apply T jn off4 ho4 hs4 hc4 r f k,
    scaleAt_apply d jn off3 ho3 hs3 hc1 hc2 hb r f k]

/-- The stored precision block: the eight terms added onto zero, whatever the stacked array T and the scales d. -/
theorem prec_pay (d R0 R1 R2 R3 R4 R5 R6 R7 : FVec Ideal S8x96x8 .f32) (r : Fin 8) (f : Fin 96) (i k : Fin 8) :
    k0_pay22 (F := Ideal) d (k0_pay17 R0 R1 R2 R3 R4 R5 R6 R7) (k0_pay18 d R0 R1 R2 R3 R4 R5 R6 R7)
        (k0_pay20 d R0 R1 R2 R3 R4 R5 R6 R7) (k0_pay21 R0 R1 R2 R3 R4 R5 R6 R7) (ix4 r f i k)
      = ∑ j : Fin 8, k0_pay17 (F := Ideal) R0 R1 R2 R3 R4 R5 R6 R7 (ix4 r f j i)
          * (k0_pay17 (F := Ideal) R0 R1 R2 R3 R4 R5 R6 R7 (ix4 r f j k) * d (ix3 r f j)) := by
  rw [Fin.sum_univ_eight]
  unfold k0_pay22 k0_pay18 k0_pay20 k0_pay21 k0_pay19
  show ((((((((_ + _) + _) + _) + _) + _) + _) + _) + _) = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  · refine (congrArg₂ (· + ·) zeroW_eq (term_apply _ d 0 _ rfl _ _ _ rfl _ _ _ _ _ _ _ _ r f i k)).trans (zero_add _)
  · exact term_apply _ d 1 _ rfl _ _ _ rfl _ _ _ _ _ _ _ _ r f i k
  · exact term_apply _ d 2 _ rfl _ _ _ rfl _ _ _ _ _ _ _ _ r f i k
  · exact term_apply _ d 3 _ rfl _ _ _ rfl _ _ _ _ _ _ _ _ r f i k
  · exact term_apply _ d 4 _ rfl _ _ _ rfl _ _ _ _ _ _ _ _ r f i k
  · exact term_apply _ d 5 _ rfl _ _ _ rfl _ _ _ _ _ _ _ _ r f i k
  · exact term_apply _ d 6 _ rfl _ _ _ rfl _ _ _ _ _ _ _ _ r f i k
  · exact term_apply _ d 7 _ rfl _ _ _ rfl _ _ _ _ _ _ _ _ r f i k

end Cert.KPay

end
-- ==== Proof.KPoint.lean ====
/-
  Each stored block at a local index is the corresponding result array's function at the global index.

  The block at a grid point holds rows base .. base + 7 of z (base = 8 × the point's number); the weights are whole arrays.
  Row r of the block is row base + r of z, so the mean block at (r, f, o) is the mean of row base + r, group f, position o,
  and the three matrix blocks at (r, f, i, j) are the matrices of the 36 log-variance numbers of row base + r, group f.
-/
import proofs.«165734_j10067403341934_2_alg».proof.Proof.KDense
import proofs.«165734_j10067403341934_2_alg».proof.Proof.KPay

noncomputable section

open scoped BigOperators

namespace Cert.KPoint

open Idealize.ShloMosaic Idealize.ShloMosaic.ValueIdx Cert.Spec Cert.KTri Cert.KDense Cert.KPay Cert.KernelIdeal Cert.KernelIdeal.Gen

/-- Row base + r of the whole array. -/
def rowIdx (base : Nat) (hb : base + 8 ≤ 8192) (r : Fin 8) : Fin 8192 := ⟨base + r.val, by have := r.isLt; omega⟩

/-- An index of a whole 8192×96×8×8 array whose coordinates are (base + r, f, a, c) is that tuple. -/
theorem idx4_eq (base : Nat) (hb : base + 8 ≤ 8192) (i : (⟨4, ![8192, 96, 8, 8]⟩ : Shape).Idx) (r : Fin 8) (f : Fin 96) (a c : Fin 8)
    (hi0 : (i 0).val = base + r.val) (hi1 : (i 1).val = f.val) (hi2 : (i 2).val = a.val) (hi3 : (i 3).val = c.val) :
    i = ix4 (rowIdx base hb r) f a c := by
  funext d; apply Fin.ext
  match d with
  | ⟨0, _⟩ => exact hi0
  | ⟨1, _⟩ => exact hi1
  | ⟨2, _⟩ => exact hi2
  | ⟨3, _⟩ => exact hi3

section
variable (x0 : Vec Ideal S8x1024 .f32) (x1 : Vec Ideal S1024x1024 .bf16) (x2 : Vec Ideal S1024 .f32)
  (x3 : Vec Ideal S1024x1024 .bf16) (x4 : Vec Ideal S1024 .f32)
  (z : (⟨2, ![8192, 1024]⟩ : Shape).Idx → EReal) (base : Nat) (hb : base + 8 ≤ 8192)
  (h0 : ∀ (r : Fin 8) (k : Fin 1024), x0 (ix2 r k) = z (ix2 (rowIdx base hb r) k))

include h0

/-- The 36 numbers of group (r, f) of the block are those of row base + r, group f. -/
theorem group_eq (x7 : Vec Ideal S1024x3456 .bf16) (x8 : Vec Ideal S3456 .f32) (r : Fin 8) (f : Fin 96) :
    (fun e => k0_pay3 (F := Ideal) x0 x1 x2 x3 x4 x7 x8 (ix3 r f e)) = group z x1 x2 x3 x4 x7 x8 (rowIdx base hb r) f := by
  funext e
  rw [pay3_apply]
  unfold group
  exact congrArg (fun row => dense x7 x8 (hiddenRow x1 x2 x3 x4 row) (gpos 36 f e)) (funext fun k => h0 r k)

/-- The mean block at a local index y is the specification's mean array at the global index i with the same group and
    position and the row base + (y's row). -/
theorem means_point (x5 : Vec Ideal S1024x768 .bf16) (x6 : Vec Ideal S768 .f32) (y : S8x96x8.Idx)
    (i : (⟨3, ![8192, 96, 8]⟩ : Shape).Idx)
    (hi0 : (i 0).val = base + (y 0).val) (hi1 : (i 1).val = (y 1).val) (hi2 : (i 2).val = (y 2).val) :
    k0_pay2 (F := Ideal) x0 x1 x2 x3 x4 x5 x6 y = Gmeans z x1 x2 x3 x4 x5 x6 i := by
  obtain ⟨r, f, o, rfl⟩ : ∃ (r : Fin 8) (f : Fin 96) (o : Fin 8), y = ix3 r f o := ⟨y 0, y 1, y 2, eq_ix3 y⟩
  have hi : i = ix3 (rowIdx base hb r) f o := by
    funext a; apply Fin.ext
    match a with
    | ⟨0, _⟩ => exact hi0
    | ⟨1, _⟩ => exact hi1
    | ⟨2, _⟩ => exact hi2
  rw [hi, Gmeans_ix, pay2_apply]
  unfold meansAt
  exact congrArg (fun row => dense x5 x6 (hiddenRow x1 x2 x3 x4 row) (gpos 8 f o)) (funext fun k => h0 r k)

/-- The stored T block at a local index y is the specification's triangular array at the global index i with the same
    group, matrix row and matrix column and the row base + (y's row). -/
theorem tri_point (x7 : Vec Ideal S1024x3456 .bf16) (x8 : Vec Ideal S3456 .f32) (y : S8x96x8x8.Idx)
    (i : (⟨4, ![8192, 96, 8, 8]⟩ : Shape).Idx)
    (hi0 : (i 0).val = base + (y 0).val) (hi1 : (i 1).val = (y 1).val) (hi2 : (i 2).val = (y 2).val) (hi3 : (i 3).val = (y 3).val) :
    k0_pay17 (F := Ideal) (k0_pay9 (k0_pay5 x0 x1 x2 x3 x4 x7 x8)) (k0_pay10 (k0_pay5 x0 x1 x2 x3 x4 x7 x8))
        (k0_pay11 (k0_pay5 x0 x1 x2 x3 x4 x7 x8)) (k0_pay12 (k0_pay5 x0 x1 x2 x3 x4 x7 x8)) (k0_pay13 (k0_pay5 x0 x1 x2 x3 x4 x7 x8))
        (k0_pay14 (k0_pay5 x0 x1 x2 x3 x4 x7 x8)) (k0_pay15 (k0_pay5 x0 x1 x2 x3 x4 x7 x8)) k0_pay16 y
      = Gtri z x1 x2 x3 x4 x7 x8 i := by
  obtain ⟨r, f, a, c, rfl⟩ : ∃ (r : Fin 8) (f : Fin 96) (a c : Fin 8), y = ix4 r f a c := ⟨y 0, y 1, y 2, y 3, eq_ix4 y⟩
  rw [idx4_eq base hb i r f a c hi0 hi1 hi2 hi3, Gtri_ix, ← group_eq x0 x1 x2 x3 x4 z base hb h0 x7 x8 r f]
  exact tri_pay (k0_pay3 x0 x1 x2 x3 x4 x7 x8) (k0_pay5 x0 x1 x2 x3 x4 x7 x8) Facts₀.slices_S8x96x36_o0_0_8_S8x96x28 rfl r f a c

omit h0 in
/-- The diagonal parameters are the first 8 numbers of a group. -/
theorem pay4_apply' (x7 : Vec Ideal S1024x3456 .bf16) (x8 : Vec Ideal S3456 .f32) (r : Fin 8) (f : Fin 96) (a : Fin 8) :
    k0_pay4 (F := Ideal) x0 x1 x2 x3 x4 x7 x8 (ix3 r f a) = k0_pay3 (F := Ideal) x0 x1 x2 x3 x4 x7 x8 (ix3 r f (dpos a)) := by
  unfold k0_pay4
  exact slice_last 0 _ _ r f a (dpos a) (by show a.val = 0 + a.val; omega)

/-- The stored D block at a local index y is the specification's diagonal-scale array at the global index i with the
    same group, matrix row and matrix column and the row base + (y's row). -/
theorem diag_point (x7 : Vec Ideal S1024x3456 .bf16) (x8 : Vec Ideal S3456 .f32) (y : S8x96x8x8.Idx)
    (i : (⟨4, ![8192, 96, 8, 8]⟩ : Shape).Idx)
    (hi0 : (i 0).val = base + (y 0).val) (hi1 : (i 1).val = (y 1).val) (hi2 : (i 2).val = (y 2).val) (hi3 : (i 3).val = (y 3).val) :
    k0_pay8 (F := Ideal) (k0_pay6 x0 x1 x2 x3 x4 x7 x8) y = Gdiag z x1 x2 x3 x4 x7 x8 i := by
  obtain ⟨r, f, a, c, rfl⟩ : ∃ (r : Fin 8) (f : Fin 96) (a c : Fin 8), y = ix4 r f a c := ⟨y 0, y 1, y 2, y 3, eq_ix4 y⟩
  rw [idx4_eq base hb i r f a c hi0 hi1 hi2 hi3, Gdiag_ix, ← group_eq x0 x1 x2 x3 x4 z base hb h0 x7 x8 r f]
  refine (diag_pay _ r f a c).trans ?_
  unfold Dmat
  refine congrArg (fun t => Ideal.exp t * eye a c) ?_
  show Ideal.ofBits .f32 0x3F000000#32 * k0_pay4 (F := Ideal) x0 x1 x2 x3 x4 x7 x8 (ix3 r f a) = _
  rw [pay4_apply' x0 x1 x2 x3 x4 x7 x8 r f a]

/-- The stored precision block at a local index y is the specification's precision array at the global index i with the
    same group, matrix row and matrix column and the row base + (y's row). -/
theorem prec_point (x7 : Vec Ideal S1024x3456 .bf16) (x8 : Vec Ideal S3456 .f32) (y : S8x96x8x8.Idx)
    (i : (⟨4, ![8192, 96, 8, 8]⟩ : Shape).Idx)
    (hi0 : (i 0).val = base + (y 0).val) (hi1 : (i 1).val = (y 1).val) (hi2 : (i 2).val = (y 2).val) (hi3 : (i 3).val = (y 3).val) :
    k0_pay22 (F := Ideal) (k0_pay7 (k0_pay4 x0 x1 x2 x3 x4 x7 x8))
        (k0_pay17 (k0_pay9 (k0_pay5 x0 x1 x2 x3 x4 x7 x8)) (k0_pay10 (k0_pay5 x0 x1 x2 x3 x4 x7 x8)) (k0_pay11 (k0_pay5 x0 x1 x2 x3 x4 x7 x8)) (k0_pay12 (k0_pay5 x0 x1 x2 x3 x4 x7 x8)) (k0_pay13 (k0_pay5 x0 x1 x2 x3 x4 x7 x8)) (k0_pay14 (k0_pay5 x0 x1 x2 x3 x4 x7 x8)) (k0_pay15 (k0_pay5 x0 x1 x2 x3 x4 x7 x8)) k0_pay16)
        (k0_pay18 (k0_pay7 (k0_pay4 x0 x1 x2 x3 x4 x7 x8)) (k0_pay9 (k0_pay5 x0 x1 x2 x3 x4 x7 x8)) (k0_pay10 (k0_pay5 x0 x1 x2 x3 x4 x7 x8)) (k0_pay11 (k0_pay5 x0 x1 x2 x3 x4 x7 x8)) (k0_pay12 (k0_pay5 x0 x1 x2 x3 x4 x7 x8)) (k0_pay13 (k0_pay5 x0 x1 x2 x3 x4 x7 x8)) (k0_pay14 (k0_pay5 x0 x1 x2 x3 x4 x7 x8)) (k0_pay15 (k0_pay5 x0 x1 x2 x3 x4 x7 x8)) k0_pay16)
        (k0_pay20 (k0_pay7 (k0_pay4 x0 x1 x2 x3 x4 x7 x8)) (k0_pay9 (k0_pay5 x0 x1 x2 x3 x4 x7 x8)) (k0_pay10 (k0_pay5 x0 x1 x2 x3 x4 x7 x8)) (k0_pay11 (k0_pay5 x0 x1 x2 x3 x4 x7 x8)) (k0_pay12 (k0_pay5 x0 x1 x2 x3 x4 x7 x8)) (k0_pay13 (k0_pay5 x0 x1 x2 x3 x4 x7 x8)) (k0_pay14 (k0_pay5 x0 x1 x2 x3 x4 x7 x8)) (k0_pay15 (k0_pay5 x0 x1 x2 x3 x4 x7 x8)) k0_pay16)
        (k0_pay21 (k0_pay9 (k0_pay5 x0 x1 x2 x3 x4 x7 x8)) (k0_pay10 (k0_pay5 x0 x1 x2 x3 x4 x7 x8)) (k0_pay11 (k0_pay5 x0 x1 x2 x3 x4 x7 x8)) (k0_pay12 (k0_pay5 x0 x1 x2 x3 x4 x7 x8)) (k0_pay13 (k0_pay5 x0 x1 x2 x3 x4 x7 x8)) (k0_pay14 (k0_pay5 x0 x1 x2 x3 x4 x7 x8)) (k0_pay15 (k0_pay5 x0 x1 x2 x3 x4 x7 x8)) k0_pay16)
        y
      = Gprec z x1 x2 x3 x4 x7 x8 i := by
  obtain ⟨r, f, a, c, rfl⟩ : ∃ (r : Fin 8) (f : Fin 96) (a c : Fin 8), y = ix4 r f a c := ⟨y 0, y 1, y 2, y 3, eq_ix4 y⟩
  rw [idx4_eq base hb i r f a c hi0 hi1 hi2 hi3, Gprec_ix, ← group_eq x0 x1 x2 x3 x4 z base hb h0 x7 x8 r f, prec_pay]
  unfold Pmat
  refine Finset.sum_congr rfl fun j _ => ?_
  rw [tri_pay (k0_pay3 x0 x1 x2 x3 x4 x7 x8) (k0_pay5 x0 x1 x2 x3 x4 x7 x8) Facts₀.slices_S8x96x36_o0_0_8_S8x96x28 rfl r f j a,
    tri_pay (k0_pay3 x0 x1 x2 x3 x4 x7 x8) (k0_pay5 x0 x1 x2 x3 x4 x7 x8) Facts₀.slices_S8x96x36_o0_0_8_S8x96x28 rfl r f j c]
  refine congrArg (fun t => Tmat _ j a * (Tmat _ j c * t)) ?_
  show Ideal.exp (Ideal.ofBits .f32 0xBF000000#32 * k0_pay4 (F := Ideal) x0 x1 x2 x3 x4 x7 x8 (ix3 r f j)) = _
  rw [pay4_apply' x0 x1 x2 x3 x4 x7 x8 r f j]

end

end Cert.KPoint

end
-- ==== Proof.KValue.lean ====
/-
  The kernel's run at the exact values: each result array, after all 1024 grid points, as one function of the arguments.

  Grid point t stages rows 8t .. 8t + 7 of z (the weight and bias windows are their whole arrays at every point; the four
  weight matrices reach the region through a change of float format, which keeps every value) and writes back block t of
  each result array.  What it writes back is, index by index, the whole-array function at the global index (the per-point
  lemmas); the 1024 blocks tile each result array, row b lying in block b / 8; so each array ends as that function.
-/
import proofs.«165734_j10067403341934_2_alg».proof.Proof.Gen.KernelIdeal.Frame
import proofs.«165734_j10067403341934_2_alg».proof.Proof.Gen.KernelIdeal.Value
import proofs.«165734_j10067403341934_2_alg».proof.Proof.KPoint
import Idealize.ShloMosaic.Lib.Pipeline.Value
import Idealize.ShloMosaic.Lib.StableHlo.Run

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.Spec Cert.KPoint
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The printed index maps, decided over the grid -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_w2 : ∀ t : Fin cfg0.N, win0_2.index t (0 : Fin 1) = 0 :=
  (by decide +kernel : ∀ t : Fin grid0.N, win0_2.index t (0 : Fin 1) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w4 : ∀ t : Fin cfg0.N, win0_4.index t (0 : Fin 1) = 0 :=
  (by decide +kernel : ∀ t : Fin grid0.N, win0_4.index t (0 : Fin 1) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 1) = 0 :=
  (by decide +kernel : ∀ t : Fin grid0.N, win0_6.index t (0 : Fin 1) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 1) = 0 :=
  (by decide +kernel : ∀ t : Fin grid0.N, win0_8.index t (0 : Fin 1) = 0)
theorem idx_o9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)
theorem idx_o10 : ∀ t : Fin cfg0.N, win0_10.index t (0 : Fin 4) = t.val ∧ win0_10.index t (1 : Fin 4) = 0 ∧ win0_10.index t (2 : Fin 4) = 0 ∧ win0_10.index t (3 : Fin 4) = 0 :=
  (by decide +kernel : ∀ t : Fin grid0.N, win0_10.index t (0 : Fin 4) = t.val ∧ win0_10.index t (1 : Fin 4) = 0 ∧ win0_10.index t (2 : Fin 4) = 0 ∧ win0_10.index t (3 : Fin 4) = 0)
theorem idx_o11 : ∀ t : Fin cfg0.N, win0_11.index t (0 : Fin 4) = t.val ∧ win0_11.index t (1 : Fin 4) = 0 ∧ win0_11.index t (2 : Fin 4) = 0 ∧ win0_11.index t (3 : Fin 4) = 0 :=
  (by decide +kernel : ∀ t : Fin grid0.N, win0_11.index t (0 : Fin 4) = t.val ∧ win0_11.index t (1 : Fin 4) = 0 ∧ win0_11.index t (2 : Fin 4) = 0 ∧ win0_11.index t (3 : Fin 4) = 0)
theorem idx_o12 : ∀ t : Fin cfg0.N, win0_12.index t (0 : Fin 4) = t.val ∧ win0_12.index t (1 : Fin 4) = 0 ∧ win0_12.index t (2 : Fin 4) = 0 ∧ win0_12.index t (3 : Fin 4) = 0 :=
  (by decide +kernel : ∀ t : Fin grid0.N, win0_12.index t (0 : Fin 4) = t.val ∧ win0_12.index t (1 : Fin 4) = 0 ∧ win0_12.index t (2 : Fin 4) = 0 ∧ win0_12.index t (3 : Fin 4) = 0)

theorem base_le (t : Fin cfg0.N) : 8 * t.val + 8 ≤ 8192 := by
  have h : t.val < grid0.N := t.isLt
  rw [N_0] at h
  omega

/-! ## The input blocks -/

/-- Row r of the block at point t is row 8t + r of z. -/
theorem iblk0_apply (c : Dev nD) (t : Fin cfg0.N) (r : Fin 8) (k : Fin 1024) :
    (iblk m c 0 t : Vec Ideal S8x1024 .f32) (ix2 r k)
      = (m ((c : Thread nD τ).loc main_arg0) : S8192x1024.Idx → EReal) (ix2 (rowIdx (8 * t.val) (base_le t) r) k) := by
  unfold iblk
  rw [View.read_apply]
  show V m c main_arg0 _ = _
  rw [V_main_arg0]
  refine congrArg _ (funext fun a => Fin.ext ?_)
  match a with
  | ⟨0, _⟩ => show win0_0.index t (0 : Fin 2) * 8 + 1 * r.val = 8 * t.val + r.val; rw [(idx_w0 t).1]; omega
  | ⟨1, _⟩ => show win0_0.index t (1 : Fin 2) * 1024 + 1 * k.val = k.val; rw [(idx_w0 t).2]; omega

/-- Window 1's block is its whole array, at every point. -/
theorem iblk1_eq (c : Dev nD) (t : Fin cfg0.N) :
    (iblk m c 1 t : Vec Ideal S1024x1024 .bf16) = (m ((c : Thread nD τ).loc main_arg1) : S1024x1024.Idx → EReal) := by
  funext x
  unfold iblk
  rw [View.read_apply]
  have e : (V m c main_v0 : S1024x1024.Idx → EReal) = m ((c : Thread nD τ).loc main_arg1) := by
    dsimp only [V, hostOps0]; after_results; rfl
  show V m c main_v0 _ = _
  rw [e]
  refine congrArg _ (funext fun a => Fin.ext ?_)
  match a with
  | ⟨0, _⟩ => show win0_1.index t (0 : Fin 2) * 1024 + 1 * (x 0).val = (x 0).val; rw [(idx_w1 t).1]; omega
  | ⟨1, _⟩ => show win0_1.index t (1 : Fin 2) * 1024 + 1 * (x 1).val = (x 1).val; rw [(idx_w1 t).2]; omega

/-- Window 2's block is its whole array, at every point. -/
theorem iblk2_eq (c : Dev nD) (t : Fin cfg0.N) :
    (iblk m c 2 t : Vec Ideal S1024 .f32) = (m ((c : Thread nD τ).loc main_arg2) : S1024.Idx → EReal) := by
  funext x
  unfold iblk
  rw [View.read_apply]
  show V m c main_arg2 _ = _
  rw [V_main_arg2]
  refine congrArg _ (funext fun a => Fin.ext ?_)
  match a with
  | ⟨0, _⟩ => show win0_2.index t (0 : Fin 1) * 1024 + 1 * (x 0).val = (x 0).val; rw [(idx_w2 t)]; omega

/-- Window 3's block is its whole array, at every point. -/
theorem iblk3_eq (c : Dev nD) (t : Fin cfg0.N) :
    (iblk m c 3 t : Vec Ideal S1024x1024 .bf16) = (m ((c : Thread nD τ).loc main_arg3) : S1024x1024.Idx → EReal) := by
  funext x
  unfold iblk
  rw [View.read_apply]
  have e : (V m c main_v1 : S1024x1024.Idx → EReal) = m ((c : Thread nD τ).loc main_arg3) := by
    dsimp only [V, hostOps0]; after_results; rfl
  show V m c main_v1 _ = _
  rw [e]
  refine congrArg _ (funext fun a => Fin.ext ?_)
  match a with
  | ⟨0, _⟩ => show win0_3.index t (0 : Fin 2) * 1024 + 1 * (x 0).val = (x 0).val; rw [(idx_w3 t).1]; omega
  | ⟨1, _⟩ => show win0_3.index t (1 : Fin 2) * 1024 + 1 * (x 1).val = (x 1).val; rw [(idx_w3 t).2]; omega

/-- Window 4's block is its whole array, at every point. -/
theorem iblk4_eq (c : Dev nD) (t : Fin cfg0.N) :
    (iblk m c 4 t : Vec Ideal S1024 .f32) = (m ((c : Thread nD τ).loc main_arg4) : S1024.Idx → EReal) := by
  funext x
  unfold iblk
  rw [View.read_apply]
  show V m c main_arg4 _ = _
  rw [V_main_arg4]
  refine congrArg _ (funext fun a => Fin.ext ?_)
  match a with
  | ⟨0, _⟩ => show win0_4.index t (0 : Fin 1) * 1024 + 1 * (x 0).val = (x 0).val; rw [(idx_w4 t)]; omega

/-- Window 5's block is its whole array, at every point. -/
theorem iblk5_eq (c : Dev nD) (t : Fin cfg0.N) :
    (iblk m c 5 t : Vec Ideal S1024x768 .bf16) = (m ((c : Thread nD τ).loc main_arg5) : S1024x768.Idx → EReal) := by
  funext x
  unfold iblk
  rw [View.read_apply]
  have e : (V m c main_v2 : S1024x768.Idx → EReal) = m ((c : Thread nD τ).loc main_arg5) := by
    dsimp only [V, hostOps0]; after_results; rfl
  show V m c main_v2 _ = _
  rw [e]
  refine congrArg _ (funext fun a => Fin.ext ?_)
  match a with
  | ⟨0, _⟩ => show win0_5.index t (0 : Fin 2) * 1024 + 1 * (x 0).val = (x 0).val; rw [(idx_w5 t).1]; omega
  | ⟨1, _⟩ => show win0_5.index t (1 : Fin 2) * 768 + 1 * (x 1).val = (x 1).val; rw [(idx_w5 t).2]; omega

/-- Window 6's block is its whole array, at every point. -/
theorem iblk6_eq (c : Dev nD) (t : Fin cfg0.N) :
    (iblk m c 6 t : Vec Ideal S768 .f32) = (m ((c : Thread nD τ).loc main_arg6) : S768.Idx → EReal) := by
  funext x
  unfold iblk
  rw [View.read_apply]
  show V m c main_arg6 _ = _
  rw [V_main_arg6]
  refine congrArg _ (funext fun a => Fin.ext ?_)
  match a with
  | ⟨0, _⟩ => show win0_6.index t (0 : Fin 1) * 768 + 1 * (x 0).val = (x 0).val; rw [(idx_w6 t)]; omega

/-- Window 7's block is its whole array, at every point. -/
theorem iblk7_eq (c : Dev nD) (t : Fin cfg0.N) :
    (iblk m c 7 t : Vec Ideal S1024x3456 .bf16) = (m ((c : Thread nD τ).loc main_arg7) : S1024x3456.Idx → EReal) := by
  funext x
  unfold iblk
  rw [View.read_apply]
  have e : (V m c main_v3 : S1024x3456.Idx → EReal) = m ((c : Thread nD τ).loc main_arg7) := by
    dsimp only [V, hostOps0]; after_results; rfl
  show V m c main_v3 _ = _
  rw [e]
  refine congrArg _ (funext fun a => Fin.ext ?_)
  match a with
  | ⟨0, _⟩ => show win0_7.index t (0 : Fin 2) * 1024 + 1 * (x 0).val = (x 0).val; rw [(idx_w7 t).1]; omega
  | ⟨1, _⟩ => show win0_7.index t (1 : Fin 2) * 3456 + 1 * (x 1).val = (x 1).val; rw [(idx_w7 t).2]; omega

/-- Window 8's block is its whole array, at every point. -/
theorem iblk8_eq (c : Dev nD) (t : Fin cfg0.N) :
    (iblk m c 8 t : Vec Ideal S3456 .f32) = (m ((c : Thread nD τ).loc main_arg8) : S3456.Idx → EReal) := by
  funext x
  unfold iblk
  rw [View.read_apply]
  show V m c main_arg8 _ = _
  rw [V_main_arg8]
  refine congrArg _ (funext fun a => Fin.ext ?_)
  match a with
  | ⟨0, _⟩ => show win0_8.index t (0 : Fin 1) * 3456 + 1 * (x 0).val = (x 0).val; rw [(idx_w8 t)]; omega

/-! ## Output window 9 -/

/-- What grid point t writes back is block t of the whole-array function. -/
theorem flushed9_eq (c : Dev nD) (t : Fin cfg0.N) :
    (dats m 0 c).flushed 9 t = ((cfg0.win 9).blk t).view.read (Elt Ideal) (Gmeans (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed9]
  unfold out0_9
  rw [View.canon_unit_zero hz3]
  simp only [View.ld_unit_zero (S := S8x1024) hz2, View.ld_unit_zero (S := S1024x1024) hz2, View.ld_unit_zero (S := S1024) hz1, View.ld_unit_zero (S := S1024x768) hz2, View.ld_unit_zero (S := S768) hz1, View.ld_unit_zero (S := S1024x3456) hz2, View.ld_unit_zero (S := S3456) hz1]
  funext y
  show _ = Gmeans (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y)
  rw [iblk1_eq m c t, iblk2_eq m c t, iblk3_eq m c t, iblk4_eq m c t, iblk5_eq m c t, iblk6_eq m c t]
  exact means_point (iblk m c 0 t) (m ((c : Thread nD τ).loc main_arg1)) (m ((c : Thread nD τ).loc main_arg2)) (m ((c : Thread nD τ).loc main_arg3)) (m ((c : Thread nD τ).loc main_arg4)) (m ((c : Thread nD τ).loc main_arg0)) (8 * t.val) (base_le t)
    (fun r k => iblk0_apply m c t r k) (m ((c : Thread nD τ).loc main_arg5)) (m ((c : Thread nD τ).loc main_arg6)) y (((cfg0.win 9).blk t).view.emb y)
    (by show win0_9.index t (0 : Fin 3) * 8 + 1 * (y 0).val = 8 * t.val + (y 0).val; rw [(idx_o9 t).1]; omega)
    (by show win0_9.index t (1 : Fin 3) * 96 + 1 * (y 1).val = (y 1).val; rw [(idx_o9 t).2.1]; omega)
    (by show win0_9.index t (2 : Fin 3) * 8 + 1 * (y 2).val = (y 2).val; rw [(idx_o9 t).2.2]; omega)

/-- An index is in point t's block iff each coordinate is in the block's range on its axis. -/
theorem mem_blk9 (t : Fin cfg0.N) (i : S8192x96x8.Idx) :
    i ∈ ((cfg0.win 9).blk t).view.set ↔ ∀ a : Fin 3, win0_9.index t a * S8x96x8.size a ≤ (i a).val ∧ (i a).val < win0_9.index t a * S8x96x8.size a + S8x96x8.size a := by
  show i ∈ ((View.whole main_v4_0).slice (win0_9.rect t)).set ↔ _
  rw [View.set_slice_whole, Rect.mem_set_unit]
  exact Iff.rfl

/-- Every index lies in the block of the point that holds its row: row b is in block b / 8. -/
theorem cover9 (i : S8192x96x8.Idx) : ∃ t : Fin cfg0.N, (cfg0.win 9).flush t = true ∧ i ∈ ((cfg0.win 9).blk t).view.set := by
  have h0 : (i 0).val < 8192 := (i 0).isLt
  have h1 : (i 1).val < 96 := (i 1).isLt
  have h2 : (i 2).val < 8 := (i 2).isLt
  have ht : (i 0).val / 8 < cfg0.N := by show (i 0).val / 8 < grid0.N; rw [N_0]; omega
  refine ⟨⟨(i 0).val / 8, ht⟩, flush0_9 _, ?_⟩
  rw [mem_blk9]
  intro a
  generalize htt : (⟨(i 0).val / 8, ht⟩ : Fin cfg0.N) = t
  have htv : t.val = (i 0).val / 8 := by rw [← htt]
  match a with
    | ⟨0, _⟩ =>
      show win0_9.index t (0 : Fin 3) * 8 ≤ (i 0).val ∧ (i 0).val < win0_9.index t (0 : Fin 3) * 8 + 8
      rw [(idx_o9 t).1]; rw [htv]; show (i 0).val / 8 * 8 ≤ (i 0).val ∧ (i 0).val < (i 0).val / 8 * 8 + 8; omega
    | ⟨1, _⟩ =>
      show win0_9.index t (1 : Fin 3) * 96 ≤ (i 1).val ∧ (i 1).val < win0_9.index t (1 : Fin 3) * 96 + 96
      rw [(idx_o9 t).2.1]; omega
    | ⟨2, _⟩ =>
      show win0_9.index t (2 : Fin 3) * 8 ≤ (i 2).val ∧ (i 2).val < win0_9.index t (2 : Fin 3) * 8 + 8
      rw [(idx_o9 t).2.2]; omega

/-- The array after the run. -/
theorem final9 (c : Dev nD) : (dats m 0 c).arrAt 9 cfg0.N = Gmeans (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 9 _ (fun t _ => flushed9_eq m c t) cover9

/-! ## Output window 10 -/

/-- What grid point t writes back is block t of the whole-array function. -/
theorem flushed10_eq (c : Dev nD) (t : Fin cfg0.N) :
    (dats m 0 c).flushed 10 t = ((cfg0.win 10).blk t).view.read (Elt Ideal) (Gprec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [flushed10]
  unfold out0_10
  rw [View.canon_unit_zero hz4]
  simp only [View.ld_unit_zero (S := S8x1024) hz2, View.ld_unit_zero (S := S1024x1024) hz2, View.ld_unit_zero (S := S1024) hz1, View.ld_unit_zero (S := S1024x768) hz2, View.ld_unit_zero (S := S768) hz1, View.ld_unit_zero (S := S1024x3456) hz2, View.ld_unit_zero (S := S3456) hz1]
  funext y
  show _ = Gprec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (((cfg0.win 10).blk t).view.emb y)
  rw [iblk1_eq m c t, iblk2_eq m c t, iblk3_eq m c t, iblk4_eq m c t, iblk7_eq m c t, iblk8_eq m c t]
  exact prec_point (iblk m c 0 t) (m ((c : Thread nD τ).loc main_arg1)) (m ((c : Thread nD τ).loc main_arg2)) (m ((c : Thread nD τ).loc main_arg3)) (m ((c : Thread nD τ).loc main_arg4)) (m ((c : Thread nD τ).loc main_arg0)) (8 * t.val) (base_le t)
    (fun r k => iblk0_apply m c t r k) (m ((c : Thread nD τ).loc main_arg7)) (m ((c : Thread nD τ).loc main_arg8)) y (((cfg0.win 10).blk t).view.emb y)
    (by show win0_10.index t (0 : Fin 4) * 8 + 1 * (y 0).val = 8 * t.val + (y 0).val; rw [(idx_o10 t).1]; omega)
    (by show win0_10.index t (1 : Fin 4) * 96 + 1 * (y 1).val = (y 1).val; rw [(idx_o10 t).2.1]; omega)
    (by show win0_10.index t (2 : Fin 4) * 8 + 1 * (y 2).val = (y 2).val; rw [(idx_o10 t).2.2.1]; omega)
    (by show win0_10.index t (3 : Fin 4) * 8 + 1 * (y 3).val = (y 3).val; rw [(idx_o10 t).2.2.2]; omega)

/-- An index is in point t's block iff each coordinate is in the block's range on its axis. -/
theorem mem_blk10 (t : Fin cfg0.N) (i : S8192x96x8x8.Idx) :
    i ∈ ((cfg0.win 10).blk t).view.set ↔ ∀ a : Fin 4, win0_10.index t a * S8x96x8x8.size a ≤ (i a).val ∧ (i a).val < win0_10.index t a * S8x96x8x8.size a + S8x96x8x8.size a := by
  show i ∈ ((View.whole main_v4_1).slice (win0_10.rect t)).set ↔ _
  rw [View.set_slice_whole, Rect.mem_set_unit]
  exact Iff.rfl

/-- Every index lies in the block of the point that holds its row: row b is in block b / 8. -/
theorem cover10 (i : S8192x96x8x8.Idx) : ∃ t : Fin cfg0.N, (cfg0.win 10).flush t = true ∧ i ∈ ((cfg0.win 10).blk t).view.set := by
  have h0 : (i 0).val < 8192 := (i 0).isLt
  have h1 : (i 1).val < 96 := (i 1).isLt
  have h2 : (i 2).val < 8 := (i 2).isLt
  have h3 : (i 3).val < 8 := (i 3).isLt
  have ht : (i 0).val / 8 < cfg0.N := by show (i 0).val / 8 < grid0.N; rw [N_0]; omega
  refine ⟨⟨(i 0).val / 8, ht⟩, flush0_10 _, ?_⟩
  rw [mem_blk10]
  intro a
  generalize htt : (⟨(i 0).val / 8, ht⟩ : Fin cfg0.N) = t
  have htv : t.val = (i 0).val / 8 := by rw [← htt]
  match a with
    | ⟨0, _⟩ =>
      show win0_10.index t (0 : Fin 4) * 8 ≤ (i 0).val ∧ (i 0).val < win0_10.index t (0 : Fin 4) * 8 + 8
      rw [(idx_o10 t).1]; rw [htv]; show (i 0).val / 8 * 8 ≤ (i 0).val ∧ (i 0).val < (i 0).val / 8 * 8 + 8; omega
    | ⟨1, _⟩ =>
      show win0_10.index t (1 : Fin 4) * 96 ≤ (i 1).val ∧ (i 1).val < win0_10.index t (1 : Fin 4) * 96 + 96
      rw [(idx_o10 t).2.1]; omega
    | ⟨2, _⟩ =>
      show win0_10.index t (2 : Fin 4) * 8 ≤ (i 2).val ∧ (i 2).val < win0_10.index t (2 : Fin 4) * 8 + 8
      rw [(idx_o10 t).2.2.1]; omega
    | ⟨3, _⟩ =>
      show win0_10.index t (3 : Fin 4) * 8 ≤ (i 3).val ∧ (i 3).val < win0_10.index t (3 : Fin 4) * 8 + 8
      rw [(idx_o10 t).2.2.2]; omega

/-- The array after the run. -/
theorem final10 (c : Dev nD) : (dats m 0 c).arrAt 10 cfg0.N = Gprec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 10 _ (fun t _ => flushed10_eq m c t) cover10

/-! ## Output window 11 -/

/-- What grid point t writes back is block t of the whole-array function. -/
theorem flushed11_eq (c : Dev nD) (t : Fin cfg0.N) :
    (dats m 0 c).flushed 11 t = ((cfg0.win 11).blk t).view.read (Elt Ideal) (Gdiag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [flushed11]
  unfold out0_11
  rw [View.canon_unit_zero hz4]
  simp only [View.ld_unit_zero (S := S8x1024) hz2, View.ld_unit_zero (S := S1024x1024) hz2, View.ld_unit_zero (S := S1024) hz1, View.ld_unit_zero (S := S1024x768) hz2, View.ld_unit_zero (S := S768) hz1, View.ld_unit_zero (S := S1024x3456) hz2, View.ld_unit_zero (S := S3456) hz1]
  funext y
  show _ = Gdiag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (((cfg0.win 11).blk t).view.emb y)
  rw [iblk1_eq m c t, iblk2_eq m c t, iblk3_eq m c t, iblk4_eq m c t, iblk7_eq m c t, iblk8_eq m c t]
  exact diag_point (iblk m c 0 t) (m ((c : Thread nD τ).loc main_arg1)) (m ((c : Thread nD τ).loc main_arg2)) (m ((c : Thread nD τ).loc main_arg3)) (m ((c : Thread nD τ).loc main_arg4)) (m ((c : Thread nD τ).loc main_arg0)) (8 * t.val) (base_le t)
    (fun r k => iblk0_apply m c t r k) (m ((c : Thread nD τ).loc main_arg7)) (m ((c : Thread nD τ).loc main_arg8)) y (((cfg0.win 11).blk t).view.emb y)
    (by show win0_11.index t (0 : Fin 4) * 8 + 1 * (y 0).val = 8 * t.val + (y 0).val; rw [(idx_o11 t).1]; omega)
    (by show win0_11.index t (1 : Fin 4) * 96 + 1 * (y 1).val = (y 1).val; rw [(idx_o11 t).2.1]; omega)
    (by show win0_11.index t (2 : Fin 4) * 8 + 1 * (y 2).val = (y 2).val; rw [(idx_o11 t).2.2.1]; omega)
    (by show win0_11.index t (3 : Fin 4) * 8 + 1 * (y 3).val = (y 3).val; rw [(idx_o11 t).2.2.2]; omega)

/-- An index is in point t's block iff each coordinate is in the block's range on its axis. -/
theorem mem_blk11 (t : Fin cfg0.N) (i : S8192x96x8x8.Idx) :
    i ∈ ((cfg0.win 11).blk t).view.set ↔ ∀ a : Fin 4, win0_11.index t a * S8x96x8x8.size a ≤ (i a).val ∧ (i a).val < win0_11.index t a * S8x96x8x8.size a + S8x96x8x8.size a := by
  show i ∈ ((View.whole main_v4_2).slice (win0_11.rect t)).set ↔ _
  rw [View.set_slice_whole, Rect.mem_set_unit]
  exact Iff.rfl

/-- Every index lies in the block of the point that holds its row: row b is in block b / 8. -/
theorem cover11 (i : S8192x96x8x8.Idx) : ∃ t : Fin cfg0.N, (cfg0.win 11).flush t = true ∧ i ∈ ((cfg0.win 11).blk t).view.set := by
  have h0 : (i 0).val < 8192 := (i 0).isLt
  have h1 : (i 1).val < 96 := (i 1).isLt
  have h2 : (i 2).val < 8 := (i 2).isLt
  have h3 : (i 3).val < 8 := (i 3).isLt
  have ht : (i 0).val / 8 < cfg0.N := by show (i 0).val / 8 < grid0.N; rw [N_0]; omega
  refine ⟨⟨(i 0).val / 8, ht⟩, flush0_11 _, ?_⟩
  rw [mem_blk11]
  intro a
  generalize htt : (⟨(i 0).val / 8, ht⟩ : Fin cfg0.N) = t
  have htv : t.val = (i 0).val / 8 := by rw [← htt]
  match a with
    | ⟨0, _⟩ =>
      show win0_11.index t (0 : Fin 4) * 8 ≤ (i 0).val ∧ (i 0).val < win0_11.index t (0 : Fin 4) * 8 + 8
      rw [(idx_o11 t).1]; rw [htv]; show (i 0).val / 8 * 8 ≤ (i 0).val ∧ (i 0).val < (i 0).val / 8 * 8 + 8; omega
    | ⟨1, _⟩ =>
      show win0_11.index t (1 : Fin 4) * 96 ≤ (i 1).val ∧ (i 1).val < win0_11.index t (1 : Fin 4) * 96 + 96
      rw [(idx_o11 t).2.1]; omega
    | ⟨2, _⟩ =>
      show win0_11.index t (2 : Fin 4) * 8 ≤ (i 2).val ∧ (i 2).val < win0_11.index t (2 : Fin 4) * 8 + 8
      rw [(idx_o11 t).2.2.1]; omega
    | ⟨3, _⟩ =>
      show win0_11.index t (3 : Fin 4) * 8 ≤ (i 3).val ∧ (i 3).val < win0_11.index t (3 : Fin 4) * 8 + 8
      rw [(idx_o11 t).2.2.2]; omega

/-- The array after the run. -/
theorem final11 (c : Dev nD) : (dats m 0 c).arrAt 11 cfg0.N = Gdiag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 11 _ (fun t _ => flushed11_eq m c t) cover11

/-! ## Output window 12 -/

/-- What grid point t writes back is block t of the whole-array function. -/
theorem flushed12_eq (c : Dev nD) (t : Fin cfg0.N) :
    (dats m 0 c).flushed 12 t = ((cfg0.win 12).blk t).view.read (Elt Ideal) (Gtri (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [flushed12]
  unfold out0_12
  rw [View.canon_unit_zero hz4]
  simp only [View.ld_unit_zero (S := S8x1024) hz2, View.ld_unit_zero (S := S1024x1024) hz2, View.ld_unit_zero (S := S1024) hz1, View.ld_unit_zero (S := S1024x768) hz2, View.ld_unit_zero (S := S768) hz1, View.ld_unit_zero (S := S1024x3456) hz2, View.ld_unit_zero (S := S3456) hz1]
  funext y
  show _ = Gtri (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (((cfg0.win 12).blk t).view.emb y)
  rw [iblk1_eq m c t, iblk2_eq m c t, iblk3_eq m c t, iblk4_eq m c t, iblk7_eq m c t, iblk8_eq m c t]
  exact tri_point (iblk m c 0 t) (m ((c : Thread nD τ).loc main_arg1)) (m ((c : Thread nD τ).loc main_arg2)) (m ((c : Thread nD τ).loc main_arg3)) (m ((c : Thread nD τ).loc main_arg4)) (m ((c : Thread nD τ).loc main_arg0)) (8 * t.val) (base_le t)
    (fun r k => iblk0_apply m c t r k) (m ((c : Thread nD τ).loc main_arg7)) (m ((c : Thread nD τ).loc main_arg8)) y (((cfg0.win 12).blk t).view.emb y)
    (by show win0_12.index t (0 : Fin 4) * 8 + 1 * (y 0).val = 8 * t.val + (y 0).val; rw [(idx_o12 t).1]; omega)
    (by show win0_12.index t (1 : Fin 4) * 96 + 1 * (y 1).val = (y 1).val; rw [(idx_o12 t).2.1]; omega)
    (by show win0_12.index t (2 : Fin 4) * 8 + 1 * (y 2).val = (y 2).val; rw [(idx_o12 t).2.2.1]; omega)
    (by show win0_12.index t (3 : Fin 4) * 8 + 1 * (y 3).val = (y 3).val; rw [(idx_o12 t).2.2.2]; omega)

/-- An index is in point t's block iff each coordinate is in the block's range on its axis. -/
theorem mem_blk12 (t : Fin cfg0.N) (i : S8192x96x8x8.Idx) :
    i ∈ ((cfg0.win 12).blk t).view.set ↔ ∀ a : Fin 4, win0_12.index t a * S8x96x8x8.size a ≤ (i a).val ∧ (i a).val < win0_12.index t a * S8x96x8x8.size a + S8x96x8x8.size a := by
  show i ∈ ((View.whole main_v4_3).slice (win0_12.rect t)).set ↔ _
  rw [View.set_slice_whole, Rect.mem_set_unit]
  exact Iff.rfl

/-- Every index lies in the block of the point that holds its row: row b is in block b / 8. -/
theorem cover12 (i : S8192x96x8x8.Idx) : ∃ t : Fin cfg0.N, (cfg0.win 12).flush t = true ∧ i ∈ ((cfg0.win 12).blk t).view.set := by
  have h0 : (i 0).val < 8192 := (i 0).isLt
  have h1 : (i 1).val < 96 := (i 1).isLt
  have h2 : (i 2).val < 8 := (i 2).isLt
  have h3 : (i 3).val < 8 := (i 3).isLt
  have ht : (i 0).val / 8 < cfg0.N := by show (i 0).val / 8 < grid0.N; rw [N_0]; omega
  refine ⟨⟨(i 0).val / 8, ht⟩, flush0_12 _, ?_⟩
  rw [mem_blk12]
  intro a
  generalize htt : (⟨(i 0).val / 8, ht⟩ : Fin cfg0.N) = t
  have htv : t.val = (i 0).val / 8 := by rw [← htt]
  match a with
    | ⟨0, _⟩ =>
      show win0_12.index t (0 : Fin 4) * 8 ≤ (i 0).val ∧ (i 0).val < win0_12.index t (0 : Fin 4) * 8 + 8
      rw [(idx_o12 t).1]; rw [htv]; show (i 0).val / 8 * 8 ≤ (i 0).val ∧ (i 0).val < (i 0).val / 8 * 8 + 8; omega
    | ⟨1, _⟩ =>
      show win0_12.index t (1 : Fin 4) * 96 ≤ (i 1).val ∧ (i 1).val < win0_12.index t (1 : Fin 4) * 96 + 96
      rw [(idx_o12 t).2.1]; omega
    | ⟨2, _⟩ =>
      show win0_12.index t (2 : Fin 4) * 8 ≤ (i 2).val ∧ (i 2).val < win0_12.index t (2 : Fin 4) * 8 + 8
      rw [(idx_o12 t).2.2.1]; omega
    | ⟨3, _⟩ =>
      show win0_12.index t (3 : Fin 4) * 8 ≤ (i 3).val ∧ (i 3).val < win0_12.index t (3 : Fin 4) * 8 + 8
      rw [(idx_o12 t).2.2.2]; omega

/-- The array after the run. -/
theorem final12 (c : Dev nD) : (dats m 0 c).arrAt 12 cfg0.N = Gtri (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 12 _ (fun t _ => flushed12_eq m c t) cover12

/-! ## The run, read -/

/-- The frame run re-posted: each result array at its function of the arguments, the arguments unchanged. -/
theorem run : θ_run defs (onTc (τ := τ) (main (F := Ideal))) ⟨m, fun _ => 0, ρ⟩ fun r => ∀ c : Dev nD,
      r.2.mem ((c : Thread nD τ).loc main_v4_0) = Gmeans (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = Gprec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v4_2) = Gdiag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v4_3) = Gtri (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c),
      (h c).2.2.1.trans (final11 m c), (h c).2.2.2.1.trans (final12 m c), (h c).2.2.2.2⟩)
    (run_blocks m ρ)

end Cert.KernelIdeal.KValue

end
-- ==== Proof.RefRun.lean ====
/- The reference program's @main as the list of its 69 host operations (the call of @silu unfolded at its nine
   operations over the call's buffers), the results' composed pure terms cut into named stages, and the run:
   every weakly fair execution terminates with each result buffer at its stage term of the arguments'
   launch contents and the arguments unchanged. -/
import proofs.«165734_j10067403341934_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order: its own sixty and, in the place of the call of @silu, that function's nine
    over the call's buffers (negate, exponential, the constant one and its broadcast, add, the constant one and its
    broadcast again, divide, multiply). -/
abbrev ops : List (HloOp τ sig (Elt F)) :=
  [
    nullary main_c (fun i => lit0 (S28.rowMajor i)),
    nullary main_c_0 (constantI S28 1 0#1),
    nullary main_c_1 (fun i => lit1 (S28.rowMajor i)),
    nullary main_c_2 (constantI S28 1 0#1),
    binary main_arg0 main_arg1 main_v0 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S8192x1024 ![0, 1] bcast_S1x1024_S8192x1024_0_1 : (⟨S1x1024, .f32⟩ : BufTy).Contents (Elt F) → (⟨S8192x1024, .f32⟩ : BufTy).Contents (Elt F)),
    binary main_v0 main_v2 main_v3 (addf : (⟨S8192x1024, .f32⟩ : BufTy).Contents (Elt F) → (⟨S8192x1024, .f32⟩ : BufTy).Contents (Elt F) → (⟨S8192x1024, .f32⟩ : BufTy).Contents (Elt F)),
    TRef.unary (.of main_v3) main_call0.v0 Host.negf,
    TRef.unary main_call0.v0 main_call0.v1 Host.exp,
    TRef.nullary main_call0.cst (constant S_ .f32 0x3F800000#32),
    TRef.unary main_call0.cst main_call0.v2 (broadcastInDim S8192x1024 ![] bcast_S_S8192x1024),
    TRef.binary main_call0.v2 main_call0.v1 main_call0.v3 addf,
    TRef.nullary main_call0.cst_0 (constant S_ .f32 0x3F800000#32),
    TRef.unary main_call0.cst_0 main_call0.v4 (broadcastInDim S8192x1024 ![] bcast_S_S8192x1024),
    TRef.binary main_call0.v4 main_call0.v3 main_call0.v5 Host.divf,
    TRef.binary (.of main_v3) main_call0.v5 main_call0.v6 mulf,
    binary main_v4 main_arg3 main_v5 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg4 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S8192x1024 ![0, 1] bcast_S1x1024_S8192x1024_0_1 : (⟨S1x1024, .f32⟩ : BufTy).Contents (Elt F) → (⟨S8192x1024, .f32⟩ : BufTy).Contents (Elt F)),
    binary main_v5 main_v7 main_v8 (addf : (⟨S8192x1024, .f32⟩ : BufTy).Contents (Elt F) → (⟨S8192x1024, .f32⟩ : BufTy).Contents (Elt F) → (⟨S8192x1024, .f32⟩ : BufTy).Contents (Elt F)),
    binary main_v8 main_arg5 main_v9 ((fun l r => Host.dotGeneral dot_S8192x1024_S1024x768_S8192x768_1_0_0_1_n_n none l r) : (⟨S8192x1024, .f32⟩ : BufTy).Contents (Elt F) → (⟨S1024x768, .f32⟩ : BufTy).Contents (Elt F) → (⟨S8192x768, .f32⟩ : BufTy).Contents (Elt F)),
    unary main_arg6 main_v10 (broadcastInDim S1x768 ![1] bcast_S768_S1x768_1 : (⟨S768, .f32⟩ : BufTy).Contents (Elt F) → (⟨S1x768, .f32⟩ : BufTy).Contents (Elt F)),
    unary main_v10 main_v11 (broadcastInDim S8192x768 ![0, 1] bcast_S1x768_S8192x768_0_1 : (⟨S1x768, .f32⟩ : BufTy).Contents (Elt F) → (⟨S8192x768, .f32⟩ : BufTy).Contents (Elt F)),
    binary main_v9 main_v11 main_v12 (addf : (⟨S8192x768, .f32⟩ : BufTy).Contents (Elt F) → (⟨S8192x768, .f32⟩ : BufTy).Contents (Elt F) → (⟨S8192x768, .f32⟩ : BufTy).Contents (Elt F)),
    reshape main_v12 main_v13 rfl shapeCasts_S8192x768_S8192x96x8,
    binary main_v8 main_arg7 main_v14 ((fun l r => Host.dotGeneral dot_S8192x1024_S1024x3456_S8192x3456_1_0_0_1_n_n none l r) : (⟨S8192x1024, .f32⟩ : BufTy).Contents (Elt F) → (⟨S1024x3456, .f32⟩ : BufTy).Contents (Elt F) → (⟨S8192x3456, .f32⟩ : BufTy).Contents (Elt F)),
    unary main_arg8 main_v15 (broadcastInDim S1x3456 ![1] bcast_S3456_S1x3456_1 : (⟨S3456, .f32⟩ : BufTy).Contents (Elt F) → (⟨S1x3456, .f32⟩ : BufTy).Contents (Elt F)),
    unary main_v15 main_v16 (broadcastInDim S8192x3456 ![0, 1] bcast_S1x3456_S8192x3456_0_1 : (⟨S1x3456, .f32⟩ : BufTy).Contents (Elt F) → (⟨S8192x3456, .f32⟩ : BufTy).Contents (Elt F)),
    binary main_v14 main_v16 main_v17 (addf : (⟨S8192x3456, .f32⟩ : BufTy).Contents (Elt F) → (⟨S8192x3456, .f32⟩ : BufTy).Contents (Elt F) → (⟨S8192x3456, .f32⟩ : BufTy).Contents (Elt F)),
    reshape main_v17 main_v18 rfl shapeCasts_S8192x3456_S8192x96x36,
    unary main_v18 main_v19 ((extractStridedSlice S8192x96x8 ![0, 0, 0] · slices_S8192x96x36_S8192x96x8_0_0_0) : (⟨S8192x96x36, .f32⟩ : BufTy).Contents (Elt F) → (⟨S8192x96x8, .f32⟩ : BufTy).Contents (Elt F)),
    unary main_v18 main_v20 ((extractStridedSlice S8192x96x28 ![0, 0, 8] · slices_S8192x96x36_S8192x96x28_0_0_8) : (⟨S8192x96x36, .f32⟩ : BufTy).Contents (Elt F) → (⟨S8192x96x28, .f32⟩ : BufTy).Contents (Elt F)),
    nullary main_cst (constant S_ .f32 0x3F000000#32),
    unary main_cst main_v21 (broadcastInDim S8192x96x8 ![] bcast_S_S8192x96x8 : (⟨S_, .f32⟩ : BufTy).Contents (Elt F) → (⟨S8192x96x8, .f32⟩ : BufTy).Contents (Elt F)),
    binary main_v21 main_v19 main_v22 (mulf : (⟨S8192x96x8, .f32⟩ : BufTy).Contents (Elt F) → (⟨S8192x96x8, .f32⟩ : BufTy).Contents (Elt F) → (⟨S8192x96x8, .f32⟩ : BufTy).Contents (Elt F)),
    unary main_v22 main_v23 (Host.exp : (⟨S8192x96x8, .f32⟩ : BufTy).Contents (Elt F) → (⟨S8192x96x8, .f32⟩ : BufTy).Contents (Elt F)),
    nullary main_v24 (iotaInDim S8x8 32 0),
    nullary main_v25 (iotaInDim S8x8 32 1),
    nullary main_c_3 (constantI S_ 32 0#32),
    unary main_c_3 main_v26 (broadcastInDim S8x8 ![] bcast_S_S8x8 : (⟨S_, .i32⟩ : BufTy).Contents (Elt F) → (⟨S8x8, .i32⟩ : BufTy).Contents (Elt F)),
    binary main_v24 main_v26 main_v27 (addi : (⟨S8x8, .i32⟩ : BufTy).Contents (Elt F) → (⟨S8x8, .i32⟩ : BufTy).Contents (Elt F) → (⟨S8x8, .i32⟩ : BufTy).Contents (Elt F)),
    binary main_v27 main_v25 main_v28 (cmpi .eq : (⟨S8x8, .i32⟩ : BufTy).Contents (Elt F) → (⟨S8x8, .i32⟩ : BufTy).Contents (Elt F) → (⟨S8x8, .i1⟩ : BufTy).Contents (Elt F)),
    unary main_v28 main_v29 (uitofp .f32 : (⟨S8x8, .i1⟩ : BufTy).Contents (Elt F) → (⟨S8x8, .f32⟩ : BufTy).Contents (Elt F)),
    unary main_v23 main_v30 (broadcastInDim S8192x96x8x1 ![0, 1, 2] bcast_S8192x96x8_S8192x96x8x1_0_1_2 : (⟨S8192x96x8, .f32⟩ : BufTy).Contents (Elt F) → (⟨S8192x96x8x1, .f32⟩ : BufTy).Contents (Elt F)),
    unary main_v29 main_v31 (broadcastInDim S1x1x8x8 ![2, 3] bcast_S8x8_S1x1x8x8_2_3 : (⟨S8x8, .f32⟩ : BufTy).Contents (Elt F) → (⟨S1x1x8x8, .f32⟩ : BufTy).Contents (Elt F)),
    unary main_v30 main_v32 (broadcastInDim S8192x96x8x8 ![0, 1, 2, 3] bcast_S8192x96x8x1_S8192x96x8x8_0_1_2_3 : (⟨S8192x96x8x1, .f32⟩ : BufTy).Contents (Elt F) → (⟨S8192x96x8x8, .f32⟩ : BufTy).Contents (Elt F)),
    unary main_v31 main_v33 (broadcastInDim S8192x96x8x8 ![0, 1, 2, 3] bcast_S1x1x8x8_S8192x96x8x8_0_1_2_3 : (⟨S1x1x8x8, .f32⟩ : BufTy).Contents (Elt F) → (⟨S8192x96x8x8, .f32⟩ : BufTy).Contents (Elt F)),
    binary main_v32 main_v33 main_v34 (mulf : (⟨S8192x96x8x8, .f32⟩ : BufTy).Contents (Elt F) → (⟨S8192x96x8x8, .f32⟩ : BufTy).Contents (Elt F) → (⟨S8192x96x8x8, .f32⟩ : BufTy).Contents (Elt F)),
    nullary main_cst_4 (constant S_ .f32 0x3F800000#32),
    unary main_cst_4 main_v35 (broadcastInDim S8192x96x8 ![] bcast_S_S8192x96x8 : (⟨S_, .f32⟩ : BufTy).Contents (Elt F) → (⟨S8192x96x8, .f32⟩ : BufTy).Contents (Elt F)),
    binary main_v35 main_v23 main_v36 (Host.divf : (⟨S8192x96x8, .f32⟩ : BufTy).Contents (Elt F) → (⟨S8192x96x8, .f32⟩ : BufTy).Contents (Elt F) → (⟨S8192x96x8, .f32⟩ : BufTy).Contents (Elt F)),
    unary main_v36 main_v37 (broadcastInDim S8192x96x8x1 ![0, 1, 2] bcast_S8192x96x8_S8192x96x8x1_0_1_2 : (⟨S8192x96x8, .f32⟩ : BufTy).Contents (Elt F) → (⟨S8192x96x8x1, .f32⟩ : BufTy).Contents (Elt F)),
    unary main_v29 main_v38 (broadcastInDim S8192x96x8x8 ![2, 3] bcast_S8x8_S8192x96x8x8_2_3 : (⟨S8x8, .f32⟩ : BufTy).Contents (Elt F) → (⟨S8192x96x8x8, .f32⟩ : BufTy).Contents (Elt F)),
    nullary main_c_5 (constantI S_ 32 8#32),
    unary main_c_5 main_v39 (broadcastInDim S28 ![] bcast_S_S28 : (⟨S_, .i32⟩ : BufTy).Contents (Elt F) → (⟨S28, .i32⟩ : BufTy).Contents (Elt F)),
    binary main_c main_v39 main_v40 (addi : (⟨S28, .i32⟩ : BufTy).Contents (Elt F) → (⟨S28, .i32⟩ : BufTy).Contents (Elt F) → (⟨S28, .i32⟩ : BufTy).Contents (Elt F)),
    ternary main_c_0 main_v40 main_c main_v41 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    nullary main_c_6 (constantI S_ 32 8#32),
    unary main_c_6 main_v42 (broadcastInDim S28 ![] bcast_S_S28 : (⟨S_, .i32⟩ : BufTy).Contents (Elt F) → (⟨S28, .i32⟩ : BufTy).Contents (Elt F)),
    binary main_c_1 main_v42 main_v43 (addi : (⟨S28, .i32⟩ : BufTy).Contents (Elt F) → (⟨S28, .i32⟩ : BufTy).Contents (Elt F) → (⟨S28, .i32⟩ : BufTy).Contents (Elt F)),
    ternary main_c_2 main_v43 main_c_1 main_v44 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v41 main_v45 (broadcastInDim S28x1 ![0] bcast_S28_S28x1_0 : (⟨S28, .i32⟩ : BufTy).Contents (Elt F) → (⟨S28x1, .i32⟩ : BufTy).Contents (Elt F)),
    unary main_v44 main_v46 (broadcastInDim S28x1 ![0] bcast_S28_S28x1_0 : (⟨S28, .i32⟩ : BufTy).Contents (Elt F) → (⟨S28x1, .i32⟩ : BufTy).Contents (Elt F)),
    binary main_v45 main_v46 main_v47 ((fun a b => concatenate S28x2 1 [⟨S28x1, a⟩, ⟨S28x1, b⟩] concatenates_S28x1_S28x1_S28x2_d1) : (⟨S28x1, .i32⟩ : BufTy).Contents (Elt F) → (⟨S28x1, .i32⟩ : BufTy).Contents (Elt F) → (⟨S28x2, .i32⟩ : BufTy).Contents (Elt F)),
    ternary main_v38 main_v47 main_v20 main_v48 ((fun x i u => Host.scatter scatter_S8192x96x8x8_S28x2_S8192x96x28_01_23_23_1 (fun _ b => b) x i u) : (⟨S8192x96x8x8, .f32⟩ : BufTy).Contents (Elt F) → (⟨S28x2, .i32⟩ : BufTy).Contents (Elt F) → (⟨S8192x96x28, .f32⟩ : BufTy).Contents (Elt F) → (⟨S8192x96x8x8, .f32⟩ : BufTy).Contents (Elt F)),
    unary main_v37 main_v49 (broadcastInDim S8192x96x8x8 ![0, 1, 2, 3] bcast_S8192x96x8x1_S8192x96x8x8_0_1_2_3 : (⟨S8192x96x8x1, .f32⟩ : BufTy).Contents (Elt F) → (⟨S8192x96x8x8, .f32⟩ : BufTy).Contents (Elt F)),
    binary main_v48 main_v49 main_v50 (mulf : (⟨S8192x96x8x8, .f32⟩ : BufTy).Contents (Elt F) → (⟨S8192x96x8x8, .f32⟩ : BufTy).Contents (Elt F) → (⟨S8192x96x8x8, .f32⟩ : BufTy).Contents (Elt F)),
    binary main_v48 main_v50 main_v51 ((fun l r => Host.dotGeneral dot_S8192x96x8x8_S8192x96x8x8_S8192x96x8x8_2_2_3_3_01_01 none l r) : (⟨S8192x96x8x8, .f32⟩ : BufTy).Contents (Elt F) → (⟨S8192x96x8x8, .f32⟩ : BufTy).Contents (Elt F) → (⟨S8192x96x8x8, .f32⟩ : BufTy).Contents (Elt F)) ]

/-! ## The results' terms, stage by stage -/

/-- A dense layer: `x · W + b`, the bias broadcast along the rows (as a 1×n row first, as the program does). -/
def lin1 (z : FVec F S8192x1024 .f32) (W1 : FVec F S1024x1024 .f32) (b1 : FVec F S1024 .f32) : FVec F S8192x1024 .f32 :=
  addf (Host.dotGeneral dot_S8192x1024_S1024x1024_S8192x1024_1_0_0_1_n_n none z W1)
    (broadcastInDim S8192x1024 ![0, 1] bcast_S1x1024_S8192x1024_0_1 (broadcastInDim S1x1024 ![1] bcast_S1024_S1x1024_1 b1))

/-- `silu a = a · (1 / (1 + exp (-a)))`, elementwise. -/
def siluT (a : FVec F S8192x1024 .f32) : FVec F S8192x1024 .f32 :=
  mulf a (Host.divf (broadcastInDim S8192x1024 ![] bcast_S_S8192x1024 (constant S_ .f32 0x3F800000#32))
    (addf (broadcastInDim S8192x1024 ![] bcast_S_S8192x1024 (constant S_ .f32 0x3F800000#32)) (Host.exp (Host.negf a))))

/-- The hidden layer `h = silu (z · W1 + b1) · W2 + b2`. -/
def hid (z : FVec F S8192x1024 .f32) (W1 : FVec F S1024x1024 .f32) (b1 : FVec F S1024 .f32)
    (W2 : FVec F S1024x1024 .f32) (b2 : FVec F S1024 .f32) : FVec F S8192x1024 .f32 :=
  lin1 (siluT (lin1 z W1 b1)) W2 b2

/-- The means `h · Wm + bm`, each row of 768 read as 96 × 8. -/
def meansT (h : FVec F S8192x1024 .f32) (Wm : FVec F S1024x768 .f32) (bm : FVec F S768 .f32) : FVec F S8192x96x8 .f32 :=
  shapeCast S8192x96x8
    (addf (Host.dotGeneral dot_S8192x1024_S1024x768_S8192x768_1_0_0_1_n_n none h Wm)
      (broadcastInDim S8192x768 ![0, 1] bcast_S1x768_S8192x768_0_1 (broadcastInDim S1x768 ![1] bcast_S768_S1x768_1 bm)))
    shapeCasts_S8192x768_S8192x96x8

/-- The log-variance parameters `h · Wv + bv`, each row of 3456 read as 96 × 36. -/
def logvarT (h : FVec F S8192x1024 .f32) (Wv : FVec F S1024x3456 .f32) (bv : FVec F S3456 .f32) : FVec F S8192x96x36 .f32 :=
  shapeCast S8192x96x36
    (addf (Host.dotGeneral dot_S8192x1024_S1024x3456_S8192x3456_1_0_0_1_n_n none h Wv)
      (broadcastInDim S8192x3456 ![0, 1] bcast_S1x3456_S8192x3456_0_1 (broadcastInDim S1x3456 ![1] bcast_S3456_S1x3456_1 bv)))
    shapeCasts_S8192x3456_S8192x96x36

/-- The diagonal scales `d = exp (0.5 · η)` over the first 8 of each 36 parameters. -/
def dT (lv : FVec F S8192x96x36 .f32) : FVec F S8192x96x8 .f32 :=
  Host.exp (mulf (broadcastInDim S8192x96x8 ![] bcast_S_S8192x96x8 (constant S_ .f32 0x3F000000#32))
    (extractStridedSlice S8192x96x8 ![0, 0, 0] lv slices_S8192x96x36_S8192x96x8_0_0_0))

/-- The 8 × 8 identity: the comparison of the row index (plus zero) with the column index, as a float. -/
def eyeT : FVec F S8x8 .f32 :=
  uitofp .f32 (cmpi .eq (addi (iotaInDim S8x8 32 0) (broadcastInDim S8x8 ![] bcast_S_S8x8 (constantI S_ 32 0#32)))
    (iotaInDim S8x8 32 1))

/-- `D = diag d`: `d` broadcast along a new last axis, times the identity broadcast over the batch axes. -/
def diagT (lv : FVec F S8192x96x36 .f32) : FVec F S8192x96x8x8 .f32 :=
  mulf
    (broadcastInDim S8192x96x8x8 ![0, 1, 2, 3] bcast_S8192x96x8x1_S8192x96x8x8_0_1_2_3
      (broadcastInDim S8192x96x8x1 ![0, 1, 2] bcast_S8192x96x8_S8192x96x8x1_0_1_2 (dT lv)))
    (broadcastInDim S8192x96x8x8 ![0, 1, 2, 3] bcast_S1x1x8x8_S8192x96x8x8_0_1_2_3
      (broadcastInDim S1x1x8x8 ![2, 3] bcast_S8x8_S1x1x8x8_2_3 (eyeT (F := F))))

/-- The 28 × 2 table of the strict upper triangle's (row, column) pairs: each coordinate list, with 8 added where
    negative (nowhere: the mask is all false), as a column, the two columns side by side. -/
def idxT : IVec S28x2 32 :=
  concatenate S28x2 1
    [⟨S28x1, broadcastInDim S28x1 ![0] bcast_S28_S28x1_0
        (select (constantI S28 1 0#1)
          (addi (fun i => lit0 (S28.rowMajor i)) (broadcastInDim S28 ![] bcast_S_S28 (constantI S_ 32 8#32)))
          (fun i => lit0 (S28.rowMajor i)))⟩,
     ⟨S28x1, broadcastInDim S28x1 ![0] bcast_S28_S28x1_0
        (select (constantI S28 1 0#1)
          (addi (fun i => lit1 (S28.rowMajor i)) (broadcastInDim S28 ![] bcast_S_S28 (constantI S_ 32 8#32)))
          (fun i => lit1 (S28.rowMajor i)))⟩]
    concatenates_S28x1_S28x1_S28x2_d1

/-- `T`: the identity broadcast over the batch axes, with the last 28 of each 36 parameters written at the strict
    upper triangle's positions. -/
def triT (lv : FVec F S8192x96x36 .f32) : FVec F S8192x96x8x8 .f32 :=
  Host.scatter scatter_S8192x96x8x8_S28x2_S8192x96x28_01_23_23_1 (fun _ b => b)
    (broadcastInDim S8192x96x8x8 ![2, 3] bcast_S8x8_S8192x96x8x8_2_3 (eyeT (F := F)))
    idxT
    (extractStridedSlice S8192x96x28 ![0, 0, 8] lv slices_S8192x96x36_S8192x96x28_0_0_8)

/-- The precision `Tᵀ · (T · diag (1 / d))`: `T` contracted over its row axis with `T` scaled row by row by `1 / d`. -/
def precT (lv : FVec F S8192x96x36 .f32) : FVec F S8192x96x8x8 .f32 :=
  Host.dotGeneral dot_S8192x96x8x8_S8192x96x8x8_S8192x96x8x8_2_2_3_3_01_01 none (triT lv)
    (mulf (triT lv)
      (broadcastInDim S8192x96x8x8 ![0, 1, 2, 3] bcast_S8192x96x8x1_S8192x96x8x8_0_1_2_3
        (broadcastInDim S8192x96x8x1 ![0, 1, 2] bcast_S8192x96x8_S8192x96x8x1_0_1_2
          (Host.divf (broadcastInDim S8192x96x8 ![] bcast_S_S8192x96x8 (constant S_ .f32 0x3F800000#32)) (dT lv)))))

set_option maxRecDepth 8192 in
set_option maxHeartbeats 4000000 in
/-- @main is that straight line: its two windows and the callee's body unfolded, one chain of `hlo` steps. -/
theorem main_eq (c : Dev nD) : main (F := F) c = seq ops := rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation of the line reads and writes TensorCore buffers of the device only. -/
theorem ops_sub : (ops : List (HloOp τ sig (Elt F))).Forall fun op => op.bufs ⊆ tcRefs τ sig :=
  ⟨
    nullary_bufs_sub .., nullary_bufs_sub .., nullary_bufs_sub .., nullary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., reshape_bufs_sub .., binary_bufs_sub .., unary_bufs_sub .., unary_bufs_sub .., binary_bufs_sub ..,
    reshape_bufs_sub .., unary_bufs_sub .., unary_bufs_sub .., nullary_bufs_sub .., unary_bufs_sub .., binary_bufs_sub ..,
    unary_bufs_sub .., nullary_bufs_sub .., nullary_bufs_sub .., nullary_bufs_sub .., unary_bufs_sub .., binary_bufs_sub ..,
    binary_bufs_sub .., unary_bufs_sub .., unary_bufs_sub .., unary_bufs_sub .., unary_bufs_sub .., unary_bufs_sub ..,
    binary_bufs_sub .., nullary_bufs_sub .., unary_bufs_sub .., binary_bufs_sub .., unary_bufs_sub .., unary_bufs_sub ..,
    nullary_bufs_sub .., unary_bufs_sub .., binary_bufs_sub .., ternary_bufs_sub .., nullary_bufs_sub .., unary_bufs_sub ..,
    binary_bufs_sub .., ternary_bufs_sub .., unary_bufs_sub .., unary_bufs_sub .., binary_bufs_sub .., ternary_bufs_sub ..,
    unary_bufs_sub .., binary_bufs_sub .., binary_bufs_sub ..⟩

/-! ## What each result buffer, and each argument, holds after the line

The fold unrolled, each operation's result read at its own buffer as its function's value and at any other as
what was there; what is left is the stage term by unfolding. -/

set_option maxRecDepth 8192 in
set_option maxHeartbeats 4000000 in
/-- After the line the mean buffer holds the mean stage of the hidden stage of the arguments' contents. -/
theorem after_v13 (V : Valuation τ sig (Elt F)) :
    after ops V (main_v13 : DevRef τ sig) = meansT (hid (V (main_arg0 : DevRef τ sig)) (V (main_arg1 : DevRef τ sig)) (V (main_arg2 : DevRef τ sig)) (V (main_arg3 : DevRef τ sig)) (V (main_arg4 : DevRef τ sig))) (V (main_arg5 : DevRef τ sig)) (V (main_arg6 : DevRef τ sig)) := by
  after_results_simp <;> rfl

set_option maxRecDepth 8192 in
set_option maxHeartbeats 4000000 in
/-- After the line the precision buffer holds the precision stage of the log-variance stage of the hidden stage of the
    arguments' contents. -/
theorem after_v51 (V : Valuation τ sig (Elt F)) :
    after ops V (main_v51 : DevRef τ sig) = precT (logvarT (hid (V (main_arg0 : DevRef τ sig)) (V (main_arg1 : DevRef τ sig)) (V (main_arg2 : DevRef τ sig)) (V (main_arg3 : DevRef τ sig)) (V (main_arg4 : DevRef τ sig))) (V (main_arg7 : DevRef τ sig)) (V (main_arg8 : DevRef τ sig))) := by
  after_results_simp <;> rfl

set_option maxRecDepth 8192 in
set_option maxHeartbeats 4000000 in
/-- After the line the buffer of D holds the diagonal stage of the same log-variance stage. -/
theorem after_v34 (V : Valuation τ sig (Elt F)) :
    after ops V (main_v34 : DevRef τ sig) = diagT (logvarT (hid (V (main_arg0 : DevRef τ sig)) (V (main_arg1 : DevRef τ sig)) (V (main_arg2 : DevRef τ sig)) (V (main_arg3 : DevRef τ sig)) (V (main_arg4 : DevRef τ sig))) (V (main_arg7 : DevRef τ sig)) (V (main_arg8 : DevRef τ sig))) := by
  after_results_simp <;> rfl

set_option maxRecDepth 8192 in
set_option maxHeartbeats 4000000 in
/-- After the line the buffer of T holds the triangular stage of the same log-variance stage. -/
theorem after_v48 (V : Valuation τ sig (Elt F)) :
    after ops V (main_v48 : DevRef τ sig) = triT (logvarT (hid (V (main_arg0 : DevRef τ sig)) (V (main_arg1 : DevRef τ sig)) (V (main_arg2 : DevRef τ sig)) (V (main_arg3 : DevRef τ sig)) (V (main_arg4 : DevRef τ sig))) (V (main_arg7 : DevRef τ sig)) (V (main_arg8 : DevRef τ sig))) := by
  after_results_simp <;> rfl

set_option maxRecDepth 8192 in
set_option maxHeartbeats 4000000 in
/-- No operation writes argument 0: after the line its buffer holds what it held. -/
theorem after_arg0 (V : Valuation τ sig (Elt F)) :
    after ops V (main_arg0 : DevRef τ sig) = V (main_arg0 : DevRef τ sig) := by
  after_results_simp <;> rfl

set_option maxRecDepth 8192 in
set_option maxHeartbeats 4000000 in
/-- No operation writes argument 1: after the line its buffer holds what it held. -/
theorem after_arg1 (V : Valuation τ sig (Elt F)) :
    after ops V (main_arg1 : DevRef τ sig) = V (main_arg1 : DevRef τ sig) := by
  after_results_simp <;> rfl

set_option maxRecDepth 8192 in
set_option maxHeartbeats 4000000 in
/-- No operation writes argument 2: after the line its buffer holds what it held. -/
theorem after_arg2 (V : Valuation τ sig (Elt F)) :
    after ops V (main_arg2 : DevRef τ sig) = V (main_arg2 : DevRef τ sig) := by
  after_results_simp <;> rfl

set_option maxRecDepth 8192 in
set_option maxHeartbeats 4000000 in
/-- No operation writes argument 3: after the line its buffer holds what it held. -/
theorem after_arg3 (V : Valuation τ sig (Elt F)) :
    after ops V (main_arg3 : DevRef τ sig) = V (main_arg3 : DevRef τ sig) := by
  after_results_simp <;> rfl

set_option maxRecDepth 8192 in
set_option maxHeartbeats 4000000 in
/-- No operation writes argument 4: after the line its buffer holds what it held. -/
theorem after_arg4 (V : Valuation τ sig (Elt F)) :
    after ops V (main_arg4 : DevRef τ sig) = V (main_arg4 : DevRef τ sig) := by
  after_results_simp <;> rfl

set_option maxRecDepth 8192 in
set_option maxHeartbeats 4000000 in
/-- No operation writes argument 5: after the line its buffer holds what it held. -/
theorem after_arg5 (V : Valuation τ sig (Elt F)) :
    after ops V (main_arg5 : DevRef τ sig) = V (main_arg5 : DevRef τ sig) := by
  after_results_simp <;> rfl

set_option maxRecDepth 8192 in
set_option maxHeartbeats 4000000 in
/-- No operation writes argument 6: after the line its buffer holds what it held. -/
theorem after_arg6 (V : Valuation τ sig (Elt F)) :
    after ops V (main_arg6 : DevRef τ sig) = V (main_arg6 : DevRef τ sig) := by
  after_results_simp <;> rfl

set_option maxRecDepth 8192 in
set_option maxHeartbeats 4000000 in
/-- No operation writes argument 7: after the line its buffer holds what it held. -/
theorem after_arg7 (V : Valuation τ sig (Elt F)) :
    after ops V (main_arg7 : DevRef τ sig) = V (main_arg7 : DevRef τ sig) := by
  after_results_simp <;> rfl

set_option maxRecDepth 8192 in
set_option maxHeartbeats 4000000 in
/-- No operation writes argument 8: after the line its buffer holds what it held. -/
theorem after_arg8 (V : Valuation τ sig (Elt F)) :
    after ops V (main_arg8 : DevRef τ sig) = V (main_arg8 : DevRef τ sig) := by
  after_results_simp <;> rfl

/-- On every device, for any float values, from any memory with zero counters: every weakly fair execution of
    @main terminates with each result at its stage term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = meansT (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_v51) = precT (logvarT (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)))
      ∧ r.2.mem ((c.tc : Thread nD τ).loc main_v34) = diagT (logvarT (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)))
      ∧ r.2.mem ((c.tc : Thread nD τ).loc main_v48) = triT (logvarT (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v13).trans (after_v13 (launchContents m c)),
      (h c main_v51).trans (after_v51 (launchContents m c)),
      (h c main_v34).trans (after_v34 (launchContents m c)),
      (h c main_v48).trans (after_v48 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c))⟩)
    (run_seq scopedRefs_eq scopedSems_eq defs main (fun _ => ops) main_eq (fun _ => ops_sub) m ρ)

end Cert.ReferenceIdeal.RefRun

end
-- ==== Proof.RefStages.lean ====
/-
  The reference's dense stages read one entry at a time, at the exact (extended-real) values.

  Each dense layer of the reference is the host's product of the whole 8192-row array with a weight matrix plus the
  bias spread over the rows (as a 1×n row first), so entry (b, q) depends on row b only: it is the layer applied to
  that row, at q.  The sigmoid-weighted unit is spelt a · (1 / (1 + exp (-a))) entry by entry.  The mean and
  log-variance arrays are one more layer each, their rows of 768 and 3456 recast as 96 groups of 8 and of 36.
-/
import proofs.«165734_j10067403341934_2_alg».proof.Proof.RefRun
import proofs.«165734_j10067403341934_2_alg».proof.Proof.Spec
import Idealize.ShloMosaic.Lib.ValueLayout
import Idealize.ShloMosaic.Lib.Pipeline.Value

noncomputable section

namespace Cert.RefStages

open Idealize.ShloMosaic Idealize.ShloMosaic.ValueIdx Cert.RowDot
open Cert.ReferenceIdeal Cert.ReferenceIdeal.Gen Cert.ReferenceIdeal.RefRun

/-- A bias of length N spread over M rows (as a 1×N row first), at entry (p, q): the bias at q. -/
theorem bias_apply {α : Type} {M N : Nat} (bv : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 bv) (ix2 p q) = bv (ix1 q) := by
  refine (broadcastInDim_apply _ h2 _ (ix2 p q) (ix2 0 q) fun a => ?_).trans ?_
  · match a with
    | ⟨0, _⟩ => exact (if_pos rfl).symm
    | ⟨1, _⟩ =>
      show q.val = if N = 1 then 0 else q.val
      split_ifs with hN
      · have := q.isLt; omega
      · rfl
  refine broadcastInDim_apply _ h1 bv (ix2 0 q) (ix1 q) fun a => ?_
  match a with
  | ⟨0, _⟩ =>
    show q.val = if N = 1 then 0 else q.val
    split_ifs with hN
    · have := q.isLt; omega
    · rfl

/-- One layer on an array of M rows, at entry (p, q): the layer applied to row p. -/
theorem denseT_apply {M K N : Nat} (x : FVec Ideal (⟨2, ![M, K]⟩ : Shape) .f32) (W : FVec Ideal (⟨2, ![K, N]⟩ : Shape) .f32)
    (bv : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) none x W)
        (broadcastInDim ⟨2, ![M, N]⟩ ![0, 1] h2 (broadcastInDim ⟨2, ![1, N]⟩ ![1] h1 bv)) (ix2 p q)
      = Spec.dense W bv (fun k => x (ix2 p k)) q := by
  show FloatOps.dotGeneral (DotDims.plain M K N) none .single x W (ix2 p q)
      + broadcastInDim ⟨2, ![M, N]⟩ ![0, 1] h2 (broadcastInDim ⟨2, ![1, N]⟩ ![1] h1 bv) (ix2 p q) = _
  rw [dotGeneral_plain_apply, bias_apply]
  rfl

/-- The first-layer stage at (b, q): the layer applied to row b of z. -/
theorem lin1_apply (z : FVec Ideal S8192x1024 .f32) (W1 : FVec Ideal S1024x1024 .f32) (b1 : FVec Ideal S1024 .f32)
    (b : Fin 8192) (q : Fin 1024) :
    lin1 z W1 b1 (ix2 b q) = Spec.dense W1 b1 (fun k => z (ix2 b k)) q := by
  unfold lin1
  exact denseT_apply z W1 b1 _ _ b q

/-- The sigmoid-weighted unit acts entry by entry. -/
theorem siluT_apply (a : FVec Ideal S8192x1024 .f32) (b : Fin 8192) (q : Fin 1024) :
    siluT a (ix2 b q) = Spec.silu (a (ix2 b q)) := by
  show a (ix2 b q) * Ideal.div (Ideal.ofBits .f32 0x3F800000#32)
      (Ideal.ofBits .f32 0x3F800000#32 + Ideal.exp (-(a (ix2 b q)))) = _
  rw [Spec.oneW_eq]
  rfl

/-- The hidden stage at (b, q): the hidden row of row b of z, at q. -/
theorem hid_apply (z : FVec Ideal S8192x1024 .f32) (W1 : FVec Ideal S1024x1024 .f32) (b1 : FVec Ideal S1024 .f32)
    (W2 : FVec Ideal S1024x1024 .f32) (b2 : FVec Ideal S1024 .f32) (b : Fin 8192) (q : Fin 1024) :
    hid z W1 b1 W2 b2 (ix2 b q) = Spec.hiddenRow W1 b1 W2 b2 (fun k => z (ix2 b k)) q := by
  unfold hid
  refine (lin1_apply _ W2 b2 b q).trans ?_
  unfold Spec.hiddenRow
  refine congrArg (fun row => Spec.dense W2 b2 row q) (funext fun k => ?_)
  exact (siluT_apply _ b k).trans (congrArg Spec.silu (lin1_apply z W1 b1 b k))

/-- The mean stage at (b, f, o): entry f·8 + o of the mean layer on row b of h. -/
theorem meansT_apply (h : FVec Ideal S8192x1024 .f32) (Wm : FVec Ideal S1024x768 .f32) (bm : FVec Ideal S768 .f32)
    (b : Fin 8192) (f : Fin 96) (o : Fin 8) :
    meansT h Wm bm (ix3 b f o) = Spec.dense Wm bm (fun k => h (ix2 b k)) (Spec.gpos 8 f o) := by
  unfold meansT
  refine (shapeCast_apply _ _ (ix3 b f o) (ix2 b (Spec.gpos 8 f o)) ?_).trans ?_
  · rw [Shape.rowMajor_val_two, Shape.rowMajor_val_three]
    show b.val * 768 + (f.val * 8 + o.val) = (b.val * 96 + f.val) * 8 + o.val
    ring
  exact denseT_apply h Wm bm _ _ b (Spec.gpos 8 f o)

/-- The log-variance stage at (b, f, e): entry f·36 + e of the log-variance layer on row b of h. -/
theorem logvarT_apply (h : FVec Ideal S8192x1024 .f32) (Wv : FVec Ideal S1024x3456 .f32) (bv : FVec Ideal S3456 .f32)
    (b : Fin 8192) (f : Fin 96) (e : Fin 36) :
    logvarT h Wv bv (ix3 b f e) = Spec.dense Wv bv (fun k => h (ix2 b k)) (Spec.gpos 36 f e) := by
  unfold logvarT
  refine (shapeCast_apply _ _ (ix3 b f e) (ix2 b (Spec.gpos 36 f e)) ?_).trans ?_
  · rw [Shape.rowMajor_val_two, Shape.rowMajor_val_three]
    show b.val * 3456 + (f.val * 36 + e.val) = (b.val * 96 + f.val) * 36 + e.val
    ring
  exact denseT_apply h Wv bv _ _ b (Spec.gpos 36 f e)

/-- The mean stage over the hidden stage at (b, f, o): the mean layer on the hidden row of row b of z. -/
theorem meansT_hid_apply (z : FVec Ideal S8192x1024 .f32) (W1 : FVec Ideal S1024x1024 .f32) (b1 : FVec Ideal S1024 .f32)
    (W2 : FVec Ideal S1024x1024 .f32) (b2 : FVec Ideal S1024 .f32) (Wm : FVec Ideal S1024x768 .f32) (bm : FVec Ideal S768 .f32)
    (b : Fin 8192) (f : Fin 96) (o : Fin 8) :
    meansT (hid z W1 b1 W2 b2) Wm bm (ix3 b f o)
      = Spec.dense Wm bm (Spec.hiddenRow W1 b1 W2 b2 fun k => z (ix2 b k)) (Spec.gpos 8 f o) :=
  (meansT_apply _ Wm bm b f o).trans
    (congrArg (fun row => Spec.dense Wm bm row (Spec.gpos 8 f o)) (funext fun k => hid_apply z W1 b1 W2 b2 b k))

/-- The log-variance stage over the hidden stage at (b, f, e): the log-variance layer on the hidden row of row b of z. -/
theorem logvarT_hid_apply (z : FVec Ideal S8192x1024 .f32) (W1 : FVec Ideal S1024x1024 .f32) (b1 : FVec Ideal S1024 .f32)
    (W2 : FVec Ideal S1024x1024 .f32) (b2 : FVec Ideal S1024 .f32) (Wv : FVec Ideal S1024x3456 .f32) (bv : FVec Ideal S3456 .f32)
    (b : Fin 8192) (f : Fin 96) (e : Fin 36) :
    logvarT (hid z W1 b1 W2 b2) Wv bv (ix3 b f e)
      = Spec.dense Wv bv (Spec.hiddenRow W1 b1 W2 b2 fun k => z (ix2 b k)) (Spec.gpos 36 f e) :=
  (logvarT_apply _ Wv bv b f e).trans
    (congrArg (fun row => Spec.dense Wv bv row (Spec.gpos 36 f e)) (funext fun k => hid_apply z W1 b1 W2 b2 b k))

end Cert.RefStages

end
-- ==== Proof.LibScatterSet.lean ====
/-
  Reading a "set" scatter at one index.

  `Host.scatter d (fun _ b => b) x idx upd` is a left fold over all update positions in row-major
  order; each step overwrites the element at the position's result index (when it has one) by the
  update's element. Two facts about the value it leaves at a given result index `i`:
  it is the update's element at `k` when `k` is the ONLY update position landing at `i`,
  and it is the operand's element when no update position lands at `i`.
-/
import Idealize.ShloMosaic.PureOps.ShapeOps

namespace Cert.ScatterSet

open Idealize.ShloMosaic

variable {s si u : Shape} {α : Type} {w : Nat}

/-- One step of the fold behind `Host.scatter` with the body that returns the update: at update
    position `n` (in row-major numbering) the element at that position's result index, if it has
    one, is replaced by the update's element; every other element is kept. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ b : α) => b) (r i) (upd (u.rowMajor.symm n)) else r i'
  | none => r

/-- `Host.scatter` with the body that returns the update is the left fold of `step` over all
    update positions. -/
theorem scatter_eq_foldl (d : ScatterDims s si u) (x : s.Idx → α) (idx : IVec si w) (upd : u.Idx → α) :
    Host.scatter d (fun _ b => b) x idx upd = (List.finRange u.numel).foldl (step d idx upd) x := rfl

/-- A step at a position whose result index is not `i` leaves the element at `i` unchanged. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    have hne : i ≠ i0 := fun e => h (by rw [e])
    simp [hne]

/-- A step at a position whose result index is `i` leaves the update's element at `i`. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  simp

/-- When no update position lands at `i`, folding the steps over any list of positions leaves the
    element at `i` as it was. -/
theorem foldl_miss (d : ScatterDims s si u) (idx : IVec si w) (upd : u.Idx → α) (i : s.Idx)
    (hno : ∀ k, d.resultIdx? k idx ≠ some i) (l : List (Fin u.numel)) (r : s.Idx → α) :
    l.foldl (step d idx upd) r i = r i := by
  induction l generalizing r with
  | nil => rfl
  | cons n l ih =>
    rw [List.foldl_cons, ih, step_of_ne d idx upd r n i (hno _)]

/-- When `k` is the only update position landing at `i`, folding the steps over a list of
    positions leaves at `i` the update's element at `k` if `k`'s row-major number is in the list,
    and the starting element otherwise. -/
theorem foldl_hit (d : ScatterDims s si u) (idx : IVec si w) (upd : u.Idx → α) (i : s.Idx) (k : u.Idx)
    (hk : d.resultIdx? k idx = some i) (huniq : ∀ k', d.resultIdx? k' idx = some i → k' = k)
    (l : List (Fin u.numel)) (r : s.Idx → α) :
    l.foldl (step d idx upd) r i = if u.rowMajor k ∈ l then upd k else r i := by
  induction l generalizing r with
  | nil => simp
  | cons n l ih =>
    rw [List.foldl_cons, ih]
    by_cases hn : n = u.rowMajor k
    · have hs : u.rowMajor.symm n = k := by rw [hn]; exact Equiv.symm_apply_apply _ _
      have h1 : step d idx upd r n i = upd k := by
        rw [step_of_eq d idx upd r n i (by rw [hs]; exact hk), hs]
      rw [h1]
      have hmem : u.rowMajor k ∈ n :: l := by rw [hn]; exact List.mem_cons_self ..
      rw [if_pos hmem]
      split <;> rfl
    · have hne : d.resultIdx? (u.rowMajor.symm n) idx ≠ some i := by
        intro e
        apply hn
        have := huniq _ e
        rw [← this]; exact (Equiv.apply_symm_apply _ _).symm
      rw [step_of_ne d idx upd r n i hne]
      have hiff : u.rowMajor k ∈ n :: l ↔ u.rowMajor k ∈ l := by
        rw [List.mem_cons]
        constructor
        · rintro (e | e)
          · exact absurd e.symm hn
          · exact e
        · exact Or.inr
      by_cases hm : u.rowMajor k ∈ l
      · rw [if_pos hm, if_pos (hiff.2 hm)]
      · rw [if_neg hm, if_neg (fun e => hm (hiff.1 e))]

/-- A "set" scatter read at a result index `i` that exactly one update position `k` lands at:
    the value is the update's element at `k`. -/
theorem scatter_set_hit (d : ScatterDims s si u) (x : s.Idx → α) (idx : IVec si w) (upd : u.Idx → α)
    (i : s.Idx) (k : u.Idx) (hk : d.resultIdx? k idx = some i)
    (huniq : ∀ k', d.resultIdx? k' idx = some i → k' = k) :
    Host.scatter d (fun _ b => b) x idx upd i = upd k := by
  rw [scatter_eq_foldl, foldl_hit d idx upd i k hk huniq, if_pos (List.mem_finRange _)]

/-- A "set" scatter read at a result index `i` that no update position lands at: the value is the
    operand's element at `i`. -/
theorem scatter_set_miss (d : ScatterDims s si u) (x : s.Idx → α) (idx : IVec si w) (upd : u.Idx → α)
    (i : s.Idx) (hno : ∀ k, d.resultIdx? k idx ≠ some i) :
    Host.scatter d (fun _ b => b) x idx upd i = x i := by
  rw [scatter_eq_foldl, foldl_miss d idx upd i hno]

end Cert.ScatterSet
-- ==== Proof.RefTri.lean ====
/-
  The strictly upper triangular "set" scatter of the reference, read at one index.

  The reference writes, for every pair (b, f), the 28 update elements (b, f, k) into an 8×8 operand
  at the positions (rows k, cols k) = the k-th pair of the strict upper triangle of an 8×8 matrix in
  row-major order: (0,1), (0,2), …, (0,7), (1,2), …, (6,7). Every pair (i, j) with i < j is the
  position of exactly one k, namely k = off(i) + (j − i − 1) with off = 0, 7, 13, 18, 22, 25, 27;
  no pair with i ≥ j is written. So the result at (b, f, i, j) is the update at (b, f, k) when
  i < j, and the operand's own element otherwise.
-/
import proofs.«165734_j10067403341934_2_alg».proof.ReferenceIdeal
import Idealize.ShloMosaic.Lib.ValueIdx
import Idealize.ShloMosaic.Lib.Pipeline.Value
import proofs.«165734_j10067403341934_2_alg».proof.Proof.LibScatterSet

namespace Cert.RefTri

open Idealize.ShloMosaic Idealize.ShloMosaic.ValueIdx
open Cert.ReferenceIdeal

/-! ## The dimension numbers, as a closed record -/

/-- The scatter's dimension numbers: update axes 0 and 1 are window axes going to operand axes 0 and
    1; operand axes 2 and 3 are inserted and are the ones the two components of an index vector
    name; the index vector lies along axis 1 of the 28×2 index array. -/
def dT : ScatterDims S8192x96x8x8 S28x2 S8192x96x28 where
  updateWindowDims := [0, 1]
  insertedWindowDims := [2, 3]
  scatterDimsToOperandDims := [2, 3]
  indexVectorDim := 1

/-- The program's record is this one. -/
theorem dT_eq [Cert.ReferenceIdeal.Facts₀] : scatter_S8192x96x8x8_S28x2_S8192x96x28_01_23_23_1 = dT := rfl

/-! ## Window coordinate and window start of update (b, f, k), axis by axis -/

/-- On operand axis 0 the window coordinate is b. -/
theorem window_0 (b : Fin 8192) (f : Fin 96) (k : Fin 28) : dT.window (ix3 b f k) (0 : Fin 4) = b.val := by
  unfold ScatterDims.window
  rw [dif_pos (by decide)]
  rfl

/-- On operand axis 1 the window coordinate is f. -/
theorem window_1 (b : Fin 8192) (f : Fin 96) (k : Fin 28) : dT.window (ix3 b f k) (1 : Fin 4) = f.val := by
  unfold ScatterDims.window
  rw [dif_pos (by decide)]
  rfl

/-- Operand axis 2 is inserted: window coordinate 0. -/
theorem window_2 (b : Fin 8192) (f : Fin 96) (k : Fin 28) : dT.window (ix3 b f k) (2 : Fin 4) = 0 := by
  unfold ScatterDims.window
  rw [dif_neg (by decide)]

/-- Operand axis 3 is inserted: window coordinate 0. -/
theorem window_3 (b : Fin 8192) (f : Fin 96) (k : Fin 28) : dT.window (ix3 b f k) (3 : Fin 4) = 0 := by
  unfold ScatterDims.window
  rw [dif_neg (by decide)]

/-- Update (b, f, k) reads component 0 of its index vector at (k, 0). -/
theorem siIdx_0 (b : Fin 8192) (f : Fin 96) (k : Fin 28) :
    dT.siIdx (ix3 b f k) ⟨0, by decide⟩ = ix2 k (0 : Fin 2) := by
  funext a
  match a with
  | ⟨0, _⟩ => rfl
  | ⟨1, _⟩ => rfl

/-- Update (b, f, k) reads component 1 of its index vector at (k, 1). -/
theorem siIdx_1 (b : Fin 8192) (f : Fin 96) (k : Fin 28) :
    dT.siIdx (ix3 b f k) ⟨1, by decide⟩ = ix2 k (1 : Fin 2) := by
  funext a
  match a with
  | ⟨0, _⟩ => rfl
  | ⟨1, _⟩ => rfl

/-- Operand axis 0 is named by no index component: start 0. -/
theorem start_0 (idx : IVec S28x2 32) (b : Fin 8192) (f : Fin 96) (k : Fin 28) :
    dT.start (ix3 b f k) idx (0 : Fin 4) = 0 := by
  unfold ScatterDims.start
  rw [dif_neg (by decide)]

/-- Operand axis 1 is named by no index component: start 0. -/
theorem start_1 (idx : IVec S28x2 32) (b : Fin 8192) (f : Fin 96) (k : Fin 28) :
    dT.start (ix3 b f k) idx (1 : Fin 4) = 0 := by
  unfold ScatterDims.start
  rw [dif_neg (by decide)]

/-- On operand axis 2 the start is index element (k, 0), read signed. -/
theorem start_2 (idx : IVec S28x2 32) (b : Fin 8192) (f : Fin 96) (k : Fin 28) :
    dT.start (ix3 b f k) idx (2 : Fin 4) = (idx (ix2 k (0 : Fin 2))).toInt := by
  unfold ScatterDims.start
  rw [dif_pos (by decide)]
  rw [← siIdx_0 b f k]
  rfl

/-- On operand axis 3 the start is index element (k, 1), read signed. -/
theorem start_3 (idx : IVec S28x2 32) (b : Fin 8192) (f : Fin 96) (k : Fin 28) :
    dT.start (ix3 b f k) idx (3 : Fin 4) = (idx (ix2 k (1 : Fin 2))).toInt := by
  unfold ScatterDims.start
  rw [dif_pos (by decide)]
  rw [← siIdx_1 b f k]
  rfl

/-! ## The two literal tables: the strict upper triangle of an 8×8 matrix in row-major order -/

/-- Where row i of the strict upper triangle begins in the row-major list of its 28 pairs (the last entry, 28, is the
    length of the list). -/
def triOff : Fin 8 → Nat := ![0, 7, 13, 18, 22, 25, 27, 28]

/-- The position computed for a pair i < j is below 28. -/
theorem triOff_bound : ∀ i j : Fin 8, i.val < j.val → triOff i + (j.val - i.val - 1) < 28 := by decide

/-- The position of the pair (i, j), i < j, in the row-major list of the strict upper triangle's pairs. -/
def triPos (i j : Fin 8) (h : i.val < j.val) : Fin 28 := ⟨triOff i + (j.val - i.val - 1), triOff_bound i j h⟩

/-- Every listed pair (row, column) lies inside the 8×8 matrix, strictly above the diagonal. -/
theorem lit_bounds : ∀ k : Fin 28, (lit0 k).toNat < 8 ∧ (lit1 k).toNat < 8 ∧ (lit0 k).toNat < (lit1 k).toNat := by decide

/-- The listed rows and columns, read as signed words, are the same small naturals. -/
theorem lit_toInt : ∀ k : Fin 28, (lit0 k).toInt = ((lit0 k).toNat : Int) ∧ (lit1 k).toInt = ((lit1 k).toNat : Int) := by decide

/-- The pair listed at the position of (i, j) is (i, j). -/
theorem lit_triPos : ∀ (i j : Fin 8) (h : i.val < j.val),
    (lit0 (triPos i j h)).toNat = i.val ∧ (lit1 (triPos i j h)).toNat = j.val := by decide

/-- No pair is listed twice. -/
theorem lit_inj : ∀ k k' : Fin 28, (lit0 k).toNat = (lit0 k').toNat → (lit1 k).toNat = (lit1 k').toNat → k = k' := by decide

/-! ## Where update (b, f, k) lands -/

/-- With the index array holding the two tables in its two columns, update (b, f, k) lands at (b, f, r, c), where
    (r, c) is the k-th listed pair. -/
theorem resultIdx_eq (idx : IVec S28x2 32)
    (hrow : ∀ k : Fin 28, idx (ix2 k (0 : Fin 2)) = lit0 k) (hcol : ∀ k : Fin 28, idx (ix2 k (1 : Fin 2)) = lit1 k)
    (b : Fin 8192) (f : Fin 96) (k : Fin 28) (r c : Fin 8)
    (hr : (lit0 k).toNat = r.val) (hc : (lit1 k).toNat = c.val) :
    dT.resultIdx? (ix3 b f k) idx = some (ix4 b f r c) := by
  have h0 : dT.start (ix3 b f k) idx (0 : Fin 4) + (dT.window (ix3 b f k) (0 : Fin 4) : Int) = (b.val : Int) := by
    rw [start_0, window_0]; simp
  have h1 : dT.start (ix3 b f k) idx (1 : Fin 4) + (dT.window (ix3 b f k) (1 : Fin 4) : Int) = (f.val : Int) := by
    rw [start_1, window_1]; simp
  have h2 : dT.start (ix3 b f k) idx (2 : Fin 4) + (dT.window (ix3 b f k) (2 : Fin 4) : Int) = (r.val : Int) := by
    rw [start_2, window_2, hrow, (lit_toInt k).1, hr]; simp
  have h3 : dT.start (ix3 b f k) idx (3 : Fin 4) + (dT.window (ix3 b f k) (3 : Fin 4) : Int) = (c.val : Int) := by
    rw [start_3, window_3, hcol, (lit_toInt k).2, hc]; simp
  have hsum : ∀ a : Fin 4, dT.start (ix3 b f k) idx a + (dT.window (ix3 b f k) a : Int) = ((ix4 b f r c a).val : Int) := by
    intro a
    match a with
    | ⟨0, _⟩ => exact h0
    | ⟨1, _⟩ => exact h1
    | ⟨2, _⟩ => exact h2
    | ⟨3, _⟩ => exact h3
  have hcond : ∀ a, 0 ≤ dT.start (ix3 b f k) idx a + (dT.window (ix3 b f k) a : Int) ∧
      dT.start (ix3 b f k) idx a + (dT.window (ix3 b f k) a : Int) < S8192x96x8x8.size a := by
    intro a
    rw [hsum a]
    exact ⟨Int.natCast_nonneg _, Int.ofNat_lt.2 (ix4 b f r c a).isLt⟩
  unfold ScatterDims.resultIdx?
  rw [dif_pos hcond]
  congr 1
  funext a
  apply Fin.ext
  show (dT.start (ix3 b f k) idx a + (dT.window (ix3 b f k) a : Int)).toNat = (ix4 b f r c a).val
  rw [hsum a]
  exact Int.toNat_natCast _

/-! ## The scatter read at (b, f, i, j) -/

/-- The reference's triangular "set" scatter at (b, f, i, j): the update at (b, f, position of (i, j)) above the
    diagonal, the operand's element on and below it. -/
theorem tri_apply [Cert.ReferenceIdeal.Facts₀] {α : Type} (x : S8192x96x8x8.Idx → α) (idx : IVec S28x2 32)
    (hrow : ∀ k : Fin 28, idx (ix2 k (0 : Fin 2)) = lit0 k) (hcol : ∀ k : Fin 28, idx (ix2 k (1 : Fin 2)) = lit1 k)
    (upd : S8192x96x28.Idx → α) (b : Fin 8192) (f : Fin 96) (i j : Fin 8) :
    Host.scatter scatter_S8192x96x8x8_S28x2_S8192x96x28_01_23_23_1 (fun _ b => b) x idx upd (ix4 b f i j)
      = if h : i.val < j.val then upd (ix3 b f (triPos i j h)) else x (ix4 b f i j) := by
  rw [dT_eq]
  by_cases h : i.val < j.val
  · rw [dif_pos h]
    apply Cert.ScatterSet.scatter_set_hit
    · exact resultIdx_eq idx hrow hcol b f _ i j (lit_triPos i j h).1 (lit_triPos i j h).2
    · intro k' hk'
      obtain ⟨b', f', k'', rfl⟩ : ∃ b' f' k'', k' = ix3 b' f' k'' := ⟨_, _, _, eq_ix3 k'⟩
      have hb := lit_bounds k''
      rw [resultIdx_eq idx hrow hcol b' f' k'' ⟨_, hb.1⟩ ⟨_, hb.2.1⟩ rfl rfl] at hk'
      have he := Option.some.inj hk'
      have e0 : b' = b := congrFun he 0
      have e1 : f' = f := congrFun he 1
      have e2 : (⟨(lit0 k'').toNat, hb.1⟩ : Fin 8) = i := congrFun he 2
      have e3 : (⟨(lit1 k'').toNat, hb.2.1⟩ : Fin 8) = j := congrFun he 3
      have ek : k'' = triPos i j h :=
        lit_inj _ _ (by rw [(lit_triPos i j h).1]; exact congrArg Fin.val e2)
          (by rw [(lit_triPos i j h).2]; exact congrArg Fin.val e3)
      rw [e0, e1, ek]
  · rw [dif_neg h]
    apply Cert.ScatterSet.scatter_set_miss
    intro k' hk'
    obtain ⟨b', f', k'', rfl⟩ : ∃ b' f' k'', k' = ix3 b' f' k'' := ⟨_, _, _, eq_ix3 k'⟩
    have hb := lit_bounds k''
    rw [resultIdx_eq idx hrow hcol b' f' k'' ⟨_, hb.1⟩ ⟨_, hb.2.1⟩ rfl rfl] at hk'
    have he := Option.some.inj hk'
    have e2 : (⟨(lit0 k'').toNat, hb.1⟩ : Fin 8) = i := congrFun he 2
    have e3 : (⟨(lit1 k'').toNat, hb.2.1⟩ : Fin 8) = j := congrFun he 3
    have e2' : (lit0 k'').toNat = i.val := congrArg Fin.val e2
    have e3' : (lit1 k'').toNat = j.val := congrArg Fin.val e3
    have := hb.2.2
    omega

/-! ## The index array the program builds holds the two tables in its two columns -/

section IndexOperand
variable [Cert.ReferenceIdeal.Facts₀]
open Cert.ReferenceIdeal.Facts₀

/-- One column of the index array: a table of 28 words, each replaced by itself plus 8 where a constant-false mask
    holds (nowhere), laid out as a 28×1 array. Read at (k, 0) it is the table's k-th word. -/
theorem col_apply (lit : Fin 28 → BitVec 32) (k : Fin 28) (z : Fin 1) :
    broadcastInDim S28x1 ![0] bcast_S28_S28x1_0
      (select (constantI S28 1 0#1)
        (addi (fun i => lit (S28.rowMajor i)) (broadcastInDim S28 ![] bcast_S_S28 (constantI S_ 32 8#32)))
        (fun i => lit (S28.rowMajor i))) (ix2 k z) = lit k := by
  rw [broadcastInDim_apply (![0] : Fin 1 → Fin 2) bcast_S28_S28x1_0 _ (ix2 k z) (ix1 k)
    (by intro a; match a with | ⟨0, _⟩ => rfl)]
  rw [select_apply]
  show Scalar.select 0#1 _ _ = _
  rw [select_zero]
  show lit (S28.rowMajor (ix1 k)) = lit k
  exact congrArg lit (Fin.ext (Shape.rowMajor_val_one (ix1 k)))

/-- The index array of the scatter, as the program builds it: the two tables, each passed through the
    "add 8 where negative" normalisation (whose mask is constant false), side by side as the columns of a 28×2 array. -/
def idx0 : IVec S28x2 32 :=
  concatenate S28x2 1
    [⟨S28x1, broadcastInDim S28x1 ![0] bcast_S28_S28x1_0
        (select (constantI S28 1 0#1)
          (addi (fun i => lit0 (S28.rowMajor i)) (broadcastInDim S28 ![] bcast_S_S28 (constantI S_ 32 8#32)))
          (fun i => lit0 (S28.rowMajor i)))⟩,
     ⟨S28x1, broadcastInDim S28x1 ![0] bcast_S28_S28x1_0
        (select (constantI S28 1 0#1)
          (addi (fun i => lit1 (S28.rowMajor i)) (broadcastInDim S28 ![] bcast_S_S28 (constantI S_ 32 8#32)))
          (fun i => lit1 (S28.rowMajor i)))⟩]
    concatenates_S28x1_S28x1_S28x2_d1

/-- Column 0 of the index array is the table of rows. -/
theorem idx0_row (k : Fin 28) : idx0 (ix2 k (0 : Fin 2)) = lit0 k := by
  unfold idx0
  have hi : ∀ a : Fin S28x1.rank, ((ix2 k (0 : Fin 1) : S28x1.Idx) a).val
      = ((ix2 k (0 : Fin 2) : S28x2.Idx) (a.cast (rfl : S28x1.rank = S28x2.rank))).val := by
    intro a; match a with | ⟨0, _⟩ => rfl | ⟨1, _⟩ => rfl
  rw [concatenate_pair_apply_left (t := S28x2) (s₁ := S28x1) (s₂ := S28x1) (1 : Fin 2) _ _
    concatenates_S28x1_S28x1_S28x2_d1 (ix2 k (0 : Fin 2)) rfl (ix2 k (0 : Fin 1)) hi]
  exact col_apply lit0 k 0

/-- Column 1 of the index array is the table of columns. -/
theorem idx0_col (k : Fin 28) : idx0 (ix2 k (1 : Fin 2)) = lit1 k := by
  unfold idx0
  have hi : ∀ a : Fin S28x1.rank, a.cast (rfl : S28x1.rank = S28x2.rank) ≠ (1 : Fin 2) →
      ((ix2 k (0 : Fin 1) : S28x1.Idx) a).val
        = ((ix2 k (1 : Fin 2) : S28x2.Idx) (a.cast (rfl : S28x1.rank = S28x2.rank))).val := by
    intro a ha; match a with | ⟨0, _⟩ => rfl | ⟨1, _⟩ => exact absurd rfl ha
  rw [concatenate_pair_apply_right (t := S28x2) (s₁ := S28x1) (s₂ := S28x1) (1 : Fin 2) _ _
    concatenates_S28x1_S28x1_S28x2_d1 (ix2 k (1 : Fin 2)) rfl rfl (ix2 k (0 : Fin 1)) hi (by rfl)]
  exact col_apply lit1 k 0

/-- The program's scatter, over the index array it builds, read at (b, f, i, j). -/
theorem tri_apply_idx0 {α : Type} (x : S8192x96x8x8.Idx → α) (upd : S8192x96x28.Idx → α)
    (b : Fin 8192) (f : Fin 96) (i j : Fin 8) :
    Host.scatter scatter_S8192x96x8x8_S28x2_S8192x96x28_01_23_23_1 (fun _ b => b) x idx0 upd (ix4 b f i j)
      = if h : i.val < j.val then upd (ix3 b f (triPos i j h)) else x (ix4 b f i j) :=
  tri_apply x idx0 idx0_row idx0_col upd b f i j

end IndexOperand

end Cert.RefTri
-- ==== Proof.RefRead.lean ====
/-
  The reference program's three matrix stages, read one entry at a time.

  For each row b and group f the reference holds 36 numbers v = lv(b, f, ·).  Its three 8×8 results are:
  D, exp(v(i)/2) spread along a new last axis times the identity pattern "row number = column number";
  T, the identity pattern with the 28 numbers v(8..35) written over the positions above the diagonal, row by row;
  and the precision, the product over the row axis j of T(j, i) with T(j, k) scaled by 1 / exp(v(j)/2) — which is
  exp(-v(j)/2) for every extended real v(j).  Entry by entry these are the specification's D, T and P of v.
-/
import proofs.«165734_j10067403341934_2_alg».proof.Proof.RefRun
import proofs.«165734_j10067403341934_2_alg».proof.Proof.Spec
import proofs.«165734_j10067403341934_2_alg».proof.Proof.RefTri
import Idealize.ShloMosaic.Lib.Pipeline.Value

noncomputable section

open scoped BigOperators

namespace Cert.RefRead

open Idealize.ShloMosaic Idealize.ShloMosaic.ValueIdx Cert.RowDot Cert.Spec
open Cert.ReferenceIdeal

/-! ## Spreading an array over more axes, read at an entry -/

section Spread
variable {α : Type}

/-- A scalar spread over an array reads as the scalar everywhere. -/
theorem bcast_scalar_apply {t : Shape} (h : S_.BroadcastsInDim t (![] : Fin 0 → Fin t.rank)) (x : S_.Idx → α)
    (j : t.Idx) : broadcastInDim t ![] h x j = x ix0 :=
  broadcastInDim_apply _ h x j ix0 fun a => a.elim0

/-- An array over (b, f, i) given a new last axis of extent one and spread along it over 8 columns: entry (b, f, i, j)
    is the array at (b, f, i). -/
theorem spread_last_apply (y : S8192x96x8.Idx → α)
    (h1 : S8192x96x8.BroadcastsInDim S8192x96x8x1 (![0, 1, 2] : Fin 3 → Fin 4))
    (h2 : S8192x96x8x1.BroadcastsInDim S8192x96x8x8 (![0, 1, 2, 3] : Fin 4 → Fin 4))
    (b : Fin 8192) (f : Fin 96) (i j : Fin 8) :
    broadcastInDim S8192x96x8x8 ![0, 1, 2, 3] h2 (broadcastInDim S8192x96x8x1 ![0, 1, 2] h1 y) (ix4 b f i j)
      = y (ix3 b f i) := by
  refine (broadcastInDim_apply _ h2 _ (ix4 b f i j) (ix4 b f i (0 : Fin 1)) fun a => ?_).trans ?_
  · match a with
    | ⟨0, _⟩ => rfl
    | ⟨1, _⟩ => rfl
    | ⟨2, _⟩ => rfl
    | ⟨3, _⟩ => rfl
  · refine broadcastInDim_apply _ h1 y (ix4 b f i (0 : Fin 1)) (ix3 b f i) fun a => ?_
    match a with
    | ⟨0, _⟩ => rfl
    | ⟨1, _⟩ => rfl
    | ⟨2, _⟩ => rfl

/-- An 8×8 array given two leading axes of extent one and spread along them over all rows and groups: entry
    (b, f, i, j) is the array at (i, j). -/
theorem spread_batch_apply (E : S8x8.Idx → α)
    (h1 : S8x8.BroadcastsInDim S1x1x8x8 (![2, 3] : Fin 2 → Fin 4))
    (h2 : S1x1x8x8.BroadcastsInDim S8192x96x8x8 (![0, 1, 2, 3] : Fin 4 → Fin 4))
    (b : Fin 8192) (f : Fin 96) (i j : Fin 8) :
    broadcastInDim S8192x96x8x8 ![0, 1, 2, 3] h2 (broadcastInDim S1x1x8x8 ![2, 3] h1 E) (ix4 b f i j) = E (ix2 i j) := by
  refine (broadcastInDim_apply _ h2 _ (ix4 b f i j) (ix4 (0 : Fin 1) (0 : Fin 1) i j) fun a => ?_).trans ?_
  · match a with
    | ⟨0, _⟩ => rfl
    | ⟨1, _⟩ => rfl
    | ⟨2, _⟩ => rfl
    | ⟨3, _⟩ => rfl
  · refine broadcastInDim_apply _ h1 E (ix4 (0 : Fin 1) (0 : Fin 1) i j) (ix2 i j) fun a => ?_
    match a with
    | ⟨0, _⟩ => rfl
    | ⟨1, _⟩ => rfl

/-- An 8×8 array spread directly over all rows and groups: entry (b, f, i, j) is the array at (i, j). -/
theorem spread_eye_apply (E : S8x8.Idx → α) (h : S8x8.BroadcastsInDim S8192x96x8x8 (![2, 3] : Fin 2 → Fin 4))
    (b : Fin 8192) (f : Fin 96) (i j : Fin 8) :
    broadcastInDim S8192x96x8x8 ![2, 3] h E (ix4 b f i j) = E (ix2 i j) := by
  refine broadcastInDim_apply _ h E (ix4 b f i j) (ix2 i j) fun a => ?_
  match a with
  | ⟨0, _⟩ => rfl
  | ⟨1, _⟩ => rfl

end Spread

/-! ## The identity pattern -/

/-- "Row number plus zero = column number", as a one-bit word read unsigned: 1 on the diagonal, 0 off it. -/
theorem mask_fact : ∀ i j : Fin 8,
    (IntOp.cmpi .eq (BitVec.ofNat 32 i.val + 0#32) (BitVec.ofNat 32 j.val)).toNat = if i = j then 1 else 0 := by
  decide

/-- The identity pattern at (i, j) is the identity matrix's entry. -/
theorem eyeT_apply (i j : Fin 8) : RefRun.eyeT (F := Ideal) (ix2 i j) = eye i j := by
  show (((IntOp.cmpi .eq (BitVec.ofNat 32 i.val + 0#32) (BitVec.ofNat 32 j.val)).toNat : ℝ) : EReal) = eye i j
  rw [mask_fact]
  unfold eye
  by_cases h : i = j
  · rw [if_pos h, if_pos h]; simp
  · rw [if_neg h, if_neg h]; simp

/-! ## The diagonal scales and D -/

/-- The scale at (b, f, i) is exp of half the group's i-th number. -/
theorem dT_apply (lv : FVec Ideal S8192x96x36 .f32) (b : Fin 8192) (f : Fin 96) (i : Fin 8) :
    RefRun.dT lv (ix3 b f i) = Ideal.exp (Ideal.ofBits .f32 0x3F000000#32 * lv (ix3 b f (dpos i))) := by
  unfold RefRun.dT
  show Ideal.exp (broadcastInDim S8192x96x8 ![] _ (constant (F := Ideal) S_ .f32 0x3F000000#32) (ix3 b f i)
      * extractStridedSlice S8192x96x8 ![0, 0, 0] lv _ (ix3 b f i)) = _
  rw [bcast_scalar_apply, extractStridedSlice_apply _ lv _ (ix3 b f i) (ix3 b f (dpos i)) (fun a => by
    match a with
    | ⟨0, _⟩ => show b.val = 0 + b.val; omega
    | ⟨1, _⟩ => show f.val = 0 + f.val; omega
    | ⟨2, _⟩ => show i.val = 0 + i.val; omega)]
  rfl

/-- D at (b, f, i, j): exp of half the group's i-th number on the diagonal, zero off it. -/
theorem diagT_apply (lv : FVec Ideal S8192x96x36 .f32) (b : Fin 8192) (f : Fin 96) (i j : Fin 8) :
    RefRun.diagT lv (ix4 b f i j) = Dmat (fun e => lv (ix3 b f e)) i j := by
  unfold RefRun.diagT
  rw [mulf_apply, spread_last_apply, spread_batch_apply, dT_apply, eyeT_apply]
  rfl

/-! ## T -/

/-- Column 0 of the program's index array is the table of rows. -/
theorem idxT_row (k : Fin 28) : RefRun.idxT (ix2 k (0 : Fin 2)) = lit0 k := RefTri.idx0_row k

/-- Column 1 of the program's index array is the table of columns. -/
theorem idxT_col (k : Fin 28) : RefRun.idxT (ix2 k (1 : Fin 2)) = lit1 k := RefTri.idx0_col k

/-- The 28 strict-upper numbers of a group are positions 8..35 of its 36 numbers. -/
theorem upper_apply (lv : FVec Ideal S8192x96x36 .f32) (hs : S8192x96x36.Slices ![0, 0, 8] S8192x96x28)
    (b : Fin 8192) (f : Fin 96) (i j : Fin 8) (h : i.val < j.val) :
    extractStridedSlice S8192x96x28 ![0, 0, 8] lv hs (ix3 b f (RefTri.triPos i j h)) = lv (ix3 b f (tpos i j h)) := by
  refine extractStridedSlice_apply _ lv hs (ix3 b f (RefTri.triPos i j h)) (ix3 b f (tpos i j h)) fun a => ?_
  match a with
  | ⟨0, _⟩ => show b.val = 0 + b.val; omega
  | ⟨1, _⟩ => show f.val = 0 + f.val; omega
  | ⟨2, _⟩ => rfl

/-- T at (b, f, i, j): the group's number at the position of (i, j) above the diagonal, one on it, zero below. -/
theorem triT_apply (lv : FVec Ideal S8192x96x36 .f32) (b : Fin 8192) (f : Fin 96) (i j : Fin 8) :
    RefRun.triT lv (ix4 b f i j) = Tmat (fun e => lv (ix3 b f e)) i j := by
  unfold RefRun.triT
  rw [RefTri.tri_apply _ RefRun.idxT idxT_row idxT_col]
  unfold Tmat
  by_cases h : i.val < j.val
  · rw [dif_pos h, dif_pos h]
    exact upper_apply lv _ b f i j h
  · rw [dif_neg h, dif_neg h, spread_eye_apply, eyeT_apply]

/-! ## The precision: a product over the row axis, batched over rows and groups -/

/-- The product's dimension numbers, as a closed record: contract axis 2 of both operands, axes 0 and 1 batch, axis 3
    of each operand free. -/
def dB : DotDims S8192x96x8x8 S8192x96x8x8 S8192x96x8x8 where
  lhsContracting := [2]
  rhsContracting := [2]
  lhsNonContracting := [3]
  rhsNonContracting := [3]
  lhsBatch := [0, 1]
  rhsBatch := [0, 1]

/-- The program's record is this one. -/
theorem dB_eq [Cert.ReferenceIdeal.Facts₀] : dot_S8192x96x8x8_S8192x96x8x8_S8192x96x8x8_2_2_3_3_01_01 = dB := rfl

/-- One axis is contracted … -/
theorem dB_rank : dB.contr.rank = 1 := rfl
/-- … of extent 8. -/
theorem dB_size : dB.contr.size ⟨0, by rw [dB_rank]; exact Nat.one_pos⟩ = 8 := rfl

/-- At output entry (b, f, i, k) the left operand's index keeps the row b on axis 0 (a batch axis). -/
theorem lhs0 (b : Fin 8192) (f : Fin 96) (i k : Fin 8) (u : dB.contr.Idx) : (dB.lhsIdx (ix4 b f i k) u 0).val = b.val := by
  unfold DotDims.lhsIdx
  rw [dif_pos (by decide)]
  rfl
/-- … and the group f on axis 1 (a batch axis). -/
theorem lhs1 (b : Fin 8192) (f : Fin 96) (i k : Fin 8) (u : dB.contr.Idx) : (dB.lhsIdx (ix4 b f i k) u 1).val = f.val := by
  unfold DotDims.lhsIdx
  rw [dif_pos (by decide)]
  rfl
/-- On the contracted axis 2 the left operand's index is the contraction position. -/
theorem lhs2 (b : Fin 8192) (f : Fin 96) (i k : Fin 8) (u : dB.contr.Idx) :
    (dB.lhsIdx (ix4 b f i k) u 2).val = (u ⟨0, by rw [dB_rank]; exact Nat.one_pos⟩).val :=
  dB.lhsIdx_val_of_single rfl _ u
/-- On its free axis 3 the left operand's index is the output's coordinate i. -/
theorem lhs3 (b : Fin 8192) (f : Fin 96) (i k : Fin 8) (u : dB.contr.Idx) : (dB.lhsIdx (ix4 b f i k) u 3).val = i.val := by
  unfold DotDims.lhsIdx
  rw [dif_neg (by decide), dif_pos (by decide)]
  rfl
/-- At output entry (b, f, i, k) the right operand's index keeps the row b on axis 0 (a batch axis). -/
theorem rhs0 (b : Fin 8192) (f : Fin 96) (i k : Fin 8) (u : dB.contr.Idx) : (dB.rhsIdx (ix4 b f i k) u 0).val = b.val := by
  unfold DotDims.rhsIdx
  rw [dif_pos (by decide)]
  rfl
/-- … and the group f on axis 1 (a batch axis). -/
theorem rhs1 (b : Fin 8192) (f : Fin 96) (i k : Fin 8) (u : dB.contr.Idx) : (dB.rhsIdx (ix4 b f i k) u 1).val = f.val := by
  unfold DotDims.rhsIdx
  rw [dif_pos (by decide)]
  rfl
/-- On the contracted axis 2 the right operand's index is the contraction position. -/
theorem rhs2 (b : Fin 8192) (f : Fin 96) (i k : Fin 8) (u : dB.contr.Idx) :
    (dB.rhsIdx (ix4 b f i k) u 2).val = (u ⟨0, by rw [dB_rank]; exact Nat.one_pos⟩).val :=
  dB.rhsIdx_val_of_single rfl _ u
/-- On its free axis 3 the right operand's index is the output's coordinate k. -/
theorem rhs3 (b : Fin 8192) (f : Fin 96) (i k : Fin 8) (u : dB.contr.Idx) : (dB.rhsIdx (ix4 b f i k) u 3).val = k.val := by
  unfold DotDims.rhsIdx
  rw [dif_neg (by decide), dif_pos (by decide)]
  rfl

/-- The contraction's sum at output entry (b, f, i, k), re-indexed by the row j: the left operand at (b, f, j, i) times
    the right operand at (b, f, j, k). -/
theorem batched_contr_sum (l r : S8192x96x8x8.Idx → EReal) (b : Fin 8192) (f : Fin 96) (i k : Fin 8) :
    ∑ u : dB.contr.Idx, l (dB.lhsIdx (ix4 b f i k) u) * r (dB.rhsIdx (ix4 b f i k) u)
      = ∑ j : Fin 8, l (ix4 b f j i) * r (ix4 b f j k) := by
  rw [← Equiv.sum_comp (contrEquiv1 dB 8 dB_rank dB_size).symm]
  refine Finset.sum_congr rfl fun j _ => ?_
  have hj := contrEquiv1_symm_val dB 8 dB_rank dB_size j
  have el : dB.lhsIdx (ix4 b f i k) ((contrEquiv1 dB 8 dB_rank dB_size).symm j) = ix4 b f j i :=
    funext fun a => Fin.ext (by
      match a with
      | ⟨0, _⟩ => exact lhs0 b f i k _
      | ⟨1, _⟩ => exact lhs1 b f i k _
      | ⟨2, _⟩ => exact (lhs2 b f i k _).trans hj
      | ⟨3, _⟩ => exact lhs3 b f i k _)
  have er : dB.rhsIdx (ix4 b f i k) ((contrEquiv1 dB 8 dB_rank dB_size).symm j) = ix4 b f j k :=
    funext fun a => Fin.ext (by
      match a with
      | ⟨0, _⟩ => exact rhs0 b f i k _
      | ⟨1, _⟩ => exact rhs1 b f i k _
      | ⟨2, _⟩ => exact (rhs2 b f i k _).trans hj
      | ⟨3, _⟩ => exact rhs3 b f i k _)
  exact congrArg₂ (fun x y : EReal => x * y) (congrArg l el) (congrArg r er)

/-- The program's batched product at entry (b, f, i, k): the sum over the row j of l(b, f, j, i) · r(b, f, j, k). -/
theorem batched_dot_apply [Cert.ReferenceIdeal.Facts₀] (l r : FVec Ideal S8192x96x8x8 .f32)
    (b : Fin 8192) (f : Fin 96) (i k : Fin 8) :
    Host.dotGeneral dot_S8192x96x8x8_S8192x96x8x8_S8192x96x8x8_2_2_3_3_01_01 none l r (ix4 b f i k)
      = ∑ j : Fin 8, l (ix4 b f j i) * r (ix4 b f j k) := by
  show FloatOps.dotGeneral dB none .single l r (ix4 b f i k) = _
  rw [Ideal.dotGeneral_apply]
  exact batched_contr_sum l r b f i k

/-- One over the scales, spread along a new last axis: entry (b, f, j, k) is 1 / scale(b, f, j). -/
theorem inv_scale_apply (dd : FVec Ideal S8192x96x8 .f32)
    (h0 : S_.BroadcastsInDim S8192x96x8 (![] : Fin 0 → Fin 3))
    (h1 : S8192x96x8.BroadcastsInDim S8192x96x8x1 (![0, 1, 2] : Fin 3 → Fin 4))
    (h2 : S8192x96x8x1.BroadcastsInDim S8192x96x8x8 (![0, 1, 2, 3] : Fin 4 → Fin 4))
    (b : Fin 8192) (f : Fin 96) (j k : Fin 8) :
    broadcastInDim S8192x96x8x8 ![0, 1, 2, 3] h2 (broadcastInDim S8192x96x8x1 ![0, 1, 2] h1
        (Host.divf (broadcastInDim S8192x96x8 ![] h0 (constant (F := Ideal) S_ .f32 0x3F800000#32)) dd)) (ix4 b f j k)
      = Ideal.div (Ideal.ofBits .f32 0x3F800000#32) (dd (ix3 b f j)) := by
  refine (spread_last_apply _ h1 h2 b f j k).trans ?_
  show Ideal.div (broadcastInDim S8192x96x8 ![] h0 (constant (F := Ideal) S_ .f32 0x3F800000#32) (ix3 b f j)) (dd (ix3 b f j)) = _
  rw [bcast_scalar_apply]
  rfl

/-- The precision at (b, f, i, k): the sum over j of T(j, i) · (T(j, k) · exp(-v(j)/2)). -/
theorem precT_apply (lv : FVec Ideal S8192x96x36 .f32) (b : Fin 8192) (f : Fin 96) (i k : Fin 8) :
    RefRun.precT lv (ix4 b f i k) = Pmat (fun e => lv (ix3 b f e)) i k := by
  unfold RefRun.precT
  refine (batched_dot_apply _ _ b f i k).trans ?_
  unfold Pmat
  refine Finset.sum_congr rfl fun j _ => ?_
  rw [mulf_apply, triT_apply, triT_apply, inv_scale_apply, dT_apply, ← exp_neg_half]

end Cert.RefRead

end
-- ==== Proof.RefValue.lean ====
/-
  The reference's run, its four results stated as the specification's whole-array functions of the nine argument
  arrays: entry by entry, each result stage is the specification's matrix or row function of the row's hidden row.
-/
import proofs.«165734_j10067403341934_2_alg».proof.Proof.RefStages
import proofs.«165734_j10067403341934_2_alg».proof.Proof.RefRead
import proofs.«165734_j10067403341934_2_alg».proof.Proof.Spec

noncomputable section

namespace Cert.RefValue

open Idealize.ShloMosaic Idealize.ShloMosaic.ValueIdx Idealize.ShloMosaic.TcCoe Idealize.SL.Sem
open Cert.ReferenceIdeal Cert.ReferenceIdeal.Gen Cert.ReferenceIdeal.RefRun

section Stages
variable (z : FVec Ideal S8192x1024 .f32) (W1 : FVec Ideal S1024x1024 .f32) (b1 : FVec Ideal S1024 .f32)
  (W2 : FVec Ideal S1024x1024 .f32) (b2 : FVec Ideal S1024 .f32)

/-- The mean array is the specification's, entry by entry. -/
theorem means_eq (Wm : FVec Ideal S1024x768 .f32) (bm : FVec Ideal S768 .f32) :
    meansT (hid z W1 b1 W2 b2) Wm bm = Spec.Gmeans z W1 b1 W2 b2 Wm bm := by
  funext j
  obtain ⟨b, f, o, rfl⟩ : ∃ b f o, j = ix3 b f o := ⟨_, _, _, eq_ix3 j⟩
  exact (RefStages.meansT_hid_apply z W1 b1 W2 b2 Wm bm b f o).trans (Spec.Gmeans_ix z W1 b1 W2 b2 Wm bm b f o).symm

/-- The 36 log-variance numbers of row b, group f, are the specification's. -/
theorem group_eq (Wv : FVec Ideal S1024x3456 .f32) (bv : FVec Ideal S3456 .f32) (b : Fin 8192) (f : Fin 96) :
    (fun e => logvarT (hid z W1 b1 W2 b2) Wv bv (ix3 b f e)) = Spec.group z W1 b1 W2 b2 Wv bv b f :=
  funext fun e => RefStages.logvarT_hid_apply z W1 b1 W2 b2 Wv bv b f e

/-- The precision array is the specification's, entry by entry. -/
theorem prec_eq (Wv : FVec Ideal S1024x3456 .f32) (bv : FVec Ideal S3456 .f32) :
    precT (logvarT (hid z W1 b1 W2 b2) Wv bv) = Spec.Gprec z W1 b1 W2 b2 Wv bv := by
  funext j
  obtain ⟨b, f, i, k, rfl⟩ : ∃ b f i k, j = ix4 b f i k := ⟨_, _, _, _, eq_ix4 j⟩
  exact ((RefRead.precT_apply _ b f i k).trans
    (congrArg (fun v => Spec.Pmat v i k) (group_eq z W1 b1 W2 b2 Wv bv b f))).trans
    (Spec.Gprec_ix z W1 b1 W2 b2 Wv bv b f i k).symm

/-- The diagonal-scale array is the specification's, entry by entry. -/
theorem diag_eq (Wv : FVec Ideal S1024x3456 .f32) (bv : FVec Ideal S3456 .f32) :
    diagT (logvarT (hid z W1 b1 W2 b2) Wv bv) = Spec.Gdiag z W1 b1 W2 b2 Wv bv := by
  funext j
  obtain ⟨b, f, i, k, rfl⟩ : ∃ b f i k, j = ix4 b f i k := ⟨_, _, _, _, eq_ix4 j⟩
  exact ((RefRead.diagT_apply _ b f i k).trans
    (congrArg (fun v => Spec.Dmat v i k) (group_eq z W1 b1 W2 b2 Wv bv b f))).trans
    (Spec.Gdiag_ix z W1 b1 W2 b2 Wv bv b f i k).symm

/-- The triangular array is the specification's, entry by entry. -/
theorem tri_eq (Wv : FVec Ideal S1024x3456 .f32) (bv : FVec Ideal S3456 .f32) :
    triT (logvarT (hid z W1 b1 W2 b2) Wv bv) = Spec.Gtri z W1 b1 W2 b2 Wv bv := by
  funext j
  obtain ⟨b, f, i, k, rfl⟩ : ∃ b f i k, j = ix4 b f i k := ⟨_, _, _, _, eq_ix4 j⟩
  exact ((RefRead.triT_apply _ b f i k).trans
    (congrArg (fun v => Spec.Tmat v i k) (group_eq z W1 b1 W2 b2 Wv bv b f))).trans
    (Spec.Gtri_ix z W1 b1 W2 b2 Wv bv b f i k).symm

end Stages

/-- On every device, from any memory with zero counters: every weakly fair execution of the reference's @main
    terminates with its four results the specification's arrays of the arguments' launch contents, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Spec.Gmeans (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v51) = Spec.Gprec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v34) = Spec.Gdiag (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v48) = Spec.Gtri (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c).1.trans (means_eq _ _ _ _ _ _ _),
       (h c).2.1.trans (prec_eq _ _ _ _ _ _ _),
       (h c).2.2.1.trans (diag_eq _ _ _ _ _ _ _),
       (h c).2.2.2.1.trans (tri_eq _ _ _ _ _ _ _),
       (h c).2.2.2.2⟩)
    (RefRun.run m ρ)

end Cert.RefValue

end
-- ==== Proof.lean ====
/-
  Both programs compute, for each of 8192 rows z_b of 1024 numbers, the hidden row
  h = silu(z_b · W1 + b1) · W2 + b2 (silu(x) = x / (1 + e^(-x))), then 768 mean numbers h · Wm + bm read as 96 groups
  of 8, and 3456 log-variance numbers h · Wv + bv read as 96 groups of 36.  A group v of 36 numbers gives three 8×8
  matrices: D = diag(exp(v(i)/2)); T, upper unit-triangular, with v(8..35) above the diagonal row by row; and the
  precision P = Tᵀ · diag(exp(-v(j)/2)) · T.  The four results are the means, P, D and T for every row and group.

  One program works through the rows eight at a time and builds T row by row and P as a sum of eight outer products;
  the other works on all rows at once, writes the 28 numbers into an identity pattern, and takes P as a product over
  the row axis of T with T scaled by 1 / exp(v(j)/2).  Read at the exact values (every number an extended real, every
  operation the textbook one) each result array of either program is one and the same function of the nine argument
  arrays, entry by entry: a sum may be grouped or ordered in any way, and the one law that joins the two spellings of
  the scale is exp(-x/2) = 1 / exp(x/2), which holds for EVERY extended real x (at -∞ both sides are +∞, at +∞ both
  are 0).  So nothing is asked of the inputs: the assumption that they are finite is never opened.

  Each program also terminates from every memory with its counters at zero, without a fault, and leaves its nine
  argument arrays as they were; the idealized kernel is the kernel's own text read at the exact values.
-/
import proofs.«165734_j10067403341934_2_alg».proof.Defs
import proofs.«165734_j10067403341934_2_alg».proof.Proof.Gen.Kernel
import proofs.«165734_j10067403341934_2_alg».proof.Proof.Gen.Kernel.Skeleton
import proofs.«165734_j10067403341934_2_alg».proof.Proof.Gen.Kernel.Launch
import proofs.«165734_j10067403341934_2_alg».proof.Proof.Gen.Kernel.Points
import proofs.«165734_j10067403341934_2_alg».proof.Proof.Gen.Kernel.Frame
import proofs.«165734_j10067403341934_2_alg».proof.Proof.Gen.KernelIdeal
import proofs.«165734_j10067403341934_2_alg».proof.Proof.Gen.KernelIdeal.Skeleton
import proofs.«165734_j10067403341934_2_alg».proof.Proof.Gen.KernelIdeal.Launch
import proofs.«165734_j10067403341934_2_alg».proof.Proof.Gen.KernelIdeal.Points
import proofs.«165734_j10067403341934_2_alg».proof.Proof.Gen.KernelIdeal.Frame
import proofs.«165734_j10067403341934_2_alg».proof.Proof.Gen.KernelIdeal.Value
import proofs.«165734_j10067403341934_2_alg».proof.Proof.Gen.ReferenceIdeal
import proofs.«165734_j10067403341934_2_alg».proof.Proof.Gen.Pre_finite_inputs
import proofs.«165734_j10067403341934_2_alg».proof.Proof.KValue
import proofs.«165734_j10067403341934_2_alg».proof.Proof.RefValue
import Idealize.ShloMosaic.Adequacy
import Idealize.ShloMosaic.Init

noncomputable section

namespace Cert.Proof

open Idealize.ShloMosaic Idealize.SL.Sem

/-- The kernel terminates without a fault and leaves its arguments as they were. -/
theorem frame_Kernel : Cert.frame_Kernel := fun m ρ _ => Cert.Kernel.Gen.frame m ρ

/-- So does the kernel read at the exact values. -/
theorem frame_KernelIdeal : Cert.frame_KernelIdeal := fun m ρ _ => Cert.KernelIdeal.Gen.frame m ρ

/-- So does the reference: its run, with the four result equations dropped. -/
theorem frame_ReferenceIdeal : Cert.frame_ReferenceIdeal := fun m ρ _ =>
  (θ_run Cert.ReferenceIdeal.defs _ _).mono (fun _ h c => (h c).2.2.2.2)
    (Cert.ReferenceIdeal.RefRun.run (F := Ideal) m ρ)

/-- The kernel read at the exact values is the kernel's own text: nothing was rewritten. -/
theorem preserves : Cert.preserves_Kernel_KernelIdeal := trivial

/-- From memories that agree on the nine arguments both programs end with the same four result arrays: each is the
    same whole-array function of the arguments, the reference's stated of its own memory and carried over by the
    agreement. -/
theorem algebraic : Cert.algebraic_KernelIdeal_ReferenceIdeal := by
  intro m ρ m' ρ' _ hagree
  refine ⟨fun c => Spec.Gmeans (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Spec.Gprec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Spec.Gdiag (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Spec.Gtri (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ?_) (Cert.RefValue.run m' ρ')
  obtain ⟨h0, h1, h2, h3, hargs⟩ := h c
  obtain ⟨a0, a1, a2, a3, a4, a5, a6, a7, a8⟩ := hagree c
  refine ⟨h0.trans ?_, h1.trans ?_, h2.trans ?_, h3.trans ?_, hargs⟩
  · rw [a0, a1, a2, a3, a4, a5, a6]
  · rw [a0, a1, a2, a3, a4, a7, a8]
  · rw [a0, a1, a2, a3, a4, a7, a8]
  · rw [a0, a1, a2, a3, a4, a7, a8]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
